-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3x2048x4096 : Shape := ⟨4, ![2, 3, 2048, 4096]⟩
abbrev S80x256x256x2 : Shape := ⟨4, ![80, 256, 256, 2]⟩
abbrev S_ : Shape := ⟨0, ![]⟩

class Facts : Prop where
  bcast_S_S2x3x2048x4096 : S_.BroadcastsInDim S2x3x2048x4096 (![] : Fin 0 → Fin S2x3x2048x4096.rank)
  reducesTo_S2x3x2048x4096_S_d0_1_2_3 : S2x3x2048x4096.ReducesTo [0, 1, 2, 3] S_
  h_S_ : 0 < S_.numel
  bcast_S_S80x256x256x2 : S_.BroadcastsInDim S80x256x256x2 (![] : Fin 0 → Fin S80x256x256x2.rank)
  reducesTo_S80x256x256x2_S_d0_1_2_3 : S80x256x256x2.ReducesTo [0, 1, 2, 3] S_

variable [Facts]

def fn {F : FTy → Type} [FloatOps F] (main_arg0 : FVec F S2x3x2048x4096 .f32) (main_arg1 : FVec F S80x256x256x2 .f32) : IVec S_ 1 :=
  let main_v0 : FVec F S2x3x2048x4096 .f32 := Host.absf main_arg0
  let main_cst : FVec F S_ .f32 := constant S_ .f32 0x7F800000#32
  let main_v1 : FVec F S2x3x2048x4096 .f32 := broadcastInDim S2x3x2048x4096 ![] bcast_S_S2x3x2048x4096 main_cst
  let main_v2 : IVec S2x3x2048x4096 1 := cmpf .olt main_v0 main_v1
  let main_c : IVec S_ 1 := constantI S_ 1 1#1
  let main_v3 : IVec S_ 1 := (fun x v => Host.reduce IntOp.andi x v reducesTo_S2x3x2048x4096_S_d0_1_2_3 h_S_) main_v2 main_c
  let main_v4 : FVec F S80x256x256x2 .f32 := Host.absf main_arg1
  let main_cst_0 : FVec F S_ .f32 := constant S_ .f32 0x7F800000#32
  let main_v5 : FVec F S80x256x256x2 .f32 := broadcastInDim S80x256x256x2 ![] bcast_S_S80x256x256x2 main_cst_0
  let main_v6 : IVec S80x256x256x2 1 := cmpf .olt main_v4 main_v5
  let main_c_1 : IVec S_ 1 := constantI S_ 1 1#1
  let main_v7 : IVec S_ 1 := (fun x v => Host.reduce IntOp.andi x v reducesTo_S80x256x256x2_S_d0_1_2_3 h_S_) main_v6 main_c_1
  let main_v8 : IVec S_ 1 := andi main_v3 main_v7
  main_v8
-- ==== Kernel.lean ====
abbrev S2x3x2048x4096 : Shape := ⟨4, ![2, 3, 2048, 4096]⟩
abbrev S80x256x256x2 : Shape := ⟨4, ![80, 256, 256, 2]⟩
abbrev S80x256x256x1 : Shape := ⟨4, ![80, 256, 256, 1]⟩
abbrev S80x256x256 : Shape := ⟨3, ![80, 256, 256]⟩
abbrev S_ : Shape := ⟨0, ![]⟩
abbrev S2x3x8388608 : Shape := ⟨3, ![2, 3, 8388608]⟩
abbrev S1 : Shape := ⟨1, ![1]⟩
abbrev S1x1x1x1 : Shape := ⟨4, ![1, 1, 1, 1]⟩
abbrev S2x3x80x256x256 : Shape := ⟨5, ![2, 3, 80, 256, 256]⟩
abbrev S6x80x256x256 : Shape := ⟨4, ![6, 80, 256, 256]⟩
abbrev S1x10x256x256 : Shape := ⟨4, ![1, 10, 256, 256]⟩
abbrev S10x256x256 : Shape := ⟨3, ![10, 256, 256]⟩

abbrev nBuf : Space → Nat
  | .hbm => 193
  | .vmem => 14
  | .smem => 0
  | _ => 0

abbrev hbmTy0_0 (i : Nat) : BufTy := match i % 128 with
  | 0 => ⟨S2x3x2048x4096, .f32⟩
  | 1 => ⟨S80x256x256x2, .f32⟩
  | 2 => ⟨S80x256x256x1, .f32⟩
  | 3 => ⟨S80x256x256, .f32⟩
  | 4 => ⟨S80x256x256x1, .f32⟩
  | 5 => ⟨S80x256x256, .f32⟩
  | 6 => ⟨S80x256x256, .f32⟩
  | 7 => ⟨S80x256x256, .f32⟩
  | 8 => ⟨S80x256x256, .f32⟩
  | 9 => ⟨S80x256x256, .f32⟩
  | 10 => ⟨S80x256x256, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S80x256x256, .i32⟩
  | 18 => ⟨S80x256x256, .i32⟩
  | 19 => ⟨S_, .i32⟩
  | 20 => ⟨S80x256x256, .i32⟩
  | 21 => ⟨S80x256x256, .i1⟩
  | 22 => ⟨S_, .i32⟩
  | 23 => ⟨S80x256x256, .i32⟩
  | 24 => ⟨S80x256x256, .i1⟩
  | 25 => ⟨S_, .i32⟩
  | 26 => ⟨S_, .i1⟩
  | 27 => ⟨S80x256x256, .i1⟩
  | 28 => ⟨S80x256x256, .i1⟩
  | 29 => ⟨S80x256x256, .i1⟩
  | 30 => ⟨S80x256x256, .i32⟩
  | 31 => ⟨S80x256x256, .i32⟩
  | 32 => ⟨S80x256x256, .i32⟩
  | 33 => ⟨S_, .i32⟩
  | 34 => ⟨S80x256x256, .i32⟩
  | 35 => ⟨S80x256x256, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S80x256x256, .i32⟩
  | 43 => ⟨S80x256x256, .i32⟩
  | 44 => ⟨S_, .i32⟩
  | 45 => ⟨S80x256x256, .i32⟩
  | 46 => ⟨S80x256x256, .i1⟩
  | 47 => ⟨S_, .i32⟩
  | 48 => ⟨S80x256x256, .i32⟩
  | 49 => ⟨S80x256x256, .i1⟩
  | 50 => ⟨S_, .i32⟩
  | 51 => ⟨S_, .i1⟩
  | 52 => ⟨S80x256x256, .i1⟩
  | 53 => ⟨S80x256x256, .i1⟩
  | 54 => ⟨S80x256x256, .i1⟩
  | 55 => ⟨S80x256x256, .i32⟩
  | 56 => ⟨S80x256x256, .i32⟩
  | 57 => ⟨S80x256x256, .i32⟩
  | 58 => ⟨S80x256x256, .i32⟩
  | 59 => ⟨S_, .i32⟩
  | 60 => ⟨S_, .i32⟩
  | 61 => ⟨S_, .i32⟩
  | 62 => ⟨S80x256x256, .i32⟩
  | 63 => ⟨S80x256x256, .i32⟩
  | 64 => ⟨S_, .i32⟩
  | 65 => ⟨S80x256x256, .i32⟩
  | 66 => ⟨S80x256x256, .i32⟩
  | 67 => ⟨S_, .i32⟩
  | 68 => ⟨S80x256x256, .i32⟩
  | 69 => ⟨S80x256x256, .i32⟩
  | 70 => ⟨S_, .i32⟩
  | 71 => ⟨S_, .i32⟩
  | 72 => ⟨S_, .i32⟩
  | 73 => ⟨S80x256x256, .i32⟩
  | 74 => ⟨S80x256x256, .i32⟩
  | 75 => ⟨S_, .i32⟩
  | 76 => ⟨S80x256x256, .i32⟩
  | 77 => ⟨S80x256x256, .i32⟩
  | 78 => ⟨S2x3x8388608, .f32⟩
  | 79 => ⟨S_, .i32⟩
  | 80 => ⟨S80x256x256, .i32⟩
  | 81 => ⟨S80x256x256, .i32⟩
  | 82 => ⟨S80x256x256, .i32⟩
  | 83 => ⟨S_, .i32⟩
  | 84 => ⟨S80x256x256, .i32⟩
  | 85 => ⟨S80x256x256, .i32⟩
  | 86 => ⟨S80x256x256, .i32⟩
  | 87 => ⟨S_, .i32⟩
  | 88 => ⟨S80x256x256, .i32⟩
  | 89 => ⟨S80x256x256, .i32⟩
  | 90 => ⟨S80x256x256, .i32⟩
  | 91 => ⟨S_, .i32⟩
  | 92 => ⟨S80x256x256, .i32⟩
  | 93 => ⟨S80x256x256, .i32⟩
  | 94 => ⟨S80x256x256, .i32⟩
  | 95 => ⟨S_, .i32⟩
  | 96 => ⟨S80x256x256, .i32⟩
  | 97 => ⟨S80x256x256, .i1⟩
  | 98 => ⟨S_, .i32⟩
  | 99 => ⟨S80x256x256, .i32⟩
  | 100 => ⟨S80x256x256, .i32⟩
  | 101 => ⟨S80x256x256, .i32⟩
  | 102 => ⟨S80x256x256x1, .i32⟩
  | 103 => ⟨S1, .i32⟩
  | 104 => ⟨S_, .i32⟩
  | 105 => ⟨S80x256x256x1, .i32⟩
  | 106 => ⟨S80x256x256x1, .i1⟩
  | 107 => ⟨S1x1x1x1, .i32⟩
  | 108 => ⟨S80x256x256x1, .i32⟩
  | 109 => ⟨S80x256x256x1, .i1⟩
  | 110 => ⟨S80x256x256x1, .i1⟩
  | 111 => ⟨S_, .i1⟩
  | 112 => ⟨S80x256x256, .i1⟩
  | 113 => ⟨S2x3x80x256x256, .f32⟩
  | 114 => ⟨S2x3x80x256x256, .i1⟩
  | 115 => ⟨S_, .f32⟩
  | 116 => ⟨S2x3x80x256x256, .f32⟩
  | 117 => ⟨S2x3x80x256x256, .f32⟩
  | 118 => ⟨S_, .i32⟩
  | 119 => ⟨S80x256x256, .i32⟩
  | 120 => ⟨S80x256x256, .i1⟩
  | 121 => ⟨S_, .i32⟩
  | 122 => ⟨S80x256x256, .i32⟩
  | 123 => ⟨S80x256x256, .i32⟩
  | 124 => ⟨S80x256x256, .i32⟩
  | 125 => ⟨S80x256x256x1, .i32⟩
  | 126 => ⟨S1, .i32⟩
  | 127 => ⟨S_, .i32⟩
  | _ => ⟨S2x3x2048x4096, .f32⟩

abbrev hbmTy0_1 (i : Nat) : BufTy := match i % 128 with
  | 0 => ⟨S80x256x256x1, .i32⟩
  | 1 => ⟨S80x256x256x1, .i1⟩
  | 2 => ⟨S1x1x1x1, .i32⟩
  | 3 => ⟨S80x256x256x1, .i32⟩
  | 4 => ⟨S80x256x256x1, .i1⟩
  | 5 => ⟨S80x256x256x1, .i1⟩
  | 6 => ⟨S_, .i1⟩
  | 7 => ⟨S80x256x256, .i1⟩
  | 8 => ⟨S2x3x80x256x256, .f32⟩
  | 9 => ⟨S2x3x80x256x256, .i1⟩
  | 10 => ⟨S_, .f32⟩
  | 11 => ⟨S2x3x80x256x256, .f32⟩
  | 12 => ⟨S2x3x80x256x256, .f32⟩
  | 13 => ⟨S_, .i32⟩
  | 14 => ⟨S80x256x256, .i32⟩
  | 15 => ⟨S80x256x256, .i1⟩
  | 16 => ⟨S_, .i32⟩
  | 17 => ⟨S80x256x256, .i32⟩
  | 18 => ⟨S80x256x256, .i32⟩
  | 19 => ⟨S80x256x256, .i32⟩
  | 20 => ⟨S80x256x256x1, .i32⟩
  | 21 => ⟨S1, .i32⟩
  | 22 => ⟨S_, .i32⟩
  | 23 => ⟨S80x256x256x1, .i32⟩
  | 24 => ⟨S80x256x256x1, .i1⟩
  | 25 => ⟨S1x1x1x1, .i32⟩
  | 26 => ⟨S80x256x256x1, .i32⟩
  | 27 => ⟨S80x256x256x1, .i1⟩
  | 28 => ⟨S80x256x256x1, .i1⟩
  | 29 => ⟨S_, .i1⟩
  | 30 => ⟨S80x256x256, .i1⟩
  | 31 => ⟨S2x3x80x256x256, .f32⟩
  | 32 => ⟨S2x3x80x256x256, .i1⟩
  | 33 => ⟨S_, .f32⟩
  | 34 => ⟨S2x3x80x256x256, .f32⟩
  | 35 => ⟨S2x3x80x256x256, .f32⟩
  | 36 => ⟨S_, .i32⟩
  | 37 => ⟨S80x256x256, .i32⟩
  | 38 => ⟨S80x256x256, .i1⟩
  | 39 => ⟨S_, .i32⟩
  | 40 => ⟨S80x256x256, .i32⟩
  | 41 => ⟨S80x256x256, .i32⟩
  | 42 => ⟨S80x256x256, .i32⟩
  | 43 => ⟨S80x256x256x1, .i32⟩
  | 44 => ⟨S1, .i32⟩
  | 45 => ⟨S_, .i32⟩
  | 46 => ⟨S80x256x256x1, .i32⟩
  | 47 => ⟨S80x256x256x1, .i1⟩
  | 48 => ⟨S1x1x1x1, .i32⟩
  | 49 => ⟨S80x256x256x1, .i32⟩
  | 50 => ⟨S80x256x256x1, .i1⟩
  | 51 => ⟨S80x256x256x1, .i1⟩
  | 52 => ⟨S_, .i1⟩
  | 53 => ⟨S80x256x256, .i1⟩
  | 54 => ⟨S2x3x80x256x256, .f32⟩
  | 55 => ⟨S2x3x80x256x256, .i1⟩
  | 56 => ⟨S_, .f32⟩
  | 57 => ⟨S2x3x80x256x256, .f32⟩
  | 58 => ⟨S2x3x80x256x256, .f32⟩
  | 59 => ⟨S6x80x256x256, .f32⟩
  | 60 => ⟨S6x80x256x256, .f32⟩
  | 61 => ⟨S6x80x256x256, .f32⟩
  | 62 => ⟨S6x80x256x256, .f32⟩
  | 63 => ⟨S6x80x256x256, .f32⟩
  | 64 => ⟨S2x3x80x256x256, .f32⟩
  | _ => ⟨S2x3x2048x4096, .f32⟩

abbrev hbmTy (i : Nat) : BufTy := match i / 128 with
  | 0 => hbmTy0_0 i
  | 1 => hbmTy0_1 i
  | _ => ⟨S2x3x2048x4096, .f32⟩

abbrev bufTy : (tb : Table) → Fin (tcTables nBuf tb) → BufTy
  | .hbm, ⟨i, _⟩ => hbmTy i
  | .local _ .vmem, ⟨0, _⟩ => ⟨S1x10x256x256, .f32⟩
  | .local _ .vmem, ⟨1, _⟩ => ⟨S1x10x256x256, .f32⟩
  | .local _ .vmem, ⟨2, _⟩ => ⟨S1x10x256x256, .f32⟩
  | .local _ .vmem, ⟨3, _⟩ => ⟨S1x10x256x256, .f32⟩
  | .local _ .vmem, ⟨4, _⟩ => ⟨S1x10x256x256, .f32⟩
  | .local _ .vmem, ⟨5, _⟩ => ⟨S1x10x256x256, .f32⟩
  | .local _ .vmem, ⟨6, _⟩ => ⟨S1x10x256x256, .f32⟩
  | .local _ .vmem, ⟨7, _⟩ => ⟨S1x10x256x256, .f32⟩
  | .local _ .vmem, ⟨8, _⟩ => ⟨S10x256x256, .f32⟩
  | .local _ .vmem, ⟨9, _⟩ => ⟨S10x256x256, .f32⟩
  | .local _ .vmem, ⟨10, _⟩ => ⟨S10x256x256, .f32⟩
  | .local _ .vmem, ⟨11, _⟩ => ⟨S10x256x256, .f32⟩
  | .local _ .vmem, ⟨12, _⟩ => ⟨S1x10x256x256, .f32⟩
  | .local _ .vmem, ⟨13, _⟩ => ⟨S1x10x256x256, .f32⟩
  | _, _ => ⟨S2x3x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v9 : Ref sig .tc := ⟨.hbm, 32, rfl⟩
abbrev main_c_0 : Ref sig .tc := ⟨.hbm, 33, rfl⟩
abbrev main_v10 : Ref sig .tc := ⟨.hbm, 34, rfl⟩
abbrev main_v11 : Ref sig .tc := ⟨.hbm, 35, rfl⟩
abbrev main_c_1 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v12 : Ref sig .tc := ⟨.hbm, 57, rfl⟩
abbrev main_v13 : Ref sig .tc := ⟨.hbm, 58, rfl⟩
abbrev main_c_2 : Ref sig .tc := ⟨.hbm, 59, rfl⟩
abbrev main_c_3 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v14 : Ref sig .tc := ⟨.hbm, 66, rfl⟩
abbrev main_c_4 : Ref sig .tc := ⟨.hbm, 67, rfl⟩
abbrev main_v15 : Ref sig .tc := ⟨.hbm, 68, rfl⟩
abbrev main_v16 : Ref sig .tc := ⟨.hbm, 69, rfl⟩
abbrev main_c_5 : Ref sig .tc := ⟨.hbm, 70, rfl⟩
abbrev main_c_6 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v17 : Ref sig .tc := ⟨.hbm, 77, rfl⟩
abbrev main_v18 : Ref sig .tc := ⟨.hbm, 78, rfl⟩
abbrev main_c_7 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_c_8 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_c_9 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_c_10 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_call4_c : Ref sig .tc := ⟨.hbm, 95, rfl⟩
abbrev main_call4_v0 : Ref sig .tc := ⟨.hbm, 96, rfl⟩
abbrev main_call4_v1 : Ref sig .tc := ⟨.hbm, 97, rfl⟩
abbrev main_call4_c_0 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_c_1 : Ref sig .tc := ⟨.hbm, 103, rfl⟩
abbrev main_call4_c_2 : Ref sig .tc := ⟨.hbm, 104, rfl⟩
abbrev main_call4_v6 : Ref sig .tc := ⟨.hbm, 105, rfl⟩
abbrev main_call4_v7 : Ref sig .tc := ⟨.hbm, 106, rfl⟩
abbrev main_call4_v8 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_3 : Ref sig .tc := ⟨.hbm, 111, rfl⟩
abbrev main_call4_v12 : Ref sig .tc := ⟨.hbm, 112, rfl⟩
abbrev main_call4_v13 : Ref sig .tc := ⟨.hbm, 113, rfl⟩
abbrev main_call4_v14 : Ref sig .tc := ⟨.hbm, 114, rfl⟩
abbrev main_call4_cst : Ref sig .tc := ⟨.hbm, 115, rfl⟩
abbrev main_call4_v15 : Ref sig .tc := ⟨.hbm, 116, rfl⟩
abbrev main_v31 : Ref sig .tc := ⟨.hbm, 117, rfl⟩
abbrev main_call5_c : Ref sig .tc := ⟨.hbm, 118, rfl⟩
abbrev main_call5_v0 : Ref sig .tc := ⟨.hbm, 119, rfl⟩
abbrev main_call5_v1 : Ref sig .tc := ⟨.hbm, 120, rfl⟩
abbrev main_call5_c_0 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_v5 : Ref sig .tc := ⟨.hbm, 125, rfl⟩
abbrev main_call5_c_1 : Ref sig .tc := ⟨.hbm, 126, rfl⟩
abbrev main_call5_c_2 : Ref sig .tc := ⟨.hbm, 127, rfl⟩
abbrev main_call5_v6 : Ref sig .tc := ⟨.hbm, 128, rfl⟩
abbrev main_call5_v7 : Ref sig .tc := ⟨.hbm, 129, rfl⟩
abbrev main_call5_v8 : Ref sig .tc := ⟨.hbm, 130, rfl⟩
abbrev main_call5_v9 : Ref sig .tc := ⟨.hbm, 131, rfl⟩
abbrev main_call5_v10 : Ref sig .tc := ⟨.hbm, 132, rfl⟩
abbrev main_call5_v11 : Ref sig .tc := ⟨.hbm, 133, rfl⟩
abbrev main_call5_c_3 : Ref sig .tc := ⟨.hbm, 134, rfl⟩
abbrev main_call5_v12 : Ref sig .tc := ⟨.hbm, 135, rfl⟩
abbrev main_call5_v13 : Ref sig .tc := ⟨.hbm, 136, rfl⟩
abbrev main_call5_v14 : Ref sig .tc := ⟨.hbm, 137, rfl⟩
abbrev main_call5_cst : Ref sig .tc := ⟨.hbm, 138, rfl⟩
abbrev main_call5_v15 : Ref sig .tc := ⟨.hbm, 139, rfl⟩
abbrev main_v32 : Ref sig .tc := ⟨.hbm, 140, rfl⟩
abbrev main_call6_c : Ref sig .tc := ⟨.hbm, 141, rfl⟩
abbrev main_call6_v0 : Ref sig .tc := ⟨.hbm, 142, rfl⟩
abbrev main_call6_v1 : Ref sig .tc := ⟨.hbm, 143, rfl⟩
abbrev main_call6_c_0 : Ref sig .tc := ⟨.hbm, 144, rfl⟩
abbrev main_call6_v2 : Ref sig .tc := ⟨.hbm, 145, rfl⟩
abbrev main_call6_v3 : Ref sig .tc := ⟨.hbm, 146, rfl⟩
abbrev main_call6_v4 : Ref sig .tc := ⟨.hbm, 147, rfl⟩
abbrev main_call6_v5 : Ref sig .tc := ⟨.hbm, 148, rfl⟩
abbrev main_call6_c_1 : Ref sig .tc := ⟨.hbm, 149, rfl⟩
abbrev main_call6_c_2 : Ref sig .tc := ⟨.hbm, 150, rfl⟩
abbrev main_call6_v6 : Ref sig .tc := ⟨.hbm, 151, rfl⟩
abbrev main_call6_v7 : Ref sig .tc := ⟨.hbm, 152, rfl⟩
abbrev main_call6_v8 : Ref sig .tc := ⟨.hbm, 153, rfl⟩
abbrev main_call6_v9 : Ref sig .tc := ⟨.hbm, 154, rfl⟩
abbrev main_call6_v10 : Ref sig .tc := ⟨.hbm, 155, rfl⟩
abbrev main_call6_v11 : Ref sig .tc := ⟨.hbm, 156, rfl⟩
abbrev main_call6_c_3 : Ref sig .tc := ⟨.hbm, 157, rfl⟩
abbrev main_call6_v12 : Ref sig .tc := ⟨.hbm, 158, rfl⟩
abbrev main_call6_v13 : Ref sig .tc := ⟨.hbm, 159, rfl⟩
abbrev main_call6_v14 : Ref sig .tc := ⟨.hbm, 160, rfl⟩
abbrev main_call6_cst : Ref sig .tc := ⟨.hbm, 161, rfl⟩
abbrev main_call6_v15 : Ref sig .tc := ⟨.hbm, 162, rfl⟩
abbrev main_v33 : Ref sig .tc := ⟨.hbm, 163, rfl⟩
abbrev main_call7_c : Ref sig .tc := ⟨.hbm, 164, rfl⟩
abbrev main_call7_v0 : Ref sig .tc := ⟨.hbm, 165, rfl⟩
abbrev main_call7_v1 : Ref sig .tc := ⟨.hbm, 166, rfl⟩
abbrev main_call7_c_0 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_call7_v5 : Ref sig .tc := ⟨.hbm, 171, rfl⟩
abbrev main_call7_c_1 : Ref sig .tc := ⟨.hbm, 172, rfl⟩
abbrev main_call7_c_2 : Ref sig .tc := ⟨.hbm, 173, rfl⟩
abbrev main_call7_v6 : Ref sig .tc := ⟨.hbm, 174, rfl⟩
abbrev main_call7_v7 : Ref sig .tc := ⟨.hbm, 175, rfl⟩
abbrev main_call7_v8 : Ref sig .tc := ⟨.hbm, 176, rfl⟩
abbrev main_call7_v9 : Ref sig .tc := ⟨.hbm, 177, rfl⟩
abbrev main_call7_v10 : Ref sig .tc := ⟨.hbm, 178, rfl⟩
abbrev main_call7_v11 : Ref sig .tc := ⟨.hbm, 179, rfl⟩
abbrev main_call7_c_3 : Ref sig .tc := ⟨.hbm, 180, rfl⟩
abbrev main_call7_v12 : Ref sig .tc := ⟨.hbm, 181, rfl⟩
abbrev main_call7_v13 : Ref sig .tc := ⟨.hbm, 182, rfl⟩
abbrev main_call7_v14 : Ref sig .tc := ⟨.hbm, 183, rfl⟩
abbrev main_call7_cst : Ref sig .tc := ⟨.hbm, 184, rfl⟩
abbrev main_call7_v15 : Ref sig .tc := ⟨.hbm, 185, rfl⟩
abbrev main_v34 : Ref sig .tc := ⟨.hbm, 186, rfl⟩
abbrev main_v35 : Ref sig .tc := ⟨.hbm, 187, rfl⟩
abbrev main_v36 : Ref sig .tc := ⟨.hbm, 188, rfl⟩
abbrev main_v37 : Ref sig .tc := ⟨.hbm, 189, rfl⟩
abbrev main_v38 : Ref sig .tc := ⟨.hbm, 190, rfl⟩
abbrev main_v39 : Ref sig .tc := ⟨.hbm, 191, rfl⟩
abbrev main_v40 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x10x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x10x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S10x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S10x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x10x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S80x256x256x2_S80x256x256x1_0_0_0_0 : S80x256x256x2.Slices ![0, 0, 0, 0] S80x256x256x1
  shapeCasts_S80x256x256x1_S80x256x256 : S80x256x256x1.ShapeCasts S80x256x256
  slices_S80x256x256x2_S80x256x256x1_0_0_0_1 : S80x256x256x2.Slices ![0, 0, 0, 1] S80x256x256x1
  bcast_S_S80x256x256 : S_.BroadcastsInDim S80x256x256 (![] : Fin 0 → Fin S80x256x256.rank)
  shapeCasts_S2x3x2048x4096_S2x3x8388608 : S2x3x2048x4096.ShapeCasts S2x3x8388608
  bcast_S80x256x256_S80x256x256x1_0_1_2 : S80x256x256.BroadcastsInDim S80x256x256x1 (![0, 1, 2] : Fin 3 → Fin S80x256x256x1.rank)
  bcast_S_S80x256x256x1 : S_.BroadcastsInDim S80x256x256x1 (![] : Fin 0 → Fin S80x256x256x1.rank)
  bcast_S1_S1x1x1x1_3 : S1.BroadcastsInDim S1x1x1x1 (![3] : Fin 1 → Fin S1x1x1x1.rank)
  bcast_S1x1x1x1_S80x256x256x1_0_1_2_3 : S1x1x1x1.BroadcastsInDim S80x256x256x1 (![0, 1, 2, 3] : Fin 4 → Fin S80x256x256x1.rank)
  reducesTo_S80x256x256x1_S80x256x256_d3 : S80x256x256x1.ReducesTo [3] S80x256x256
  h_S_ : 0 < S_.numel
  bcast_S80x256x256_S2x3x80x256x256_2_3_4 : S80x256x256.BroadcastsInDim S2x3x80x256x256 (![2, 3, 4] : Fin 3 → Fin S2x3x80x256x256.rank)
  bcast_S_S2x3x80x256x256 : S_.BroadcastsInDim S2x3x80x256x256 (![] : Fin 0 → Fin S2x3x80x256x256.rank)
  shapeCasts_S2x3x80x256x256_S6x80x256x256 : S2x3x80x256x256.ShapeCasts S6x80x256x256
  inb_S10x256x256_S10x256x256_0_0_0 : ∀ a, (![0, 0, 0] : Fin 3 → Nat) a + S10x256x256.size a ≤ S10x256x256.size a
  h_S10x256x256 : 0 < S10x256x256.numel
  shapeCasts_S10x256x256_S10x256x256 : S10x256x256.ShapeCasts S10x256x256
  inb_S1x10x256x256_S1x10x256x256_0_0_0_0 : ∀ a, (![0, 0, 0, 0] : Fin 4 → Nat) a + S1x10x256x256.size a ≤ S1x10x256x256.size a
  h_S1x10x256x256 : 0 < S1x10x256x256.numel
  shapeCasts_S1x10x256x256_S10x256x256 : S1x10x256x256.ShapeCasts S10x256x256
  shapeCasts_S10x256x256_S1x10x256x256 : S10x256x256.ShapeCasts S1x10x256x256
  shapeCasts_S6x80x256x256_S2x3x80x256x256 : S6x80x256x256.ShapeCasts S2x3x80x256x256
  gather_S2x3x8388608_S80x256x256x1_S2x3x80x256x256_01_2_n_n_2_3_231_wf : GatherDims.WF S2x3x8388608 S80x256x256x1 S2x3x80x256x256 [0, 1] [2] [] [2] [] 3 ![2, 3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10x256x256.size a ≤ S6x80x256x256.size a
  hwx0_0 : ∀ i : grid0.Coords, EltTy.bits .f32 = 32 ∨ (Rect.block (s := S6x80x256x256) S1x10x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10x256x256.size a ≤ S6x80x256x256.size a
  hwx0_1 : ∀ i : grid0.Coords, EltTy.bits .f32 = 32 ∨ (Rect.block (s := S6x80x256x256) S1x10x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10x256x256.size a ≤ S6x80x256x256.size a
  hwx0_2 : ∀ i : grid0.Coords, EltTy.bits .f32 = 32 ∨ (Rect.block (s := S6x80x256x256) S1x10x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10x256x256.size a ≤ S6x80x256x256.size a
  hwx0_3 : ∀ i : grid0.Coords, EltTy.bits .f32 = 32 ∨ (Rect.block (s := S6x80x256x256) S1x10x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10x256x256.size a ≤ S80x256x256.size a
  hwx0_4 : ∀ i : grid0.Coords, EltTy.bits .f32 = 32 ∨ (Rect.block (s := S80x256x256) S10x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10x256x256.size a ≤ S80x256x256.size a
  hwx0_5 : ∀ i : grid0.Coords, EltTy.bits .f32 = 32 ∨ (Rect.block (s := S80x256x256) S10x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x10x256x256.size a ≤ S6x80x256x256.size a
  hwx0_6 : ∀ i : grid0.Coords, EltTy.bits .f32 = 32 ∨ (Rect.block (s := S6x80x256x256) S1x10x256x256.size (cc0_transform_6 i) (hinb0_6 i)).WholeWords (EltTy.packing .f32)

variable [Facts₀]

def gather_S2x3x8388608_S80x256x256x1_S2x3x80x256x256_01_2_n_n_2_3_231 : GatherDims S2x3x8388608 S80x256x256x1 S2x3x80x256x256 where
  offsetDims := [0, 1]
  collapsedSliceDims := [2]
  operandBatchingDims := []
  startIndicesBatchingDims := []
  startIndexMap := [2]
  indexVectorDim := 3
  sliceSizes := ![2, 3, 1]
  wf := gather_S2x3x8388608_S80x256x256x1_S2x3x80x256x256_01_2_n_n_2_3_231_wf

abbrev win0_0 : Pipeline.Window sig grid0 :=
  Pipeline.Window.ofSpec (Memref.whole main_v35) S1x10x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1x10x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x10x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x10x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S10x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S10x256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x10x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x3x2048x4096 : Shape := ⟨4, ![2, 3, 2048, 4096]⟩
abbrev S80x256x256x2 : Shape := ⟨4, ![80, 256, 256, 2]⟩
abbrev S80x256x256x1 : Shape := ⟨4, ![80, 256, 256, 1]⟩
abbrev S80x256x256 : Shape := ⟨3, ![80, 256, 256]⟩
abbrev S5242880 : Shape := ⟨1, ![5242880]⟩
abbrev S_ : Shape := ⟨0, ![]⟩
abbrev S2x3x8388608 : Shape := ⟨3, ![2, 3, 8388608]⟩
abbrev S5242880x1 : Shape := ⟨2, ![5242880, 1]⟩
abbrev S1 : Shape := ⟨1, ![1]⟩
abbrev S1x1 : Shape := ⟨2, ![1, 1]⟩
abbrev S2x3x5242880 : Shape := ⟨3, ![2, 3, 5242880]⟩
abbrev S1x1x5242880 : Shape := ⟨3, ![1, 1, 5242880]⟩
abbrev S2x3x80x256x256 : Shape := ⟨5, ![2, 3, 80, 256, 256]⟩

abbrev nBuf : Space → Nat
  | .hbm => 220
  | .vmem => 0
  | .smem => 0
  | _ => 0

abbrev hbmTy0_0 (i : Nat) : BufTy := match i % 128 with
  | 0 => ⟨S2x3x2048x4096, .f32⟩
  | 1 => ⟨S80x256x256x2, .f32⟩
  | 2 => ⟨S80x256x256x1, .f32⟩
  | 3 => ⟨S80x256x256, .f32⟩
  | 4 => ⟨S5242880, .f32⟩
  | 5 => ⟨S80x256x256x1, .f32⟩
  | 6 => ⟨S80x256x256, .f32⟩
  | 7 => ⟨S5242880, .f32⟩
  | 8 => ⟨S5242880, .f32⟩
  | 9 => ⟨S5242880, .f32⟩
  | 10 => ⟨S5242880, .f32⟩
  | 11 => ⟨S5242880, .f32⟩
  | 12 => ⟨S5242880, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S5242880, .i32⟩
  | 20 => ⟨S5242880, .i32⟩
  | 21 => ⟨S_, .i32⟩
  | 22 => ⟨S5242880, .i32⟩
  | 23 => ⟨S5242880, .i1⟩
  | 24 => ⟨S_, .i32⟩
  | 25 => ⟨S5242880, .i32⟩
  | 26 => ⟨S5242880, .i1⟩
  | 27 => ⟨S_, .i32⟩
  | 28 => ⟨S_, .i1⟩
  | 29 => ⟨S5242880, .i1⟩
  | 30 => ⟨S5242880, .i1⟩
  | 31 => ⟨S5242880, .i1⟩
  | 32 => ⟨S5242880, .i32⟩
  | 33 => ⟨S5242880, .i32⟩
  | 34 => ⟨S5242880, .i32⟩
  | 35 => ⟨S_, .i32⟩
  | 36 => ⟨S5242880, .i32⟩
  | 37 => ⟨S5242880, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S5242880, .i32⟩
  | 45 => ⟨S5242880, .i32⟩
  | 46 => ⟨S_, .i32⟩
  | 47 => ⟨S5242880, .i32⟩
  | 48 => ⟨S5242880, .i1⟩
  | 49 => ⟨S_, .i32⟩
  | 50 => ⟨S5242880, .i32⟩
  | 51 => ⟨S5242880, .i1⟩
  | 52 => ⟨S_, .i32⟩
  | 53 => ⟨S_, .i1⟩
  | 54 => ⟨S5242880, .i1⟩
  | 55 => ⟨S5242880, .i1⟩
  | 56 => ⟨S5242880, .i1⟩
  | 57 => ⟨S5242880, .i32⟩
  | 58 => ⟨S5242880, .i32⟩
  | 59 => ⟨S5242880, .i32⟩
  | 60 => ⟨S5242880, .i32⟩
  | 61 => ⟨S_, .i32⟩
  | 62 => ⟨S_, .i32⟩
  | 63 => ⟨S_, .i32⟩
  | 64 => ⟨S5242880, .i32⟩
  | 65 => ⟨S5242880, .i32⟩
  | 66 => ⟨S_, .i32⟩
  | 67 => ⟨S5242880, .i32⟩
  | 68 => ⟨S5242880, .i32⟩
  | 69 => ⟨S_, .i32⟩
  | 70 => ⟨S5242880, .i32⟩
  | 71 => ⟨S5242880, .i32⟩
  | 72 => ⟨S_, .i32⟩
  | 73 => ⟨S_, .i32⟩
  | 74 => ⟨S_, .i32⟩
  | 75 => ⟨S5242880, .i32⟩
  | 76 => ⟨S5242880, .i32⟩
  | 77 => ⟨S_, .i32⟩
  | 78 => ⟨S5242880, .i32⟩
  | 79 => ⟨S5242880, .i32⟩
  | 80 => ⟨S2x3x8388608, .f32⟩
  | 81 => ⟨S_, .i32⟩
  | 82 => ⟨S5242880, .i32⟩
  | 83 => ⟨S5242880, .i32⟩
  | 84 => ⟨S5242880, .i32⟩
  | 85 => ⟨S_, .i32⟩
  | 86 => ⟨S5242880, .i32⟩
  | 87 => ⟨S5242880, .i1⟩
  | 88 => ⟨S_, .i32⟩
  | 89 => ⟨S5242880, .i32⟩
  | 90 => ⟨S5242880, .i32⟩
  | 91 => ⟨S5242880, .i32⟩
  | 92 => ⟨S5242880x1, .i32⟩
  | 93 => ⟨S1, .i32⟩
  | 94 => ⟨S_, .i32⟩
  | 95 => ⟨S5242880x1, .i32⟩
  | 96 => ⟨S5242880x1, .i1⟩
  | 97 => ⟨S1x1, .i32⟩
  | 98 => ⟨S5242880x1, .i32⟩
  | 99 => ⟨S5242880x1, .i1⟩
  | 100 => ⟨S5242880x1, .i1⟩
  | 101 => ⟨S_, .i1⟩
  | 102 => ⟨S5242880, .i1⟩
  | 103 => ⟨S2x3x5242880, .f32⟩
  | 104 => ⟨S2x3x5242880, .i1⟩
  | 105 => ⟨S_, .f32⟩
  | 106 => ⟨S2x3x5242880, .f32⟩
  | 107 => ⟨S2x3x5242880, .f32⟩
  | 108 => ⟨S_, .i32⟩
  | 109 => ⟨S5242880, .i32⟩
  | 110 => ⟨S5242880, .i32⟩
  | 111 => ⟨S5242880, .i32⟩
  | 112 => ⟨S_, .i32⟩
  | 113 => ⟨S5242880, .i32⟩
  | 114 => ⟨S5242880, .i1⟩
  | 115 => ⟨S_, .i32⟩
  | 116 => ⟨S5242880, .i32⟩
  | 117 => ⟨S5242880, .i32⟩
  | 118 => ⟨S5242880, .i32⟩
  | 119 => ⟨S5242880x1, .i32⟩
  | 120 => ⟨S1, .i32⟩
  | 121 => ⟨S_, .i32⟩
  | 122 => ⟨S5242880x1, .i32⟩
  | 123 => ⟨S5242880x1, .i1⟩
  | 124 => ⟨S1x1, .i32⟩
  | 125 => ⟨S5242880x1, .i32⟩
  | 126 => ⟨S5242880x1, .i1⟩
  | 127 => ⟨S5242880x1, .i1⟩
  | _ => ⟨S2x3x2048x4096, .f32⟩

abbrev hbmTy0_1 (i : Nat) : BufTy := match i % 128 with
  | 0 => ⟨S_, .i1⟩
  | 1 => ⟨S5242880, .i1⟩
  | 2 => ⟨S2x3x5242880, .f32⟩
  | 3 => ⟨S2x3x5242880, .i1⟩
  | 4 => ⟨S_, .f32⟩
  | 5 => ⟨S2x3x5242880, .f32⟩
  | 6 => ⟨S2x3x5242880, .f32⟩
  | 7 => ⟨S_, .i32⟩
  | 8 => ⟨S5242880, .i32⟩
  | 9 => ⟨S5242880, .i32⟩
  | 10 => ⟨S5242880, .i32⟩
  | 11 => ⟨S_, .i32⟩
  | 12 => ⟨S5242880, .i32⟩
  | 13 => ⟨S5242880, .i1⟩
  | 14 => ⟨S_, .i32⟩
  | 15 => ⟨S5242880, .i32⟩
  | 16 => ⟨S5242880, .i32⟩
  | 17 => ⟨S5242880, .i32⟩
  | 18 => ⟨S5242880x1, .i32⟩
  | 19 => ⟨S1, .i32⟩
  | 20 => ⟨S_, .i32⟩
  | 21 => ⟨S5242880x1, .i32⟩
  | 22 => ⟨S5242880x1, .i1⟩
  | 23 => ⟨S1x1, .i32⟩
  | 24 => ⟨S5242880x1, .i32⟩
  | 25 => ⟨S5242880x1, .i1⟩
  | 26 => ⟨S5242880x1, .i1⟩
  | 27 => ⟨S_, .i1⟩
  | 28 => ⟨S5242880, .i1⟩
  | 29 => ⟨S2x3x5242880, .f32⟩
  | 30 => ⟨S2x3x5242880, .i1⟩
  | 31 => ⟨S_, .f32⟩
  | 32 => ⟨S2x3x5242880, .f32⟩
  | 33 => ⟨S2x3x5242880, .f32⟩
  | 34 => ⟨S_, .i32⟩
  | 35 => ⟨S5242880, .i32⟩
  | 36 => ⟨S5242880, .i32⟩
  | 37 => ⟨S5242880, .i32⟩
  | 38 => ⟨S_, .i32⟩
  | 39 => ⟨S5242880, .i32⟩
  | 40 => ⟨S5242880, .i1⟩
  | 41 => ⟨S_, .i32⟩
  | 42 => ⟨S5242880, .i32⟩
  | 43 => ⟨S5242880, .i32⟩
  | 44 => ⟨S5242880, .i32⟩
  | 45 => ⟨S5242880x1, .i32⟩
  | 46 => ⟨S1, .i32⟩
  | 47 => ⟨S_, .i32⟩
  | 48 => ⟨S5242880x1, .i32⟩
  | 49 => ⟨S5242880x1, .i1⟩
  | 50 => ⟨S1x1, .i32⟩
  | 51 => ⟨S5242880x1, .i32⟩
  | 52 => ⟨S5242880x1, .i1⟩
  | 53 => ⟨S5242880x1, .i1⟩
  | 54 => ⟨S_, .i1⟩
  | 55 => ⟨S5242880, .i1⟩
  | 56 => ⟨S2x3x5242880, .f32⟩
  | 57 => ⟨S2x3x5242880, .i1⟩
  | 58 => ⟨S_, .f32⟩
  | 59 => ⟨S2x3x5242880, .f32⟩
  | 60 => ⟨S2x3x5242880, .f32⟩
  | 61 => ⟨S_, .f32⟩
  | 62 => ⟨S5242880, .f32⟩
  | 63 => ⟨S5242880, .f32⟩
  | 64 => ⟨S1x1x5242880, .f32⟩
  | 65 => ⟨S2x3x5242880, .f32⟩
  | 66 => ⟨S2x3x5242880, .f32⟩
  | 67 => ⟨S1x1x5242880, .f32⟩
  | 68 => ⟨S2x3x5242880, .f32⟩
  | 69 => ⟨S2x3x5242880, .f32⟩
  | 70 => ⟨S2x3x5242880, .f32⟩
  | 71 => ⟨S_, .f32⟩
  | 72 => ⟨S5242880, .f32⟩
  | 73 => ⟨S5242880, .f32⟩
  | 74 => ⟨S1x1x5242880, .f32⟩
  | 75 => ⟨S2x3x5242880, .f32⟩
  | 76 => ⟨S2x3x5242880, .f32⟩
  | 77 => ⟨S1x1x5242880, .f32⟩
  | 78 => ⟨S2x3x5242880, .f32⟩
  | 79 => ⟨S2x3x5242880, .f32⟩
  | 80 => ⟨S2x3x5242880, .f32⟩
  | 81 => ⟨S_, .f32⟩
  | 82 => ⟨S5242880, .f32⟩
  | 83 => ⟨S5242880, .f32⟩
  | 84 => ⟨S1x1x5242880, .f32⟩
  | 85 => ⟨S2x3x5242880, .f32⟩
  | 86 => ⟨S2x3x5242880, .f32⟩
  | 87 => ⟨S1x1x5242880, .f32⟩
  | 88 => ⟨S2x3x5242880, .f32⟩
  | 89 => ⟨S2x3x5242880, .f32⟩
  | 90 => ⟨S2x3x5242880, .f32⟩
  | 91 => ⟨S2x3x80x256x256, .f32⟩
  | _ => ⟨S2x3x2048x4096, .f32⟩

abbrev hbmTy (i : Nat) : BufTy := match i / 128 with
  | 0 => hbmTy0_0 i
  | 1 => hbmTy0_1 i
  | _ => ⟨S2x3x2048x4096, .f32⟩

abbrev bufTy : (tb : Table) → Fin (tcTables nBuf tb) → BufTy
  | .hbm, ⟨i, _⟩ => hbmTy i
  | _, _ => ⟨S2x3x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v11 : Ref sig .tc := ⟨.hbm, 34, rfl⟩
abbrev main_c_0 : Ref sig .tc := ⟨.hbm, 35, rfl⟩
abbrev main_v12 : Ref sig .tc := ⟨.hbm, 36, rfl⟩
abbrev main_v13 : Ref sig .tc := ⟨.hbm, 37, rfl⟩
abbrev main_c_1 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v14 : Ref sig .tc := ⟨.hbm, 59, rfl⟩
abbrev main_v15 : Ref sig .tc := ⟨.hbm, 60, rfl⟩
abbrev main_c_2 : Ref sig .tc := ⟨.hbm, 61, rfl⟩
abbrev main_c_3 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v16 : Ref sig .tc := ⟨.hbm, 68, rfl⟩
abbrev main_c_4 : Ref sig .tc := ⟨.hbm, 69, rfl⟩
abbrev main_v17 : Ref sig .tc := ⟨.hbm, 70, rfl⟩
abbrev main_v18 : Ref sig .tc := ⟨.hbm, 71, rfl⟩
abbrev main_c_5 : Ref sig .tc := ⟨.hbm, 72, rfl⟩
abbrev main_c_6 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v19 : Ref sig .tc := ⟨.hbm, 79, rfl⟩
abbrev main_v20 : Ref sig .tc := ⟨.hbm, 80, rfl⟩
abbrev main_c_7 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_call4_c : Ref sig .tc := ⟨.hbm, 85, rfl⟩
abbrev main_call4_v0 : Ref sig .tc := ⟨.hbm, 86, rfl⟩
abbrev main_call4_v1 : Ref sig .tc := ⟨.hbm, 87, rfl⟩
abbrev main_call4_c_0 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_c_1 : Ref sig .tc := ⟨.hbm, 93, rfl⟩
abbrev main_call4_c_2 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_c_3 : Ref sig .tc := ⟨.hbm, 101, rfl⟩
abbrev main_call4_v12 : Ref sig .tc := ⟨.hbm, 102, rfl⟩
abbrev main_call4_v13 : Ref sig .tc := ⟨.hbm, 103, rfl⟩
abbrev main_call4_v14 : Ref sig .tc := ⟨.hbm, 104, rfl⟩
abbrev main_call4_cst : Ref sig .tc := ⟨.hbm, 105, rfl⟩
abbrev main_call4_v15 : Ref sig .tc := ⟨.hbm, 106, rfl⟩
abbrev main_v24 : Ref sig .tc := ⟨.hbm, 107, rfl⟩
abbrev main_c_8 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_call5_c : Ref sig .tc := ⟨.hbm, 112, rfl⟩
abbrev main_call5_v0 : Ref sig .tc := ⟨.hbm, 113, rfl⟩
abbrev main_call5_v1 : Ref sig .tc := ⟨.hbm, 114, rfl⟩
abbrev main_call5_c_0 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_v5 : Ref sig .tc := ⟨.hbm, 119, rfl⟩
abbrev main_call5_c_1 : Ref sig .tc := ⟨.hbm, 120, rfl⟩
abbrev main_call5_c_2 : Ref sig .tc := ⟨.hbm, 121, rfl⟩
abbrev main_call5_v6 : Ref sig .tc := ⟨.hbm, 122, rfl⟩
abbrev main_call5_v7 : Ref sig .tc := ⟨.hbm, 123, rfl⟩
abbrev main_call5_v8 : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_c_3 : Ref sig .tc := ⟨.hbm, 128, rfl⟩
abbrev main_call5_v12 : Ref sig .tc := ⟨.hbm, 129, rfl⟩
abbrev main_call5_v13 : Ref sig .tc := ⟨.hbm, 130, rfl⟩
abbrev main_call5_v14 : Ref sig .tc := ⟨.hbm, 131, rfl⟩
abbrev main_call5_cst : Ref sig .tc := ⟨.hbm, 132, rfl⟩
abbrev main_call5_v15 : Ref sig .tc := ⟨.hbm, 133, rfl⟩
abbrev main_v28 : Ref sig .tc := ⟨.hbm, 134, rfl⟩
abbrev main_c_9 : Ref sig .tc := ⟨.hbm, 135, rfl⟩
abbrev main_v29 : Ref sig .tc := ⟨.hbm, 136, rfl⟩
abbrev main_v30 : Ref sig .tc := ⟨.hbm, 137, rfl⟩
abbrev main_v31 : Ref sig .tc := ⟨.hbm, 138, rfl⟩
abbrev main_call6_c : Ref sig .tc := ⟨.hbm, 139, rfl⟩
abbrev main_call6_v0 : Ref sig .tc := ⟨.hbm, 140, rfl⟩
abbrev main_call6_v1 : Ref sig .tc := ⟨.hbm, 141, rfl⟩
abbrev main_call6_c_0 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_call6_v5 : Ref sig .tc := ⟨.hbm, 146, rfl⟩
abbrev main_call6_c_1 : Ref sig .tc := ⟨.hbm, 147, rfl⟩
abbrev main_call6_c_2 : Ref sig .tc := ⟨.hbm, 148, rfl⟩
abbrev main_call6_v6 : Ref sig .tc := ⟨.hbm, 149, rfl⟩
abbrev main_call6_v7 : Ref sig .tc := ⟨.hbm, 150, rfl⟩
abbrev main_call6_v8 : Ref sig .tc := ⟨.hbm, 151, rfl⟩
abbrev main_call6_v9 : Ref sig .tc := ⟨.hbm, 152, rfl⟩
abbrev main_call6_v10 : Ref sig .tc := ⟨.hbm, 153, rfl⟩
abbrev main_call6_v11 : Ref sig .tc := ⟨.hbm, 154, rfl⟩
abbrev main_call6_c_3 : Ref sig .tc := ⟨.hbm, 155, rfl⟩
abbrev main_call6_v12 : Ref sig .tc := ⟨.hbm, 156, rfl⟩
abbrev main_call6_v13 : Ref sig .tc := ⟨.hbm, 157, rfl⟩
abbrev main_call6_v14 : Ref sig .tc := ⟨.hbm, 158, rfl⟩
abbrev main_call6_cst : Ref sig .tc := ⟨.hbm, 159, rfl⟩
abbrev main_call6_v15 : Ref sig .tc := ⟨.hbm, 160, rfl⟩
abbrev main_v32 : Ref sig .tc := ⟨.hbm, 161, rfl⟩
abbrev main_c_10 : Ref sig .tc := ⟨.hbm, 162, rfl⟩
abbrev main_v33 : Ref sig .tc := ⟨.hbm, 163, rfl⟩
abbrev main_v34 : Ref sig .tc := ⟨.hbm, 164, rfl⟩
abbrev main_v35 : Ref sig .tc := ⟨.hbm, 165, rfl⟩
abbrev main_call7_c : Ref sig .tc := ⟨.hbm, 166, rfl⟩
abbrev main_call7_v0 : Ref sig .tc := ⟨.hbm, 167, rfl⟩
abbrev main_call7_v1 : Ref sig .tc := ⟨.hbm, 168, rfl⟩
abbrev main_call7_c_0 : Ref sig .tc := ⟨.hbm, 169, rfl⟩
abbrev main_call7_v2 : Ref sig .tc := ⟨.hbm, 170, rfl⟩
abbrev main_call7_v3 : Ref sig .tc := ⟨.hbm, 171, rfl⟩
abbrev main_call7_v4 : Ref sig .tc := ⟨.hbm, 172, rfl⟩
abbrev main_call7_v5 : Ref sig .tc := ⟨.hbm, 173, rfl⟩
abbrev main_call7_c_1 : Ref sig .tc := ⟨.hbm, 174, rfl⟩
abbrev main_call7_c_2 : Ref sig .tc := ⟨.hbm, 175, rfl⟩
abbrev main_call7_v6 : Ref sig .tc := ⟨.hbm, 176, rfl⟩
abbrev main_call7_v7 : Ref sig .tc := ⟨.hbm, 177, rfl⟩
abbrev main_call7_v8 : Ref sig .tc := ⟨.hbm, 178, rfl⟩
abbrev main_call7_v9 : Ref sig .tc := ⟨.hbm, 179, rfl⟩
abbrev main_call7_v10 : Ref sig .tc := ⟨.hbm, 180, rfl⟩
abbrev main_call7_v11 : Ref sig .tc := ⟨.hbm, 181, rfl⟩
abbrev main_call7_c_3 : Ref sig .tc := ⟨.hbm, 182, rfl⟩
abbrev main_call7_v12 : Ref sig .tc := ⟨.hbm, 183, rfl⟩
abbrev main_call7_v13 : Ref sig .tc := ⟨.hbm, 184, rfl⟩
abbrev main_call7_v14 : Ref sig .tc := ⟨.hbm, 185, rfl⟩
abbrev main_call7_cst : Ref sig .tc := ⟨.hbm, 186, rfl⟩
abbrev main_call7_v15 : Ref sig .tc := ⟨.hbm, 187, rfl⟩
abbrev main_v36 : Ref sig .tc := ⟨.hbm, 188, rfl⟩
abbrev main_cst : Ref sig .tc := ⟨.hbm, 189, rfl⟩
abbrev main_v37 : Ref sig .tc := ⟨.hbm, 190, rfl⟩
abbrev main_v38 : Ref sig .tc := ⟨.hbm, 191, rfl⟩
abbrev main_v39 : Ref sig .tc := ⟨.hbm, 192, rfl⟩
abbrev main_v40 : Ref sig .tc := ⟨.hbm, 193, rfl⟩
abbrev main_v41 : Ref sig .tc := ⟨.hbm, 194, rfl⟩
abbrev main_v42 : Ref sig .tc := ⟨.hbm, 195, rfl⟩
abbrev main_v43 : Ref sig .tc := ⟨.hbm, 196, rfl⟩
abbrev main_v44 : Ref sig .tc := ⟨.hbm, 197, rfl⟩
abbrev main_v45 : Ref sig .tc := ⟨.hbm, 198, rfl⟩
abbrev main_cst_11 : Ref sig .tc := ⟨.hbm, 199, rfl⟩
abbrev main_v46 : Ref sig .tc := ⟨.hbm, 200, rfl⟩
abbrev main_v47 : Ref sig .tc := ⟨.hbm, 201, rfl⟩
abbrev main_v48 : Ref sig .tc := ⟨.hbm, 202, rfl⟩
abbrev main_v49 : Ref sig .tc := ⟨.hbm, 203, rfl⟩
abbrev main_v50 : Ref sig .tc := ⟨.hbm, 204, rfl⟩
abbrev main_v51 : Ref sig .tc := ⟨.hbm, 205, rfl⟩
abbrev main_v52 : Ref sig .tc := ⟨.hbm, 206, rfl⟩
abbrev main_v53 : Ref sig .tc := ⟨.hbm, 207, rfl⟩
abbrev main_v54 : Ref sig .tc := ⟨.hbm, 208, rfl⟩
abbrev main_cst_12 : Ref sig .tc := ⟨.hbm, 209, rfl⟩
abbrev main_v55 : Ref sig .tc := ⟨.hbm, 210, rfl⟩
abbrev main_v56 : Ref sig .tc := ⟨.hbm, 211, rfl⟩
abbrev main_v57 : Ref sig .tc := ⟨.hbm, 212, rfl⟩
abbrev main_v58 : Ref sig .tc := ⟨.hbm, 213, rfl⟩
abbrev main_v59 : Ref sig .tc := ⟨.hbm, 214, rfl⟩
abbrev main_v60 : Ref sig .tc := ⟨.hbm, 215, rfl⟩
abbrev main_v61 : Ref sig .tc := ⟨.hbm, 216, rfl⟩
abbrev main_v62 : Ref sig .tc := ⟨.hbm, 217, rfl⟩
abbrev main_v63 : Ref sig .tc := ⟨.hbm, 218, rfl⟩
abbrev main_v64 : Ref sig .tc := ⟨.hbm, 219, rfl⟩

abbrev nD : Nat := 1
abbrev τ : Topo := Topo.v7x

variable {F : FTy → Type} [FloatOps F]

class Facts₀ : Prop where
  slices_S80x256x256x2_S80x256x256x1_0_0_0_0 : S80x256x256x2.Slices ![0, 0, 0, 0] S80x256x256x1
  shapeCasts_S80x256x256x1_S80x256x256 : S80x256x256x1.ShapeCasts S80x256x256
  shapeCasts_S80x256x256_S5242880 : S80x256x256.ShapeCasts S5242880
  slices_S80x256x256x2_S80x256x256x1_0_0_0_1 : S80x256x256x2.Slices ![0, 0, 0, 1] S80x256x256x1
  bcast_S_S5242880 : S_.BroadcastsInDim S5242880 (![] : Fin 0 → Fin S5242880.rank)
  shapeCasts_S2x3x2048x4096_S2x3x8388608 : S2x3x2048x4096.ShapeCasts S2x3x8388608
  bcast_S5242880_S5242880x1_0 : S5242880.BroadcastsInDim S5242880x1 (![0] : Fin 1 → Fin S5242880x1.rank)
  bcast_S_S5242880x1 : S_.BroadcastsInDim S5242880x1 (![] : Fin 0 → Fin S5242880x1.rank)
  bcast_S1_S1x1_1 : S1.BroadcastsInDim S1x1 (![1] : Fin 1 → Fin S1x1.rank)
  bcast_S1x1_S5242880x1_0_1 : S1x1.BroadcastsInDim S5242880x1 (![0, 1] : Fin 2 → Fin S5242880x1.rank)
  reducesTo_S5242880x1_S5242880_d1 : S5242880x1.ReducesTo [1] S5242880
  h_S_ : 0 < S_.numel
  bcast_S5242880_S2x3x5242880_2 : S5242880.BroadcastsInDim S2x3x5242880 (![2] : Fin 1 → Fin S2x3x5242880.rank)
  bcast_S_S2x3x5242880 : S_.BroadcastsInDim S2x3x5242880 (![] : Fin 0 → Fin S2x3x5242880.rank)
  bcast_S5242880_S1x1x5242880_2 : S5242880.BroadcastsInDim S1x1x5242880 (![2] : Fin 1 → Fin S1x1x5242880.rank)
  bcast_S1x1x5242880_S2x3x5242880_0_1_2 : S1x1x5242880.BroadcastsInDim S2x3x5242880 (![0, 1, 2] : Fin 3 → Fin S2x3x5242880.rank)
  shapeCasts_S2x3x5242880_S2x3x80x256x256 : S2x3x5242880.ShapeCasts S2x3x80x256x256
  gather_S2x3x8388608_S5242880x1_S2x3x5242880_01_2_n_n_2_1_231_wf : GatherDims.WF S2x3x8388608 S5242880x1 S2x3x5242880 [0, 1] [2] [] [2] [] 1 ![2, 3, 1]

variable [Facts₀]

def gather_S2x3x8388608_S5242880x1_S2x3x5242880_01_2_n_n_2_1_231 : GatherDims S2x3x8388608 S5242880x1 S2x3x5242880 where
  offsetDims := [0, 1]
  collapsedSliceDims := [2]
  operandBatchingDims := []
  startIndicesBatchingDims := []
  startIndexMap := [2]
  indexVectorDim := 1
  sliceSizes := ![2, 3, 1]
  wf := gather_S2x3x8388608_S5242880x1_S2x3x5242880_01_2_n_n_2_1_231_wf

class Facts : Prop extends Facts₀ where

variable [Facts]
-- ==== Proof.KTail.lean ====
/-
  The kernel program's run with its result named.  The generated frame run leaves every array of the pipeline at what the
  proof data computes; the one host operation after the region reshapes the pipeline's output array ([6, 80, 256, 256],
  the six image channels on one axis) to the result's layout [2, 3, 80, 256, 256].  So the result buffer ends at that
  reshape of the output array, and the argument arrays end as launched.
-/
import proofs.«127784_j58463094833211_2_alg».proof.Proof.Gen.KernelIdeal.Frame
import Idealize.ShloMosaic.Lib.StableHlo.Run

set_option pp.maxSteps 5000
set_option pp.deepTerms false

noncomputable section

namespace Cert.KernelIdeal.KTail

open Idealize.ShloMosaic Idealize.ShloMosaic.TcCoe Idealize.ShloMosaic.StableHlo Idealize.SL.Sem
open Cert.KernelIdeal Cert.KernelIdeal.Gen

variable {F : FTy → Type} [FloatOps F]
variable (m : (ℓ : Loc nD τ sig) → Buf (Elt F) ℓ) (ρ : Dev nD → PrngReg)

/-- What the lines after the region leave in the result buffer: the output array, reshaped. -/
theorem tail_eq (c : Dev nD) :
    Pipeline.afterTail₀ cfgs (dats m) 0 (V0 m) [hostOps1] c main_v40
      = shapeCast S2x3x80x256x256 ((dats m 0 c).arrAt 6 cfg0.N) shapeCasts_S6x80x256x256_S2x3x80x256x256 := by
  unfold Pipeline.afterTail₀
  show StableHlo.after hostOps1 _ (Proc.devRef .tc main_v40) = _
  after_results
  refine funext fun i => ?_
  show shapeCast S2x3x80x256x256 (Pipeline.withArrays spec0 c (V0 m c) (fun w => (dats m 0 c).arrAt w cfg0.N)
      (Proc.devRef .tc (Pipeline.arrRef spec0 6))) shapeCasts_S6x80x256x256_S2x3x80x256x256 i = _
  rw [Pipeline.withArrays_arr spec0 launch0.win.arr_inj]

/-- Every weakly fair execution of the kernel program terminates with the result buffer at the reshaped output array and the
    argument arrays as launched. -/
theorem run : θ_run defs (onTc (τ := τ) (main (F := F))) ⟨m, fun _ => 0, ρ⟩ (fun r => ∀ c : Dev nD,
      r.2.mem ((c.tc : Thread nD τ).loc main_v40)
          = shapeCast S2x3x80x256x256 ((dats m 0 c).arrAt 6 cfg0.N) shapeCasts_S6x80x256x256_S2x3x80x256x256
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v40 (Pipeline.mem_restRefs_of main_v40 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KTail

end
-- ==== Proof.Spec.lean ====
/-
  The resampling formula both programs compute, stated once over literal shapes and importing neither program.

  A sample is a point (n, p, q) of the 80 × 256 × 256 grid of tangent-image positions.  Each output element
  (b, c, n, p, q) is the bilinear blend of four taps of channel (b, c) of the image — the pixels at the sample's
  floor column and the next one (wrapping across the seam), on its floor row and the next one (clamped at the poles) —
  weighted by the fractional parts `wx`, `wy` of the sample's coordinates:
      (v00·(1 − wx) + v01·wx)·(1 − wy) + (v10·(1 − wx) + v11·wx)·wy,
  the products and sums taken in exactly this order.  `blend` is that expression on six numbers; `blend6` and `blend5`
  apply it element by element to tap arrays laid out with the six channels on one axis ([6, 80, 256, 256]) or on two
  ([2, 3, 80, 256, 256]), the weights depending on the sample only.
-/
import Idealize.ShloMosaic.PureOps.Ideal
import Idealize.ShloMosaic.Lib.ValueIdx

noncomputable section

namespace Cert.Resample

open Idealize.ShloMosaic Idealize.ShloMosaic.ValueIdx

variable {F : FTy → Type} [FloatOps F]

/-- The bilinear blend of four taps by the fractional offsets `wx` (along a row) and `wy` (down a column); `1` is the
    float literal `0x3F800000`. -/
def blend (v00 v01 v10 v11 wx wy : F .f32) : F .f32 :=
  FloatOps.addf
    (FloatOps.mulf
      (FloatOps.addf (FloatOps.mulf v00 (FloatOps.subf (FloatOps.ofBits .f32 0x3F800000#32) wx)) (FloatOps.mulf v01 wx))
      (FloatOps.subf (FloatOps.ofBits .f32 0x3F800000#32) wy))
    (FloatOps.mulf
      (FloatOps.addf (FloatOps.mulf v10 (FloatOps.subf (FloatOps.ofBits .f32 0x3F800000#32) wx)) (FloatOps.mulf v11 wx))
      wy)

/-- The grid of samples. -/
abbrev Smp : Shape := ⟨3, ![80, 256, 256]⟩
/-- Tap arrays with the six image channels on one axis. -/
abbrev Tap6 : Shape := ⟨4, ![6, 80, 256, 256]⟩
/-- The result's layout: batch, colour, then the sample. -/
abbrev Out5 : Shape := ⟨5, ![2, 3, 80, 256, 256]⟩

/-- The sample an element of the six-channel layout belongs to. -/
abbrev smpOf6 (i : Tap6.Idx) : Smp.Idx := ix3 (i 1) (i 2) (i 3)
/-- The sample an element of the result's layout belongs to. -/
abbrev smpOf5 (i : Out5.Idx) : Smp.Idx := ix3 (i 2) (i 3) (i 4)

/-- The blend, element by element, over the six-channel layout. -/
def blend6 (v00 v01 v10 v11 : FVec F Tap6 .f32) (wx wy : FVec F Smp .f32) : FVec F Tap6 .f32 :=
  fun i => blend (v00 i) (v01 i) (v10 i) (v11 i) (wx (smpOf6 i)) (wy (smpOf6 i))

/-- The blend, element by element, over the result's layout. -/
def blend5 (v00 v01 v10 v11 : FVec F Out5 .f32) (wx wy : FVec F Smp .f32) : FVec F Out5 .f32 :=
  fun i => blend (v00 i) (v01 i) (v10 i) (v11 i) (wx (smpOf5 i)) (wy (smpOf5 i))

end Cert.Resample

end
-- ==== Proof.KernelOut.lean ====
/-
  The kernel's result array, read off the frame run: after the region, the result window's array holds, element by
  element, the bilinear blend of the four tap arrays by the two weight arrays as the region finds them.

  The grid is 8 × 6, a point (nt, bc) being sample group `nt` (10 of the 80 sample planes) and channel `bc`.  At a point
  the body loads one [1, 10, 256, 256] block of each tap array and one [10, 256, 256] block of each weight array, forms
  the blend element by element and stores it as the result's [1, 10, 256, 256] block.  The steps: one element of what the
  body leaves (`out_at`); the windows' index maps compared over the 48 points (`idx_taps`, `idx_wts`, `idx_out`,
  `idx_onto`); where each input block's elements sit against the result block's (`emb_tap…`, `emb_wt…`, `read_…`,
  `iblk_…`); what a point writes back (`flushed_eq`); the blocks cover the array (`mem_blk`, `cover`); the array
  (`out_eq`).
-/
import proofs.«127784_j58463094833211_2_alg».proof.Proof.Gen.KernelIdeal.Frame
import proofs.«127784_j58463094833211_2_alg».proof.Proof.Spec
import Idealize.ShloMosaic.Lib.Pipeline.Value
import Idealize.ShloMosaic.Lib.ValueIdx
import Idealize.ShloMosaic.Lib.ValueLayout

noncomputable section

namespace Cert.KernelIdeal.KOut

open Idealize.ShloMosaic Idealize.ShloMosaic.ValueIdx Cert.KernelIdeal Cert.KernelIdeal.Gen Cert.Resample
open Idealize.ShloMosaic.TcCoe Idealize.SL.Sem
open Idealize.ShloMosaic.Pipeline (Dat)

/-- The zero offsets of a rank-4 whole-block access, as a constant function. -/
theorem hz4 : (![0, 0, 0, 0] : Fin 4 → Nat) = fun _ => 0 := funext fun a => by fin_cases a <;> rfl
/-- The zero offsets of a rank-3 whole-block access, as a constant function. -/
theorem hz3 : (![0, 0, 0] : Fin 3 → Nat) = fun _ => 0 := funext fun a => by fin_cases a <;> rfl

/-- One element of what the body leaves in the result's block: the blend of the four tap blocks' elements at the same
    place, weighted by the weight blocks' elements at the sample's place (the block's leading unit axis dropped). -/
theorem out_at (x0 x1 x2 x3 : Vec Ideal S1x10x256x256 .f32) (x4 x5 : Vec Ideal S10x256x256 .f32)
    (r : Fin 10) (p q : Fin 256) :
    Gen.out0_6 x0 x1 x2 x3 x4 x5 (ix4 (0 : Fin 1) r p q)
      = blend (F := Ideal) (x0 (ix4 (0 : Fin 1) r p q)) (x1 (ix4 (0 : Fin 1) r p q)) (x2 (ix4 (0 : Fin 1) r p q))
          (x3 (ix4 (0 : Fin 1) r p q)) (x4 (ix3 r p q)) (x5 (ix3 r p q)) := by
  unfold Gen.out0_6
  rw [View.canon_unit_zero hz4]
  simp only [View.ld_unit_zero (S := S1x10x256x256) hz4, View.ld_unit_zero (S := S10x256x256) hz3]
  unfold k0_pay1 k0_pay2
  refine (shapeCast_abc_1abc_apply _ _ (0 : Fin 1) r p q).trans ?_
  simp only [shapeCast_self]
  show blend (F := Ideal) (shapeCast S10x256x256 x0 shapeCasts_S1x10x256x256_S10x256x256 (ix3 r p q))
      (shapeCast S10x256x256 x1 shapeCasts_S1x10x256x256_S10x256x256 (ix3 r p q))
      (shapeCast S10x256x256 x2 shapeCasts_S1x10x256x256_S10x256x256 (ix3 r p q))
      (shapeCast S10x256x256 x3 shapeCasts_S1x10x256x256_S10x256x256 (ix3 r p q)) (x4 (ix3 r p q)) (x5 (ix3 r p q)) = _
  rw [shapeCast_1abc_abc_apply x0, shapeCast_1abc_abc_apply x1, shapeCast_1abc_abc_apply x2, shapeCast_1abc_abc_apply x3]

/-! ## The index maps over the grid -/

/-- The four tap windows' blocks move with the result's block: at every grid point their block indices are the result's. -/
theorem idx_taps : ∀ t : Fin cfg0.N,
    (win0_0.index t (0 : Fin 4) = win0_6.index t (0 : Fin 4) ∧ win0_0.index t (1 : Fin 4) = win0_6.index t (1 : Fin 4)
      ∧ win0_0.index t (2 : Fin 4) = win0_6.index t (2 : Fin 4) ∧ win0_0.index t (3 : Fin 4) = win0_6.index t (3 : Fin 4))
    ∧ (win0_1.index t (0 : Fin 4) = win0_6.index t (0 : Fin 4) ∧ win0_1.index t (1 : Fin 4) = win0_6.index t (1 : Fin 4)
      ∧ win0_1.index t (2 : Fin 4) = win0_6.index t (2 : Fin 4) ∧ win0_1.index t (3 : Fin 4) = win0_6.index t (3 : Fin 4))
    ∧ (win0_2.index t (0 : Fin 4) = win0_6.index t (0 : Fin 4) ∧ win0_2.index t (1 : Fin 4) = win0_6.index t (1 : Fin 4)
      ∧ win0_2.index t (2 : Fin 4) = win0_6.index t (2 : Fin 4) ∧ win0_2.index t (3 : Fin 4) = win0_6.index t (3 : Fin 4))
    ∧ (win0_3.index t (0 : Fin 4) = win0_6.index t (0 : Fin 4) ∧ win0_3.index t (1 : Fin 4) = win0_6.index t (1 : Fin 4)
      ∧ win0_3.index t (2 : Fin 4) = win0_6.index t (2 : Fin 4) ∧ win0_3.index t (3 : Fin 4) = win0_6.index t (3 : Fin 4)) :=
  (by decide +kernel : ∀ t : Fin grid0.N, _)

/-- The two weight windows' blocks follow the result's sample-group index (its axis 1) and sit at block 0 on the two
    image axes, as the result's does. -/
theorem idx_wts : ∀ t : Fin cfg0.N,
    (win0_4.index t (0 : Fin 3) = win0_6.index t (1 : Fin 4) ∧ win0_4.index t (1 : Fin 3) = win0_6.index t (2 : Fin 4)
      ∧ win0_4.index t (2 : Fin 3) = win0_6.index t (3 : Fin 4))
    ∧ (win0_5.index t (0 : Fin 3) = win0_6.index t (1 : Fin 4) ∧ win0_5.index t (1 : Fin 3) = win0_6.index t (2 : Fin 4)
      ∧ win0_5.index t (2 : Fin 3) = win0_6.index t (3 : Fin 4)) :=
  (by decide +kernel : ∀ t : Fin grid0.N, _)

/-- The result's block indices stay in their ranges: 6 channels, 8 groups of 10 samples, one block on each image axis. -/
theorem idx_out : ∀ t : Fin cfg0.N,
    win0_6.index t (0 : Fin 4) ≤ 5 ∧ win0_6.index t (1 : Fin 4) ≤ 7
    ∧ win0_6.index t (2 : Fin 4) = 0 ∧ win0_6.index t (3 : Fin 4) = 0 :=
  (by decide +kernel : ∀ t : Fin grid0.N, _)

/-- Every (channel, sample group) pair is some grid point's result block. -/
theorem idx_onto : ∀ (q0 : Fin 6) (q1 : Fin 8), ∃ t : Fin cfg0.N, win0_6.index t = ![q0.val, q1.val, 0, 0] :=
  (by decide +kernel : ∀ (q0 : Fin 6) (q1 : Fin 8), ∃ t : Fin grid0.N, win0_6.index t = ![q0.val, q1.val, 0, 0])

/-! ## Where each input block's elements sit, against the result's block -/

/-- An element of tap window 0's block at a grid point sits in its array where the same element of the result's block sits in
    the result array. -/
theorem emb_tap0 (t : Fin cfg0.N) (j : S1x10x256x256.Idx) :
    ((cfg0.win 0).blk t).view.emb j = ((cfg0.win 6).blk t).view.emb j := by
  obtain ⟨e0, e1, e2, e3⟩ := (idx_taps t).1
  funext a; apply Fin.ext
  match a with
  | ⟨0, _⟩ => show win0_0.index t (0 : Fin 4) * 1 + 1 * (j 0).val = win0_6.index t (0 : Fin 4) * 1 + 1 * (j 0).val; omega
  | ⟨1, _⟩ => show win0_0.index t (1 : Fin 4) * 10 + 1 * (j 1).val = win0_6.index t (1 : Fin 4) * 10 + 1 * (j 1).val; omega
  | ⟨2, _⟩ => show win0_0.index t (2 : Fin 4) * 256 + 1 * (j 2).val = win0_6.index t (2 : Fin 4) * 256 + 1 * (j 2).val; omega
  | ⟨3, _⟩ => show win0_0.index t (3 : Fin 4) * 256 + 1 * (j 3).val = win0_6.index t (3 : Fin 4) * 256 + 1 * (j 3).val; omega

/-- An element of tap window 1's block at a grid point sits in its array where the same element of the result's block sits in
    the result array. -/
theorem emb_tap1 (t : Fin cfg0.N) (j : S1x10x256x256.Idx) :
    ((cfg0.win 1).blk t).view.emb j = ((cfg0.win 6).blk t).view.emb j := by
  obtain ⟨e0, e1, e2, e3⟩ := (idx_taps t).2.1
  funext a; apply Fin.ext
  match a with
  | ⟨0, _⟩ => show win0_1.index t (0 : Fin 4) * 1 + 1 * (j 0).val = win0_6.index t (0 : Fin 4) * 1 + 1 * (j 0).val; omega
  | ⟨1, _⟩ => show win0_1.index t (1 : Fin 4) * 10 + 1 * (j 1).val = win0_6.index t (1 : Fin 4) * 10 + 1 * (j 1).val; omega
  | ⟨2, _⟩ => show win0_1.index t (2 : Fin 4) * 256 + 1 * (j 2).val = win0_6.index t (2 : Fin 4) * 256 + 1 * (j 2).val; omega
  | ⟨3, _⟩ => show win0_1.index t (3 : Fin 4) * 256 + 1 * (j 3).val = win0_6.index t (3 : Fin 4) * 256 + 1 * (j 3).val; omega

/-- An element of tap window 2's block at a grid point sits in its array where the same element of the result's block sits in
    the result array. -/
theorem emb_tap2 (t : Fin cfg0.N) (j : S1x10x256x256.Idx) :
    ((cfg0.win 2).blk t).view.emb j = ((cfg0.win 6).blk t).view.emb j := by
  obtain ⟨e0, e1, e2, e3⟩ := (idx_taps t).2.2.1
  funext a; apply Fin.ext
  match a with
  | ⟨0, _⟩ => show win0_2.index t (0 : Fin 4) * 1 + 1 * (j 0).val = win0_6.index t (0 : Fin 4) * 1 + 1 * (j 0).val; omega
  | ⟨1, _⟩ => show win0_2.index t (1 : Fin 4) * 10 + 1 * (j 1).val = win0_6.index t (1 : Fin 4) * 10 + 1 * (j 1).val; omega
  | ⟨2, _⟩ => show win0_2.index t (2 : Fin 4) * 256 + 1 * (j 2).val = win0_6.index t (2 : Fin 4) * 256 + 1 * (j 2).val; omega
  | ⟨3, _⟩ => show win0_2.index t (3 : Fin 4) * 256 + 1 * (j 3).val = win0_6.index t (3 : Fin 4) * 256 + 1 * (j 3).val; omega

/-- An element of tap window 3's block at a grid point sits in its array where the same element of the result's block sits in
    the result array. -/
theorem emb_tap3 (t : Fin cfg0.N) (j : S1x10x256x256.Idx) :
    ((cfg0.win 3).blk t).view.emb j = ((cfg0.win 6).blk t).view.emb j := by
  obtain ⟨e0, e1, e2, e3⟩ := (idx_taps t).2.2.2
  funext a; apply Fin.ext
  match a with
  | ⟨0, _⟩ => show win0_3.index t (0 : Fin 4) * 1 + 1 * (j 0).val = win0_6.index t (0 : Fin 4) * 1 + 1 * (j 0).val; omega
  | ⟨1, _⟩ => show win0_3.index t (1 : Fin 4) * 10 + 1 * (j 1).val = win0_6.index t (1 : Fin 4) * 10 + 1 * (j 1).val; omega
  | ⟨2, _⟩ => show win0_3.index t (2 : Fin 4) * 256 + 1 * (j 2).val = win0_6.index t (2 : Fin 4) * 256 + 1 * (j 2).val; omega
  | ⟨3, _⟩ => show win0_3.index t (3 : Fin 4) * 256 + 1 * (j 3).val = win0_6.index t (3 : Fin 4) * 256 + 1 * (j 3).val; omega

/-- An element of weight window 4's block at a grid point sits in the weight array at the sample of the corresponding
    element of the result's block. -/
theorem emb_wt4 (t : Fin cfg0.N) (r : Fin 10) (p q : Fin 256) :
    ((cfg0.win 4).blk t).view.emb (ix3 r p q) = smpOf6 (((cfg0.win 6).blk t).view.emb (ix4 (0 : Fin 1) r p q)) := by
  obtain ⟨e0, e1, e2⟩ := (idx_wts t).1
  funext a; apply Fin.ext
  match a with
  | ⟨0, _⟩ => show win0_4.index t (0 : Fin 3) * 10 + 1 * r.val = win0_6.index t (1 : Fin 4) * 10 + 1 * r.val; omega
  | ⟨1, _⟩ => show win0_4.index t (1 : Fin 3) * 256 + 1 * p.val = win0_6.index t (2 : Fin 4) * 256 + 1 * p.val; omega
  | ⟨2, _⟩ => show win0_4.index t (2 : Fin 3) * 256 + 1 * q.val = win0_6.index t (3 : Fin 4) * 256 + 1 * q.val; omega

/-- An element of weight window 5's block at a grid point sits in the weight array at the sample of the corresponding
    element of the result's block. -/
theorem emb_wt5 (t : Fin cfg0.N) (r : Fin 10) (p q : Fin 256) :
    ((cfg0.win 5).blk t).view.emb (ix3 r p q) = smpOf6 (((cfg0.win 6).blk t).view.emb (ix4 (0 : Fin 1) r p q)) := by
  obtain ⟨e0, e1, e2⟩ := (idx_wts t).2
  funext a; apply Fin.ext
  match a with
  | ⟨0, _⟩ => show win0_5.index t (0 : Fin 3) * 10 + 1 * r.val = win0_6.index t (1 : Fin 4) * 10 + 1 * r.val; omega
  | ⟨1, _⟩ => show win0_5.index t (1 : Fin 3) * 256 + 1 * p.val = win0_6.index t (2 : Fin 4) * 256 + 1 * p.val; omega
  | ⟨2, _⟩ => show win0_5.index t (2 : Fin 3) * 256 + 1 * q.val = win0_6.index t (3 : Fin 4) * 256 + 1 * q.val; omega

/-! ## Each window's block read off its array -/

/-- Tap window 0's block at a grid point, read off any contents of its array: element by element, the contents where the
    same element of the result's block sits. -/
theorem read_tap0 (A : S6x80x256x256.Idx → EReal) (t : Fin cfg0.N) (y : S1x10x256x256.Idx) :
    ((cfg0.win 0).blk t).view.read (Elt Ideal) A y = A (((cfg0.win 6).blk t).view.emb y) := by
  show A (((cfg0.win 0).blk t).view.emb y) = _
  rw [emb_tap0]

/-- Tap window 1's block at a grid point, read off any contents of its array: element by element, the contents where the
    same element of the result's block sits. -/
theorem read_tap1 (A : S6x80x256x256.Idx → EReal) (t : Fin cfg0.N) (y : S1x10x256x256.Idx) :
    ((cfg0.win 1).blk t).view.read (Elt Ideal) A y = A (((cfg0.win 6).blk t).view.emb y) := by
  show A (((cfg0.win 1).blk t).view.emb y) = _
  rw [emb_tap1]

/-- Tap window 2's block at a grid point, read off any contents of its array: element by element, the contents where the
    same element of the result's block sits. -/
theorem read_tap2 (A : S6x80x256x256.Idx → EReal) (t : Fin cfg0.N) (y : S1x10x256x256.Idx) :
    ((cfg0.win 2).blk t).view.read (Elt Ideal) A y = A (((cfg0.win 6).blk t).view.emb y) := by
  show A (((cfg0.win 2).blk t).view.emb y) = _
  rw [emb_tap2]

/-- Tap window 3's block at a grid point, read off any contents of its array: element by element, the contents where the
    same element of the result's block sits. -/
theorem read_tap3 (A : S6x80x256x256.Idx → EReal) (t : Fin cfg0.N) (y : S1x10x256x256.Idx) :
    ((cfg0.win 3).blk t).view.read (Elt Ideal) A y = A (((cfg0.win 6).blk t).view.emb y) := by
  show A (((cfg0.win 3).blk t).view.emb y) = _
  rw [emb_tap3]

/-- Weight window 4's block at a grid point, read off any contents of its array: element by element, the contents at the
    sample of the corresponding element of the result's block. -/
theorem read_wt4 (A : S80x256x256.Idx → EReal) (t : Fin cfg0.N) (r : Fin 10) (p q : Fin 256) :
    ((cfg0.win 4).blk t).view.read (Elt Ideal) A (ix3 r p q)
      = A (smpOf6 (((cfg0.win 6).blk t).view.emb (ix4 (0 : Fin 1) r p q))) := by
  show A (((cfg0.win 4).blk t).view.emb (ix3 r p q)) = _
  rw [emb_wt4]

/-- Weight window 5's block at a grid point, read off any contents of its array: element by element, the contents at the
    sample of the corresponding element of the result's block. -/
theorem read_wt5 (A : S80x256x256.Idx → EReal) (t : Fin cfg0.N) (r : Fin 10) (p q : Fin 256) :
    ((cfg0.win 5).blk t).view.read (Elt Ideal) A (ix3 r p q)
      = A (smpOf6 (((cfg0.win 6).blk t).view.emb (ix4 (0 : Fin 1) r p q))) := by
  show A (((cfg0.win 5).blk t).view.emb (ix3 r p q)) = _
  rw [emb_wt5]

/-- The result window's block at a grid point, read off any contents of the result array. -/
theorem read_out (A : S6x80x256x256.Idx → EReal) (t : Fin cfg0.N) (y : S1x10x256x256.Idx) :
    ((cfg0.win 6).blk t).view.read (Elt Ideal) A y = A (((cfg0.win 6).blk t).view.emb y) := rfl

/-- The blend of arrays at an index. -/
theorem blend6_apply (v00 v01 v10 v11 : FVec Ideal Tap6 .f32) (wx wy : FVec Ideal Smp .f32) (i : Tap6.Idx) :
    blend6 v00 v01 v10 v11 wx wy i = blend (v00 i) (v01 i) (v10 i) (v11 i) (wx (smpOf6 i)) (wy (smpOf6 i)) := rfl

/-! ## What a grid point writes back -/

variable (m : (ℓ : Loc nD τ sig) → Buf (Elt Ideal) ℓ)

/-- Tap window 0's block at a grid point, as the region finds its array. -/
theorem iblk_tap0 (c : Dev nD) (t : Fin cfg0.N) (y : S1x10x256x256.Idx) :
    (iblk m c 0 t : Vec Ideal S1x10x256x256 .f32) y
      = (V m c main_v35 : S6x80x256x256.Idx → EReal) (((cfg0.win 6).blk t).view.emb y) := by
  unfold iblk
  exact read_tap0 (V m c (Pipeline.arrRef spec0 0)) t y

/-- Tap window 1's block at a grid point, as the region finds its array. -/
theorem iblk_tap1 (c : Dev nD) (t : Fin cfg0.N) (y : S1x10x256x256.Idx) :
    (iblk m c 1 t : Vec Ideal S1x10x256x256 .f32) y
      = (V m c main_v36 : S6x80x256x256.Idx → EReal) (((cfg0.win 6).blk t).view.emb y) := by
  unfold iblk
  exact read_tap1 (V m c (Pipeline.arrRef spec0 1)) t y

/-- Tap window 2's block at a grid point, as the region finds its array. -/
theorem iblk_tap2 (c : Dev nD) (t : Fin cfg0.N) (y : S1x10x256x256.Idx) :
    (iblk m c 2 t : Vec Ideal S1x10x256x256 .f32) y
      = (V m c main_v37 : S6x80x256x256.Idx → EReal) (((cfg0.win 6).blk t).view.emb y) := by
  unfold iblk
  exact read_tap2 (V m c (Pipeline.arrRef spec0 2)) t y

/-- Tap window 3's block at a grid point, as the region finds its array. -/
theorem iblk_tap3 (c : Dev nD) (t : Fin cfg0.N) (y : S1x10x256x256.Idx) :
    (iblk m c 3 t : Vec Ideal S1x10x256x256 .f32) y
      = (V m c main_v38 : S6x80x256x256.Idx → EReal) (((cfg0.win 6).blk t).view.emb y) := by
  unfold iblk
  exact read_tap3 (V m c (Pipeline.arrRef spec0 3)) t y

/-- Weight window 4's block at a grid point, as the region finds its array. -/
theorem iblk_wt4 (c : Dev nD) (t : Fin cfg0.N) (r : Fin 10) (p q : Fin 256) :
    (iblk m c 4 t : Vec Ideal S10x256x256 .f32) (ix3 r p q)
      = (V m c main_v6 : S80x256x256.Idx → EReal) (smpOf6 (((cfg0.win 6).blk t).view.emb (ix4 (0 : Fin 1) r p q))) := by
  unfold iblk
  exact read_wt4 (V m c (Pipeline.arrRef spec0 4)) t r p q

/-- Weight window 5's block at a grid point, as the region finds its array. -/
theorem iblk_wt5 (c : Dev nD) (t : Fin cfg0.N) (r : Fin 10) (p q : Fin 256) :
    (iblk m c 5 t : Vec Ideal S10x256x256 .f32) (ix3 r p q)
      = (V m c main_v7 : S80x256x256.Idx → EReal) (smpOf6 (((cfg0.win 6).blk t).view.emb (ix4 (0 : Fin 1) r p q))) := by
  unfold iblk
  exact read_wt5 (V m c (Pipeline.arrRef spec0 5)) t r p q

/-- What grid point `t` writes back to the result array is block `t` of the blend of the four tap arrays by the two
    weight arrays, as the region finds them. -/
theorem flushed_eq (c : Dev nD) (t : Fin cfg0.N) :
    (dats (F := Ideal) m 0 c).flushed 6 t
      = ((cfg0.win 6).blk t).view.read (Elt Ideal)
          (blend6 (F := Ideal) (V m c main_v35) (V m c main_v36) (V m c main_v37) (V m c main_v38) (V m c main_v6) (V m c main_v7)) := by
  show (cfg0.win 6).cut (grid0.coords t) ((dats m 0 c).after 6 t) = _
  rw [Gen.after0_6]
  refine funext fun (j : S1x10x256x256.Idx) => ?_
  obtain ⟨u, r, p, q, rfl⟩ : ∃ (u : Fin 1) (r : Fin 10) (p q : Fin 256), j = ix4 u r p q := ⟨j 0, j 1, j 2, j 3, eq_ix4 j⟩
  obtain rfl : u = 0 := Subsingleton.elim _ _
  refine (out_at (iblk m c 0 t) (iblk m c 1 t) (iblk m c 2 t) (iblk m c 3 t) (iblk m c 4 t) (iblk m c 5 t) r p q).trans ?_
  rw [iblk_tap0, iblk_tap1, iblk_tap2, iblk_tap3, iblk_wt4, iblk_wt5, read_out, blend6_apply]

/-! ## From the blocks to the array -/

/-- An index of the result array is in grid point `t`'s block iff each coordinate is in the block's range on its axis. -/
theorem mem_blk (t : Fin cfg0.N) (i : S6x80x256x256.Idx) :
    i ∈ ((cfg0.win 6).blk t).view.set ↔ ∀ a : Fin 4, win0_6.index t a * S1x10x256x256.size a ≤ (i a).val
      ∧ (i a).val < win0_6.index t a * S1x10x256x256.size a + S1x10x256x256.size a := by
  show i ∈ ((View.whole main_v39).slice (win0_6.rect t)).set ↔ _
  rw [View.set_slice_whole, Rect.mem_set_unit]
  exact Iff.rfl

/-- Every element of the result array is in some grid point's block: element (ch, n, p, q) in the block of channel `ch`
    and sample group `n / 10`. -/
theorem cover (i : S6x80x256x256.Idx) :
    ∃ t : Fin cfg0.N, (cfg0.win 6).flush t = true ∧ i ∈ ((cfg0.win 6).blk t).view.set := by
  have hi0 : (i 0).val < 6 := (i 0).isLt
  have hi1 : (i 1).val < 80 := (i 1).isLt
  have hi2 : (i 2).val < 256 := (i 2).isLt
  have hi3 : (i 3).val < 256 := (i 3).isLt
  obtain ⟨t, ht⟩ := idx_onto ⟨(i 0).val, hi0⟩ ⟨(i 1).val / 10, by omega⟩
  have q0 : win0_6.index t (0 : Fin 4) = (i 0).val := congrFun ht 0
  have q1 : win0_6.index t (1 : Fin 4) = (i 1).val / 10 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 10 ≤ (i 1).val ∧ (i 1).val < win0_6.index t (1 : Fin 4) * 10 + 10; omega
  | ⟨2, _⟩ => show win0_6.index t (2 : Fin 4) * 256 ≤ (i 2).val ∧ (i 2).val < win0_6.index t (2 : Fin 4) * 256 + 256; omega
  | ⟨3, _⟩ => show win0_6.index t (3 : Fin 4) * 256 ≤ (i 3).val ∧ (i 3).val < win0_6.index t (3 : Fin 4) * 256 + 256; omega

/-- THE RESULT ARRAY after the region: the blend, element by element, of the four tap arrays by the two weight arrays as
    the region finds them. -/
theorem out_eq (c : Dev nD) :
    ((Gen.dats (F := Ideal) m 0 c).arrAt 6 cfg0.N : Tap6.Idx → EReal)
      = blend6 (F := Ideal) (Gen.V m c main_v35) (Gen.V m c main_v36) (Gen.V m c main_v37) (Gen.V m c main_v38)
          (Gen.V m c main_v6) (Gen.V m c main_v7) :=
  (dats m 0 c).arrAt_eq_of_cover 6
    (blend6 (F := Ideal) (V m c main_v35) (V m c main_v36) (V m c main_v37) (V m c main_v38) (V m c main_v6) (V m c main_v7))
    (fun t _ => flushed_eq m c t) cover

end Cert.KernelIdeal.KOut

end
-- ==== Proof.Sample.lean ====
/-
  What the host computes for ONE sample before the gathers, as functions of the sample's two coordinates.

  From a coordinate `s` (a float): its fractional part `frac s = s − ⌊s⌋`, the blend weight, and the integer `cell s` its floor
  converts to.  A column index wraps around the image's width 4096 with the sign of the divisor (`pyRem`: the truncated
  remainder, moved up by the divisor when it is nonzero and of the other sign — the remainder Python's `%` takes, a zero
  divisor replaced by one first); a row index is clamped to [0, 2047] (`clamp`).  The two columns are `col0` and the
  next one, again wrapped; the two rows `row0` and the next one, again clamped; a pixel (row, column) of the flattened
  image is at `flat row col = row · 4096 + col`.  Every operation is written in the order the programs apply it.
-/
import Idealize.ShloMosaic.PureOps.Ideal

noncomputable section

namespace Cert.Resample

open Idealize.ShloMosaic

variable {F : FTy → Type} [FloatOps F]

/-- The remainder of `a` by `d` with the divisor's sign, on 32-bit words. -/
def pyRem (a d : BitVec 32) : BitVec 32 :=
  Scalar.select
    (IntOp.andi
      (IntOp.cmpi .ne
        (IntOp.cmpi .slt (IntOp.remsi .host a (Scalar.select (IntOp.cmpi .eq d 0#32) 1#32 d)) 0#32)
        (IntOp.cmpi .slt (Scalar.select (IntOp.cmpi .eq d 0#32) 1#32 d) 0#32))
      (IntOp.cmpi .ne (IntOp.remsi .host a (Scalar.select (IntOp.cmpi .eq d 0#32) 1#32 d)) 0#32))
    (IntOp.addi (IntOp.remsi .host a (Scalar.select (IntOp.cmpi .eq d 0#32) 1#32 d)) (Scalar.select (IntOp.cmpi .eq d 0#32) 1#32 d))
    (IntOp.remsi .host a (Scalar.select (IntOp.cmpi .eq d 0#32) 1#32 d))

/-- `a` clamped into `[lo, hi]`: the smaller of `hi` and the larger of `lo` and `a`. -/
def clamp (a lo hi : BitVec 32) : BitVec 32 := IntOp.minsi hi (IntOp.maxsi lo a)

/-- The fractional part of a coordinate. -/
def frac (s : F .f32) : F .f32 := FloatOps.subf s (FloatOps.hostUnary .floor s)

/-- The integer a coordinate's floor converts to. -/
def cell (s : F .f32) : BitVec 32 := FloatOps.fptosi 32 (FloatOps.hostUnary .floor s)

/-- The left tap's column: the cell wrapped around the width. -/
def col0 (sx : F .f32) : BitVec 32 := pyRem (cell sx) 4096#32
/-- The right tap's column: the next one, wrapped again. -/
def col1 (sx : F .f32) : BitVec 32 := pyRem (IntOp.addi (col0 sx) 1#32) 4096#32
/-- The upper tap's row: the cell clamped to the image. -/
def row0 (sy : F .f32) : BitVec 32 := clamp (cell sy) 0#32 2047#32
/-- The lower tap's row: the next one, clamped again. -/
def row1 (sy : F .f32) : BitVec 32 := clamp (IntOp.addi (row0 sy) 1#32) 0#32 2047#32
/-- The position of pixel (row, col) in the flattened image. -/
def flat (row col : BitVec 32) : BitVec 32 := IntOp.addi (IntOp.muli row 4096#32) col

end Cert.Resample

end
-- ==== Proof.KTake.lean ====
/-
  `jnp.take` along the flattened image as the kernel program's host side computes it, over the 80 × 256 × 256 samples:
  the start indices (`starts`: a negative position counted from the end, then a trailing axis of extent one), which of
  them lie inside the image (`inside`), and the gather itself with the float literal `0x7FC00000` outside (`take`).
  The three are the program's own operations, composed.
-/
import proofs.«127784_j58463094833211_2_alg».proof.KernelIdeal
import proofs.«127784_j58463094833211_2_alg».proof.Proof.Gen.KernelIdeal

noncomputable section

namespace Cert.KernelIdeal.KTake

open Idealize.ShloMosaic Cert.KernelIdeal Cert.KernelIdeal.Gen

variable {F : FTy → Type} [FloatOps F]

/-- The start indices of a gather: a negative position is first moved up by the image's length, then each position is
    given a trailing axis of extent one. -/
def starts (idx : IVec S80x256x256 32) : IVec S80x256x256x1 32 :=
  broadcastInDim S80x256x256x1 ![0, 1, 2] bcast_S80x256x256_S80x256x256x1_0_1_2
    (select (cmpi .slt idx (broadcastInDim S80x256x256 ![] bcast_S_S80x256x256 (constantI S_ 32 0#32)))
      (addi idx (broadcastInDim S80x256x256 ![] bcast_S_S80x256x256 (constantI S_ 32 8388608#32))) idx)

/-- Which samples' start indices lie inside the image: `0 ≤ start ≤ 8388607`, and-ed over the trailing axis. -/
def inside (st : IVec S80x256x256x1 32) : IVec S80x256x256 1 :=
  Host.reduce IntOp.andi
    (andi (cmpi .sge st (broadcastInDim S80x256x256x1 ![] bcast_S_S80x256x256x1 (constantI S_ 32 0#32)))
      (cmpi .sle st (broadcastInDim S80x256x256x1 ![0, 1, 2, 3] bcast_S1x1x1x1_S80x256x256x1_0_1_2_3
        (broadcastInDim S1x1x1x1 ![3] bcast_S1_S1x1x1x1_3 (constantI S1 32 8388607#32)))))
    (constantI S_ 1 1#1) reducesTo_S80x256x256x1_S80x256x256_d3 h_S_

/-- Every channel's pixel at each sample's position, and the literal `0x7FC00000` where the position lies outside. -/
def take (xf : Vec F S2x3x8388608 .f32) (idx : IVec S80x256x256 32) : Vec F S2x3x80x256x256 .f32 :=
  select (broadcastInDim S2x3x80x256x256 ![2, 3, 4] bcast_S80x256x256_S2x3x80x256x256_2_3_4 (inside (starts idx)))
    (Host.gather gather_S2x3x8388608_S80x256x256x1_S2x3x80x256x256_01_2_n_n_2_3_231 xf (starts idx))
    (broadcastInDim S2x3x80x256x256 ![] bcast_S_S2x3x80x256x256 (constant S_ .f32 0x7FC00000#32))

end Cert.KernelIdeal.KTake

end
-- ==== Proof.KHost.lean ====
/-
  The kernel program's host operations before the region, read back as functions of the two argument arrays.

  The sample coordinates are the two slices of the map, `sx` and `sy`, as arrays over the 80 × 256 × 256 samples.  Every
  host operation up to the gathers is elementwise over the samples, so each array it produces holds, at a sample, what the
  per-sample functions of `Cert.Resample` give at that sample's coordinates.  The operations are taken a short stretch at a
  time — one outlined function's lines, or the few lines between two — against ANY contents `W` of the buffers before the
  stretch: what the stretch computes, from `W`'s buffers, and which buffers it leaves as they were.  Chained, the stretches
  give the six arrays the region finds: the weights `frac`, and the four taps `take image (flat (row·) (col·))` reshaped to
  six channels.
-/
import proofs.«127784_j58463094833211_2_alg».proof.Proof.Gen.KernelIdeal.Frame
import proofs.«127784_j58463094833211_2_alg».proof.Proof.Sample
import Idealize.ShloMosaic.Lib.StableHlo.Run
import Idealize.ShloMosaic.Lib.ValueIdx
import proofs.«127784_j58463094833211_2_alg».proof.Proof.KTake

set_option pp.maxSteps 5000
set_option pp.deepTerms false
set_option maxRecDepth 16384

noncomputable section

namespace Cert.KernelIdeal.KHost

open Idealize.ShloMosaic Idealize.ShloMosaic.TcCoe Idealize.ShloMosaic.StableHlo Idealize.ShloMosaic.ValueIdx
open Cert.KernelIdeal Cert.KernelIdeal.Gen Cert.Resample

variable {F : FTy → Type} [FloatOps F]

/-- Operations run one stretch after another: the contents after the second stretch, from those after the first. -/
theorem after_append {Val : EltTy → Type} (A B : List (HloOp τ sig Val)) (V : Valuation τ sig Val) :
    after (A ++ B) V = after B (after A V) := by
  induction A generalizing V with
  | nil => rfl
  | cons op A ih => exact ih _

/-- The samples' first coordinates: the map's slice at 0 on its last axis. -/
def sx (a1 : Vec F S80x256x256x2 .f32) : Vec F S80x256x256 .f32 :=
  shapeCast S80x256x256 (extractStridedSlice S80x256x256x1 ![0, 0, 0, 0] a1 slices_S80x256x256x2_S80x256x256x1_0_0_0_0)
    shapeCasts_S80x256x256x1_S80x256x256
/-- The samples' second coordinates: the map's slice at 1 on its last axis. -/
def sy (a1 : Vec F S80x256x256x2 .f32) : Vec F S80x256x256 .f32 :=
  shapeCast S80x256x256 (extractStridedSlice S80x256x256x1 ![0, 0, 0, 1] a1 slices_S80x256x256x2_S80x256x256x1_0_0_0_1)
    shapeCasts_S80x256x256x1_S80x256x256

/-- The slices, the floors, the weights, the first column's cell and its wrap. -/
abbrev kA : List (HloOp τ sig (Elt F)) := hostOps0 ++ hostOps0_1

theorem kA_v6 (W : Valuation τ sig (Elt F)) :
    after kA W (Proc.devRef .tc main_v6) = fun s => frac (sx (W (Proc.devRef .tc main_arg1) : Vec F S80x256x256x2 .f32) s) := by
  simp only [kA, hostOps0, hostOps0_1, List.cons_append, List.nil_append]
  after_results_simp
  rfl

theorem kA_v7 (W : Valuation τ sig (Elt F)) :
    after kA W (Proc.devRef .tc main_v7) = fun s => frac (sy (W (Proc.devRef .tc main_arg1) : Vec F S80x256x256x2 .f32) s) := by
  simp only [kA, hostOps0, hostOps0_1, List.cons_append, List.nil_append]
  after_results_simp
  rfl

theorem kA_v5 (W : Valuation τ sig (Elt F)) :
    after kA W (Proc.devRef .tc main_v5) = fun s => FloatOps.hostUnary .floor (sy (W (Proc.devRef .tc main_arg1) : Vec F S80x256x256x2 .f32) s) := by
  simp only [kA, hostOps0, hostOps0_1, List.cons_append, List.nil_append]
  after_results_simp
  rfl

theorem kA_v9 (W : Valuation τ sig (Elt F)) :
    after kA W (Proc.devRef .tc main_v9) = fun s => col0 (sx (W (Proc.devRef .tc main_arg1) : Vec F S80x256x256x2 .f32) s) := by
  simp only [kA, hostOps0, hostOps0_1, List.cons_append, List.nil_append]
  after_results_simp
  rfl

theorem kA_arg0 (W : Valuation τ sig (Elt F)) :
    after kA W (Proc.devRef .tc main_arg0) = W (Proc.devRef .tc main_arg0) := by
  simp only [kA, hostOps0, hostOps0_1, List.cons_append, List.nil_append]
  after_results_simp

/-- The next column, wrapped. -/
abbrev kB : List (HloOp τ sig (Elt F)) := hostOps0_2 ++ hostOps0_3

theorem kB_v12 (W : Valuation τ sig (Elt F)) :
    after kB W (Proc.devRef .tc main_v12) = fun s => pyRem (IntOp.addi ((W (Proc.devRef .tc main_v9) : IVec S80x256x256 32) s) 1#32) 4096#32 := by
  simp only [kB, hostOps0_2, hostOps0_3, List.cons_append, List.nil_append]
  after_results_simp
  rfl

theorem kB_v6 (W : Valuation τ sig (Elt F)) :
    after kB W (Proc.devRef .tc main_v6) = W (Proc.devRef .tc main_v6) := by
  simp only [kB, hostOps0_2, hostOps0_3, List.cons_append, List.nil_append]
  after_results_simp

theorem kB_v7 (W : Valuation τ sig (Elt F)) :
    after kB W (Proc.devRef .tc main_v7) = W (Proc.devRef .tc main_v7) := by
  simp only [kB, hostOps0_2, hostOps0_3, List.cons_append, List.nil_append]
  after_results_simp

theorem kB_v5 (W : Valuation τ sig (Elt F)) :
    after kB W (Proc.devRef .tc main_v5) = W (Proc.devRef .tc main_v5) := by
  simp only [kB, hostOps0_2, hostOps0_3, List.cons_append, List.nil_append]
  after_results_simp

theorem kB_v9 (W : Valuation τ sig (Elt F)) :
    after kB W (Proc.devRef .tc main_v9) = W (Proc.devRef .tc main_v9) := by
  simp only [kB, hostOps0_2, hostOps0_3, List.cons_append, List.nil_append]
  after_results_simp

theorem kB_arg0 (W : Valuation τ sig (Elt F)) :
    after kB W (Proc.devRef .tc main_arg0) = W (Proc.devRef .tc main_arg0) := by
  simp only [kB, hostOps0_2, hostOps0_3, List.cons_append, List.nil_append]
  after_results_simp

/-- The row's cell, clamped. -/
abbrev kC : List (HloOp τ sig (Elt F)) := hostOps0_4 ++ hostOps0_5

theorem kC_v14 (W : Valuation τ sig (Elt F)) :
    after kC W (Proc.devRef .tc main_v14) = fun s => clamp (FloatOps.fptosi 32 ((W (Proc.devRef .tc main_v5) : Vec F S80x256x256 .f32) s)) 0#32 2047#32 := by
  simp only [kC, hostOps0_4, hostOps0_5, List.cons_append, List.nil_append]
  after_results_simp
  rfl

theorem kC_v6 (W : Valuation τ sig (Elt F)) :
    after kC W (Proc.devRef .tc main_v6) = W (Proc.devRef .tc main_v6) := by
  simp only [kC, hostOps0_4, hostOps0_5, List.cons_append, List.nil_append]
  after_results_simp

theorem kC_v7 (W : Valuation τ sig (Elt F)) :
    after kC W (Proc.devRef .tc main_v7) = W (Proc.devRef .tc main_v7) := by
  simp only [kC, hostOps0_4, hostOps0_5, List.cons_append, List.nil_append]
  after_results_simp

theorem kC_v9 (W : Valuation τ sig (Elt F)) :
    after kC W (Proc.devRef .tc main_v9) = W (Proc.devRef .tc main_v9) := by
  simp only [kC, hostOps0_4, hostOps0_5, List.cons_append, List.nil_append]
  after_results_simp

theorem kC_v12 (W : Valuation τ sig (Elt F)) :
    after kC W (Proc.devRef .tc main_v12) = W (Proc.devRef .tc main_v12) := by
  simp only [kC, hostOps0_4, hostOps0_5, List.cons_append, List.nil_append]
  after_results_simp

theorem kC_arg0 (W : Valuation τ sig (Elt F)) :
    after kC W (Proc.devRef .tc main_arg0) = W (Proc.devRef .tc main_arg0) := by
  simp only [kC, hostOps0_4, hostOps0_5, List.cons_append, List.nil_append]
  after_results_simp

/-- The next row, clamped. -/
abbrev kD : List (HloOp τ sig (Elt F)) := hostOps0_6 ++ hostOps0_7

theorem kD_v17 (W : Valuation τ sig (Elt F)) :
    after kD W (Proc.devRef .tc main_v17) = fun s => clamp (IntOp.addi ((W (Proc.devRef .tc main_v14) : IVec S80x256x256 32) s) 1#32) 0#32 2047#32 := by
  simp only [kD, hostOps0_6, hostOps0_7, List.cons_append, List.nil_append]
  after_results_simp
  rfl

theorem kD_v6 (W : Valuation τ sig (Elt F)) :
    after kD W (Proc.devRef .tc main_v6) = W (Proc.devRef .tc main_v6) := by
  simp only [kD, hostOps0_6, hostOps0_7, List.cons_append, List.nil_append]
  after_results_simp

theorem kD_v7 (W : Valuation τ sig (Elt F)) :
    after kD W (Proc.devRef .tc main_v7) = W (Proc.devRef .tc main_v7) := by
  simp only [kD, hostOps0_6, hostOps0_7, List.cons_append, List.nil_append]
  after_results_simp

theorem kD_v9 (W : Valuation τ sig (Elt F)) :
    after kD W (Proc.devRef .tc main_v9) = W (Proc.devRef .tc main_v9) := by
  simp only [kD, hostOps0_6, hostOps0_7, List.cons_append, List.nil_append]
  after_results_simp

theorem kD_v12 (W : Valuation τ sig (Elt F)) :
    after kD W (Proc.devRef .tc main_v12) = W (Proc.devRef .tc main_v12) := by
  simp only [kD, hostOps0_6, hostOps0_7, List.cons_append, List.nil_append]
  after_results_simp

theorem kD_v14 (W : Valuation τ sig (Elt F)) :
    after kD W (Proc.devRef .tc main_v14) = W (Proc.devRef .tc main_v14) := by
  simp only [kD, hostOps0_6, hostOps0_7, List.cons_append, List.nil_append]
  after_results_simp

theorem kD_arg0 (W : Valuation τ sig (Elt F)) :
    after kD W (Proc.devRef .tc main_arg0) = W (Proc.devRef .tc main_arg0) := by
  simp only [kD, hostOps0_6, hostOps0_7, List.cons_append, List.nil_append]
  after_results_simp

/-- The flattened image and the four taps' positions in it. -/
abbrev kE : List (HloOp τ sig (Elt F)) := hostOps0_8

theorem kE_v18 (W : Valuation τ sig (Elt F)) :
    after kE W (Proc.devRef .tc main_v18) = shapeCast S2x3x8388608 (W (Proc.devRef .tc main_arg0) : Vec F S2x3x2048x4096 .f32) shapeCasts_S2x3x2048x4096_S2x3x8388608 := by
  simp only [kE, hostOps0_8, List.cons_append, List.nil_append]
  after_results_simp
  rfl

theorem kE_v21 (W : Valuation τ sig (Elt F)) :
    after kE W (Proc.devRef .tc main_v21) = fun s => flat ((W (Proc.devRef .tc main_v14) : IVec S80x256x256 32) s) ((W (Proc.devRef .tc main_v9) : IVec S80x256x256 32) s) := by
  simp only [kE, hostOps0_8, List.cons_append, List.nil_append]
  after_results_simp
  rfl

theorem kE_v24 (W : Valuation τ sig (Elt F)) :
    after kE W (Proc.devRef .tc main_v24) = fun s => flat ((W (Proc.devRef .tc main_v14) : IVec S80x256x256 32) s) ((W (Proc.devRef .tc main_v12) : IVec S80x256x256 32) s) := by
  simp only [kE, hostOps0_8, List.cons_append, List.nil_append]
  after_results_simp
  rfl

theorem kE_v27 (W : Valuation τ sig (Elt F)) :
    after kE W (Proc.devRef .tc main_v27) = fun s => flat ((W (Proc.devRef .tc main_v17) : IVec S80x256x256 32) s) ((W (Proc.devRef .tc main_v9) : IVec S80x256x256 32) s) := by
  simp only [kE, hostOps0_8, List.cons_append, List.nil_append]
  after_results_simp
  rfl

theorem kE_v30 (W : Valuation τ sig (Elt F)) :
    after kE W (Proc.devRef .tc main_v30) = fun s => flat ((W (Proc.devRef .tc main_v17) : IVec S80x256x256 32) s) ((W (Proc.devRef .tc main_v12) : IVec S80x256x256 32) s) := by
  simp only [kE, hostOps0_8, List.cons_append, List.nil_append]
  after_results_simp
  rfl

theorem kE_v6 (W : Valuation τ sig (Elt F)) :
    after kE W (Proc.devRef .tc main_v6) = W (Proc.devRef .tc main_v6) := by
  simp only [kE, hostOps0_8, List.cons_append, List.nil_append]
  after_results_simp

theorem kE_v7 (W : Valuation τ sig (Elt F)) :
    after kE W (Proc.devRef .tc main_v7) = W (Proc.devRef .tc main_v7) := by
  simp only [kE, hostOps0_8, List.cons_append, List.nil_append]
  after_results_simp

/-! ## The gathers -/

open Cert.KernelIdeal.KTake

attribute [local irreducible] Host.reduce Host.gather

/-- One gather: `v31` from the flattened image and the positions `v21`. -/
abbrev kT1 : List (HloOp τ sig (Elt F)) := hostOps0_9

set_option maxHeartbeats 400000 in
theorem kT1_inside (W : Valuation τ sig (Elt F)) :
    after (List.take 19 hostOps0_9) W (Proc.devRef .tc main_call4_v12) = inside (starts (W (Proc.devRef .tc main_v21))) := by
  simp only [hostOps0_9, List.take_succ_cons, List.take_zero]
  after_results_simp
  rfl

set_option maxHeartbeats 400000 in
theorem kT1_gather (W : Valuation τ sig (Elt F)) :
    after (List.take 19 hostOps0_9) W (Proc.devRef .tc main_call4_v13)
      = Host.gather gather_S2x3x8388608_S80x256x256x1_S2x3x80x256x256_01_2_n_n_2_3_231 (W (Proc.devRef .tc main_v18)) (starts (W (Proc.devRef .tc main_v21))) := by
  simp only [hostOps0_9, List.take_succ_cons, List.take_zero]
  after_results_simp
  rfl

set_option maxHeartbeats 400000 in
theorem kT1_select (W : Valuation τ sig (Elt F)) :
    after (List.drop 19 hostOps0_9) W (Proc.devRef .tc main_v31)
      = select (broadcastInDim S2x3x80x256x256 ![2, 3, 4] bcast_S80x256x256_S2x3x80x256x256_2_3_4 (W (Proc.devRef .tc main_call4_v12) : IVec S80x256x256 1))
          (W (Proc.devRef .tc main_call4_v13) : Vec F S2x3x80x256x256 .f32)
          (broadcastInDim S2x3x80x256x256 ![] bcast_S_S2x3x80x256x256 (constant S_ .f32 0x7FC00000#32)) := by
  simp only [hostOps0_9, List.drop_succ_cons, List.drop_zero]
  after_results_simp
  rfl

set_option maxHeartbeats 400000 in
theorem kT1_v31 (W : Valuation τ sig (Elt F)) :
    after kT1 W (Proc.devRef .tc main_v31) = take (W (Proc.devRef .tc main_v18)) (W (Proc.devRef .tc main_v21)) := by
  rw [show (kT1 : List (HloOp τ sig (Elt F))) = List.take 19 hostOps0_9 ++ List.drop 19 hostOps0_9 from (List.take_append_drop 19 _).symm,
    after_append, kT1_select, kT1_inside, kT1_gather]
  rfl

theorem kT1_v6 (W : Valuation τ sig (Elt F)) :
    after kT1 W (Proc.devRef .tc main_v6) = W (Proc.devRef .tc main_v6) := by
  simp only [kT1, hostOps0_9]
  after_results_simp

theorem kT1_v7 (W : Valuation τ sig (Elt F)) :
    after kT1 W (Proc.devRef .tc main_v7) = W (Proc.devRef .tc main_v7) := by
  simp only [kT1, hostOps0_9]
  after_results_simp

theorem kT1_v18 (W : Valuation τ sig (Elt F)) :
    after kT1 W (Proc.devRef .tc main_v18) = W (Proc.devRef .tc main_v18) := by
  simp only [kT1, hostOps0_9]
  after_results_simp

theorem kT1_v24 (W : Valuation τ sig (Elt F)) :
    after kT1 W (Proc.devRef .tc main_v24) = W (Proc.devRef .tc main_v24) := by
  simp only [kT1, hostOps0_9]
  after_results_simp

theorem kT1_v27 (W : Valuation τ sig (Elt F)) :
    after kT1 W (Proc.devRef .tc main_v27) = W (Proc.devRef .tc main_v27) := by
  simp only [kT1, hostOps0_9]
  after_results_simp

theorem kT1_v30 (W : Valuation τ sig (Elt F)) :
    after kT1 W (Proc.devRef .tc main_v30) = W (Proc.devRef .tc main_v30) := by
  simp only [kT1, hostOps0_9]
  after_results_simp

/-- One gather: `v32` from the flattened image and the positions `v24`. -/
abbrev kT2 : List (HloOp τ sig (Elt F)) := hostOps0_10

set_option maxHeartbeats 400000 in
theorem kT2_inside (W : Valuation τ sig (Elt F)) :
    after (List.take 19 hostOps0_10) W (Proc.devRef .tc main_call5_v12) = inside (starts (W (Proc.devRef .tc main_v24))) := by
  simp only [hostOps0_10, List.take_succ_cons, List.take_zero]
  after_results_simp
  rfl

set_option maxHeartbeats 400000 in
theorem kT2_gather (W : Valuation τ sig (Elt F)) :
    after (List.take 19 hostOps0_10) W (Proc.devRef .tc main_call5_v13)
      = Host.gather gather_S2x3x8388608_S80x256x256x1_S2x3x80x256x256_01_2_n_n_2_3_231 (W (Proc.devRef .tc main_v18)) (starts (W (Proc.devRef .tc main_v24))) := by
  simp only [hostOps0_10, List.take_succ_cons, List.take_zero]
  after_results_simp
  rfl

set_option maxHeartbeats 400000 in
theorem kT2_select (W : Valuation τ sig (Elt F)) :
    after (List.drop 19 hostOps0_10) W (Proc.devRef .tc main_v32)
      = select (broadcastInDim S2x3x80x256x256 ![2, 3, 4] bcast_S80x256x256_S2x3x80x256x256_2_3_4 (W (Proc.devRef .tc main_call5_v12) : IVec S80x256x256 1))
          (W (Proc.devRef .tc main_call5_v13) : Vec F S2x3x80x256x256 .f32)
          (broadcastInDim S2x3x80x256x256 ![] bcast_S_S2x3x80x256x256 (constant S_ .f32 0x7FC00000#32)) := by
  simp only [hostOps0_10, List.drop_succ_cons, List.drop_zero]
  after_results_simp
  rfl

set_option maxHeartbeats 400000 in
theorem kT2_v32 (W : Valuation τ sig (Elt F)) :
    after kT2 W (Proc.devRef .tc main_v32) = take (W (Proc.devRef .tc main_v18)) (W (Proc.devRef .tc main_v24)) := by
  rw [show (kT2 : List (HloOp τ sig (Elt F))) = List.take 19 hostOps0_10 ++ List.drop 19 hostOps0_10 from (List.take_append_drop 19 _).symm,
    after_append, kT2_select, kT2_inside, kT2_gather]
  rfl

theorem kT2_v6 (W : Valuation τ sig (Elt F)) :
    after kT2 W (Proc.devRef .tc main_v6) = W (Proc.devRef .tc main_v6) := by
  simp only [kT2, hostOps0_10]
  after_results_simp

theorem kT2_v7 (W : Valuation τ sig (Elt F)) :
    after kT2 W (Proc.devRef .tc main_v7) = W (Proc.devRef .tc main_v7) := by
  simp only [kT2, hostOps0_10]
  after_results_simp

theorem kT2_v18 (W : Valuation τ sig (Elt F)) :
    after kT2 W (Proc.devRef .tc main_v18) = W (Proc.devRef .tc main_v18) := by
  simp only [kT2, hostOps0_10]
  after_results_simp

theorem kT2_v27 (W : Valuation τ sig (Elt F)) :
    after kT2 W (Proc.devRef .tc main_v27) = W (Proc.devRef .tc main_v27) := by
  simp only [kT2, hostOps0_10]
  after_results_simp

theorem kT2_v30 (W : Valuation τ sig (Elt F)) :
    after kT2 W (Proc.devRef .tc main_v30) = W (Proc.devRef .tc main_v30) := by
  simp only [kT2, hostOps0_10]
  after_results_simp

theorem kT2_v31 (W : Valuation τ sig (Elt F)) :
    after kT2 W (Proc.devRef .tc main_v31) = W (Proc.devRef .tc main_v31) := by
  simp only [kT2, hostOps0_10]
  after_results_simp

/-- One gather: `v33` from the flattened image and the positions `v27`. -/
abbrev kT3 : List (HloOp τ sig (Elt F)) := hostOps0_11

set_option maxHeartbeats 400000 in
theorem kT3_inside (W : Valuation τ sig (Elt F)) :
    after (List.take 19 hostOps0_11) W (Proc.devRef .tc main_call6_v12) = inside (starts (W (Proc.devRef .tc main_v27))) := by
  simp only [hostOps0_11, List.take_succ_cons, List.take_zero]
  after_results_simp
  rfl

set_option maxHeartbeats 400000 in
theorem kT3_gather (W : Valuation τ sig (Elt F)) :
    after (List.take 19 hostOps0_11) W (Proc.devRef .tc main_call6_v13)
      = Host.gather gather_S2x3x8388608_S80x256x256x1_S2x3x80x256x256_01_2_n_n_2_3_231 (W (Proc.devRef .tc main_v18)) (starts (W (Proc.devRef .tc main_v27))) := by
  simp only [hostOps0_11, List.take_succ_cons, List.take_zero]
  after_results_simp
  rfl

set_option maxHeartbeats 400000 in
theorem kT3_select (W : Valuation τ sig (Elt F)) :
    after (List.drop 19 hostOps0_11) W (Proc.devRef .tc main_v33)
      = select (broadcastInDim S2x3x80x256x256 ![2, 3, 4] bcast_S80x256x256_S2x3x80x256x256_2_3_4 (W (Proc.devRef .tc main_call6_v12) : IVec S80x256x256 1))
          (W (Proc.devRef .tc main_call6_v13) : Vec F S2x3x80x256x256 .f32)
          (broadcastInDim S2x3x80x256x256 ![] bcast_S_S2x3x80x256x256 (constant S_ .f32 0x7FC00000#32)) := by
  simp only [hostOps0_11, List.drop_succ_cons, List.drop_zero]
  after_results_simp
  rfl

set_option maxHeartbeats 400000 in
theorem kT3_v33 (W : Valuation τ sig (Elt F)) :
    after kT3 W (Proc.devRef .tc main_v33) = take (W (Proc.devRef .tc main_v18)) (W (Proc.devRef .tc main_v27)) := by
  rw [show (kT3 : List (HloOp τ sig (Elt F))) = List.take 19 hostOps0_11 ++ List.drop 19 hostOps0_11 from (List.take_append_drop 19 _).symm,
    after_append, kT3_select, kT3_inside, kT3_gather]
  rfl

theorem kT3_v6 (W : Valuation τ sig (Elt F)) :
    after kT3 W (Proc.devRef .tc main_v6) = W (Proc.devRef .tc main_v6) := by
  simp only [kT3, hostOps0_11]
  after_results_simp

theorem kT3_v7 (W : Valuation τ sig (Elt F)) :
    after kT3 W (Proc.devRef .tc main_v7) = W (Proc.devRef .tc main_v7) := by
  simp only [kT3, hostOps0_11]
  after_results_simp

theorem kT3_v18 (W : Valuation τ sig (Elt F)) :
    after kT3 W (Proc.devRef .tc main_v18) = W (Proc.devRef .tc main_v18) := by
  simp only [kT3, hostOps0_11]
  after_results_simp

theorem kT3_v30 (W : Valuation τ sig (Elt F)) :
    after kT3 W (Proc.devRef .tc main_v30) = W (Proc.devRef .tc main_v30) := by
  simp only [kT3, hostOps0_11]
  after_results_simp

theorem kT3_v31 (W : Valuation τ sig (Elt F)) :
    after kT3 W (Proc.devRef .tc main_v31) = W (Proc.devRef .tc main_v31) := by
  simp only [kT3, hostOps0_11]
  after_results_simp

theorem kT3_v32 (W : Valuation τ sig (Elt F)) :
    after kT3 W (Proc.devRef .tc main_v32) = W (Proc.devRef .tc main_v32) := by
  simp only [kT3, hostOps0_11]
  after_results_simp

/-- One gather: `v34` from the flattened image and the positions `v30`. -/
abbrev kT4 : List (HloOp τ sig (Elt F)) := hostOps0_12

set_option maxHeartbeats 400000 in
theorem kT4_inside (W : Valuation τ sig (Elt F)) :
    after (List.take 19 hostOps0_12) W (Proc.devRef .tc main_call7_v12) = inside (starts (W (Proc.devRef .tc main_v30))) := by
  simp only [hostOps0_12, List.take_succ_cons, List.take_zero]
  after_results_simp
  rfl

set_option maxHeartbeats 400000 in
theorem kT4_gather (W : Valuation τ sig (Elt F)) :
    after (List.take 19 hostOps0_12) W (Proc.devRef .tc main_call7_v13)
      = Host.gather gather_S2x3x8388608_S80x256x256x1_S2x3x80x256x256_01_2_n_n_2_3_231 (W (Proc.devRef .tc main_v18)) (starts (W (Proc.devRef .tc main_v30))) := by
  simp only [hostOps0_12, List.take_succ_cons, List.take_zero]
  after_results_simp
  rfl

set_option maxHeartbeats 400000 in
theorem kT4_select (W : Valuation τ sig (Elt F)) :
    after (List.drop 19 hostOps0_12) W (Proc.devRef .tc main_v34)
      = select (broadcastInDim S2x3x80x256x256 ![2, 3, 4] bcast_S80x256x256_S2x3x80x256x256_2_3_4 (W (Proc.devRef .tc main_call7_v12) : IVec S80x256x256 1))
          (W (Proc.devRef .tc main_call7_v13) : Vec F S2x3x80x256x256 .f32)
          (broadcastInDim S2x3x80x256x256 ![] bcast_S_S2x3x80x256x256 (constant S_ .f32 0x7FC00000#32)) := by
  simp only [hostOps0_12, List.drop_succ_cons, List.drop_zero]
  after_results_simp
  rfl

set_option maxHeartbeats 400000 in
theorem kT4_v34 (W : Valuation τ sig (Elt F)) :
    after kT4 W (Proc.devRef .tc main_v34) = take (W (Proc.devRef .tc main_v18)) (W (Proc.devRef .tc main_v30)) := by
  rw [show (kT4 : List (HloOp τ sig (Elt F))) = List.take 19 hostOps0_12 ++ List.drop 19 hostOps0_12 from (List.take_append_drop 19 _).symm,
    after_append, kT4_select, kT4_inside, kT4_gather]
  rfl

theorem kT4_v6 (W : Valuation τ sig (Elt F)) :
    after kT4 W (Proc.devRef .tc main_v6) = W (Proc.devRef .tc main_v6) := by
  simp only [kT4, hostOps0_12]
  after_results_simp

theorem kT4_v7 (W : Valuation τ sig (Elt F)) :
    after kT4 W (Proc.devRef .tc main_v7) = W (Proc.devRef .tc main_v7) := by
  simp only [kT4, hostOps0_12]
  after_results_simp

theorem kT4_v31 (W : Valuation τ sig (Elt F)) :
    after kT4 W (Proc.devRef .tc main_v31) = W (Proc.devRef .tc main_v31) := by
  simp only [kT4, hostOps0_12]
  after_results_simp

theorem kT4_v32 (W : Valuation τ sig (Elt F)) :
    after kT4 W (Proc.devRef .tc main_v32) = W (Proc.devRef .tc main_v32) := by
  simp only [kT4, hostOps0_12]
  after_results_simp

theorem kT4_v33 (W : Valuation τ sig (Elt F)) :
    after kT4 W (Proc.devRef .tc main_v33) = W (Proc.devRef .tc main_v33) := by
  simp only [kT4, hostOps0_12]
  after_results_simp

/-- The four taps reshaped to the six-channel layout. -/
abbrev kR : List (HloOp τ sig (Elt F)) := hostOps0_13

theorem kR_v35 (W : Valuation τ sig (Elt F)) :
    after kR W (Proc.devRef .tc main_v35)
      = shapeCast S6x80x256x256 (W (Proc.devRef .tc main_v31) : Vec F S2x3x80x256x256 .f32) shapeCasts_S2x3x80x256x256_S6x80x256x256 := by
  simp only [kR, hostOps0_13]
  after_results_simp
  rfl

theorem kR_v36 (W : Valuation τ sig (Elt F)) :
    after kR W (Proc.devRef .tc main_v36)
      = shapeCast S6x80x256x256 (W (Proc.devRef .tc main_v32) : Vec F S2x3x80x256x256 .f32) shapeCasts_S2x3x80x256x256_S6x80x256x256 := by
  simp only [kR, hostOps0_13]
  after_results_simp
  rfl

theorem kR_v37 (W : Valuation τ sig (Elt F)) :
    after kR W (Proc.devRef .tc main_v37)
      = shapeCast S6x80x256x256 (W (Proc.devRef .tc main_v33) : Vec F S2x3x80x256x256 .f32) shapeCasts_S2x3x80x256x256_S6x80x256x256 := by
  simp only [kR, hostOps0_13]
  after_results_simp
  rfl

theorem kR_v38 (W : Valuation τ sig (Elt F)) :
    after kR W (Proc.devRef .tc main_v38)
      = shapeCast S6x80x256x256 (W (Proc.devRef .tc main_v34) : Vec F S2x3x80x256x256 .f32) shapeCasts_S2x3x80x256x256_S6x80x256x256 := by
  simp only [kR, hostOps0_13]
  after_results_simp
  rfl

theorem kR_v6 (W : Valuation τ sig (Elt F)) :
    after kR W (Proc.devRef .tc main_v6) = W (Proc.devRef .tc main_v6) := by
  simp only [kR, hostOps0_13]
  after_results_simp

theorem kR_v7 (W : Valuation τ sig (Elt F)) :
    after kR W (Proc.devRef .tc main_v7) = W (Proc.devRef .tc main_v7) := by
  simp only [kR, hostOps0_13]
  after_results_simp

/-! ## The arrays the region finds -/

variable (m : (ℓ : Loc nD τ sig) → Buf (Elt F) ℓ)

/-- All the host operations before the region are the stretches above, one after the other. -/
theorem V0_eq (c : Dev nD) :
    V0 m c = after kR (after kT4 (after kT3 (after kT2 (after kT1 (after kE (after kD (after kC (after kB (after kA
      (fun b => m (c, b))))))))))) := by
  unfold V0
  rw [show (List.flatten [hostOps0, hostOps0_1, hostOps0_2, hostOps0_3, hostOps0_4, hostOps0_5, hostOps0_6, hostOps0_7,
        hostOps0_8, hostOps0_9, hostOps0_10, hostOps0_11, hostOps0_12, hostOps0_13] : List (HloOp τ sig (Elt F)))
      = kA ++ kB ++ kC ++ kD ++ kE ++ kT1 ++ kT2 ++ kT3 ++ kT4 ++ kR from by
    simp only [kA, kB, kC, kD, kE, kT1, kT2, kT3, kT4, kR, List.flatten_cons, List.flatten_nil, List.append_nil, List.append_assoc]]
  simp only [after_append]

/-- The map as launched: the samples' coordinates. -/
abbrev mapOf (c : Dev nD) : Vec F S80x256x256x2 .f32 := m ((c : Thread nD τ).loc main_arg1)
/-- The image as launched, its rows laid end to end. -/
abbrev imageOf (c : Dev nD) : Vec F S2x3x8388608 .f32 :=
  shapeCast S2x3x8388608 (m ((c : Thread nD τ).loc main_arg0)) shapeCasts_S2x3x2048x4096_S2x3x8388608

/-- The weights along a row. -/
theorem V_v6 (c : Dev nD) : V m c main_v6 = fun s => frac (sx (mapOf m c) s) := by
  show V0 m c (Proc.devRef .tc main_v6) = _
  rw [V0_eq]
  rw [kR_v6, kT4_v6, kT3_v6, kT2_v6, kT1_v6, kE_v6, kD_v6, kC_v6, kB_v6, kA_v6]

/-- The weights down a column. -/
theorem V_v7 (c : Dev nD) : V m c main_v7 = fun s => frac (sy (mapOf m c) s) := by
  show V0 m c (Proc.devRef .tc main_v7) = _
  rw [V0_eq]
  rw [kR_v7, kT4_v7, kT3_v7, kT2_v7, kT1_v7, kE_v7, kD_v7, kC_v7, kB_v7, kA_v7]

/-- A tap array the region finds: the gathered pixels at `flat (row0 ·) (col0 ·)`, in the six-channel layout. -/
theorem V_v35 (c : Dev nD) : V m c main_v35
    = shapeCast S6x80x256x256 (take (imageOf m c) fun s => flat (row0 (sy (mapOf m c) s)) (col0 (sx (mapOf m c) s)))
        shapeCasts_S2x3x80x256x256_S6x80x256x256 := by
  show V0 m c (Proc.devRef .tc main_v35) = _
  rw [V0_eq]
  rw [kR_v35, kT4_v31, kT3_v31, kT2_v31, kT1_v31, kE_v18, kE_v21, kD_arg0, kC_arg0, kB_arg0, kA_arg0, kD_v14, kC_v14, kB_v5, kA_v5, kD_v9, kC_v9, kB_v9, kA_v9]
  rfl

/-- A tap array the region finds: the gathered pixels at `flat (row0 ·) (col1 ·)`, in the six-channel layout. -/
theorem V_v36 (c : Dev nD) : V m c main_v36
    = shapeCast S6x80x256x256 (take (imageOf m c) fun s => flat (row0 (sy (mapOf m c) s)) (col1 (sx (mapOf m c) s)))
        shapeCasts_S2x3x80x256x256_S6x80x256x256 := by
  show V0 m c (Proc.devRef .tc main_v36) = _
  rw [V0_eq]
  rw [kR_v36, kT4_v32, kT3_v32, kT2_v32, kT1_v18, kT1_v24, kE_v18, kE_v24, kD_arg0, kC_arg0, kB_arg0, kA_arg0, kD_v14, kC_v14, kB_v5, kA_v5, kD_v12, kC_v12, kB_v12, kA_v9]
  rfl

/-- A tap array the region finds: the gathered pixels at `flat (row1 ·) (col0 ·)`, in the six-channel layout. -/
theorem V_v37 (c : Dev nD) : V m c main_v37
    = shapeCast S6x80x256x256 (take (imageOf m c) fun s => flat (row1 (sy (mapOf m c) s)) (col0 (sx (mapOf m c) s)))
        shapeCasts_S2x3x80x256x256_S6x80x256x256 := by
  show V0 m c (Proc.devRef .tc main_v37) = _
  rw [V0_eq]
  rw [kR_v37, kT4_v33, kT3_v33, kT2_v18, kT2_v27, kT1_v18, kT1_v27, kE_v18, kE_v27, kD_arg0, kC_arg0, kB_arg0, kA_arg0, kD_v17, kC_v14, kB_v5, kA_v5, kD_v9, kC_v9, kB_v9, kA_v9]
  rfl

/-- A tap array the region finds: the gathered pixels at `flat (row1 ·) (col1 ·)`, in the six-channel layout. -/
theorem V_v38 (c : Dev nD) : V m c main_v38
    = shapeCast S6x80x256x256 (take (imageOf m c) fun s => flat (row1 (sy (mapOf m c) s)) (col1 (sx (mapOf m c) s)))
        shapeCasts_S2x3x80x256x256_S6x80x256x256 := by
  show V0 m c (Proc.devRef .tc main_v38) = _
  rw [V0_eq]
  rw [kR_v38, kT4_v34, kT3_v18, kT3_v30, kT2_v18, kT2_v30, kT1_v18, kT1_v30, kE_v18, kE_v30, kD_arg0, kC_arg0, kB_arg0, kA_arg0, kD_v17, kC_v14, kB_v5, kA_v5, kD_v12, kC_v12, kB_v12, kA_v9]
  rfl

end Cert.KernelIdeal.KHost

end
-- ==== Proof.Layout.lean ====
/-
  The two layouts of the result, and of the samples, matched index by index.

  The kernel program blends over [6, 80, 256, 256] — batch and colour on one axis of extent six — and reshapes to the
  result's [2, 3, 80, 256, 256]: element (b, c, n, p, q) of the result is element (3·b + c, n, p, q) of the blend, and a tap
  array reshaped to six channels and read there is the tap array read at (b, c, n, p, q).  So the reshaped six-channel
  blend of reshaped taps is the blend over the result's layout (`blend6_cast`).
  The reference keeps the 80 × 256 × 256 samples in one row of 5242880: sample (n, p, q) is at `flatOf n p q`
  = (n·256 + p)·256 + q, an array over the samples reshaped to the row reads the sample there (`cast_flat`), and the
  result's element (b, c, n, p, q) is the row layout's element (b, c, flatOf n p q) (`cast_out`).
-/
import proofs.«127784_j58463094833211_2_alg».proof.Proof.Spec
import Idealize.ShloMosaic.Lib.Pipeline.Value

noncomputable section

namespace Cert.Resample

open Idealize.ShloMosaic Idealize.ShloMosaic.ValueIdx

variable {F : FTy → Type} [FloatOps F] {α : Type}

/-- The samples in one row. -/
abbrev Flat : Shape := ⟨1, ![5242880]⟩
/-- Batch, colour, and the samples in one row. -/
abbrev Out3 : Shape := ⟨3, ![2, 3, 5242880]⟩

/-- The place of sample `(n, p, q)` in the row. -/
def flatOf (n : Fin 80) (p q : Fin 256) : Fin 5242880 := ⟨(n.val * 256 + p.val) * 256 + q.val, by omega⟩

/-- An array over the samples, reshaped to the row, reads the sample at its place. -/
theorem cast_flat (x : Smp.Idx → α) (h : Smp.ShapeCasts Flat) (n : Fin 80) (p q : Fin 256) :
    shapeCast Flat x h (ix1 (flatOf n p q)) = x (ix3 n p q) :=
  shapeCast_apply x h _ _ (by
    rw [Shape.rowMajor_val_three, Shape.rowMajor_val_one]
    show (n.val * 256 + p.val) * 256 + q.val = (n.val * 256 + p.val) * 256 + q.val
    rfl)

/-- The result's element `(b, c, n, p, q)` is the row layout's element `(b, c, flatOf n p q)`. -/
theorem cast_out (y : Out3.Idx → α) (h : Out3.ShapeCasts Out5) (b : Fin 2) (c : Fin 3) (n : Fin 80) (p q : Fin 256) :
    shapeCast Out5 y h (ix5 b c n p q) = y (ix3 b c (flatOf n p q)) :=
  shapeCast_apply y h _ _ (by
    rw [Shape.rowMajor_val_three, Shape.rowMajor_val_five]
    show (b.val * 3 + c.val) * 5242880 + ((n.val * 256 + p.val) * 256 + q.val)
      = ((((b.val * 3 + c.val) * 80 + n.val) * 256 + p.val) * 256 + q.val)
    omega)

/-- The six-channel index of the result's element `(b, c, n, p, q)`. -/
def chan (b : Fin 2) (c : Fin 3) : Fin 6 := ⟨3 * b.val + c.val, by omega⟩

theorem pos6_eq_pos5 (b : Fin 2) (c : Fin 3) (n : Fin 80) (p q : Fin 256) :
    (Tap6.rowMajor (ix4 (chan b c) n p q)).val = (Out5.rowMajor (ix5 b c n p q)).val := by
  rw [Shape.rowMajor_val_four, Shape.rowMajor_val_five]
  show (((3 * b.val + c.val) * 80 + n.val) * 256 + p.val) * 256 + q.val
    = ((((b.val * 3 + c.val) * 80 + n.val) * 256 + p.val) * 256 + q.val)
  omega

/-- The reshaped six-channel blend of reshaped taps is the blend over the result's layout. -/
theorem blend6_cast (a b c d : FVec F Out5 .f32) (wx wy : FVec F Smp .f32) (h : Out5.ShapeCasts Tap6) (h' : Tap6.ShapeCasts Out5) :
    shapeCast Out5 (blend6 (shapeCast Tap6 a h) (shapeCast Tap6 b h) (shapeCast Tap6 c h) (shapeCast Tap6 d h) wx wy) h'
      = blend5 a b c d wx wy := by
  funext j
  obtain ⟨b', c', n, p, q, rfl⟩ : ∃ (b' : Fin 2) (c' : Fin 3) (n : Fin 80) (p q : Fin 256), j = ix5 b' c' n p q :=
    ⟨j 0, j 1, j 2, j 3, j 4, eq_ix5 j⟩
  rw [shapeCast_apply _ h' (ix5 b' c' n p q) (ix4 (chan b' c') n p q) (pos6_eq_pos5 b' c' n p q)]
  have ht : ∀ x : FVec F Out5 .f32, shapeCast Tap6 x h (ix4 (chan b' c') n p q) = x (ix5 b' c' n p q) :=
    fun x => shapeCast_apply x h _ _ (pos6_eq_pos5 b' c' n p q).symm
  show blend (shapeCast Tap6 a h (ix4 (chan b' c') n p q)) (shapeCast Tap6 b h (ix4 (chan b' c') n p q))
      (shapeCast Tap6 c h (ix4 (chan b' c') n p q)) (shapeCast Tap6 d h (ix4 (chan b' c') n p q)) (wx (ix3 n p q)) (wy (ix3 n p q))
    = blend (a (ix5 b' c' n p q)) (b (ix5 b' c' n p q)) (c (ix5 b' c' n p q)) (d (ix5 b' c' n p q)) (wx (ix3 n p q)) (wy (ix3 n p q))
  rw [ht a, ht b, ht c, ht d]

end Cert.Resample

end
-- ==== Proof.KValue.lean ====
/-
  The kernel program's result as ONE function of the argument arrays, at the extended reals.

  The region's output array is the six-channel blend of the arrays the region finds (the frame run's blocks, assembled);
  those arrays are the reshaped gathers and the weights (the host operations before the region); the reshape after the
  region undoes the six-channel layout.  So the result is the blend, over [2, 3, 80, 256, 256], of the four gathers of the
  flattened image at the samples' four pixel positions, weighted by the fractional parts of the samples' coordinates.
-/
import proofs.«127784_j58463094833211_2_alg».proof.Proof.KTail
import proofs.«127784_j58463094833211_2_alg».proof.Proof.KernelOut
import proofs.«127784_j58463094833211_2_alg».proof.Proof.KHost
import proofs.«127784_j58463094833211_2_alg».proof.Proof.Layout

set_option pp.maxSteps 5000
set_option pp.deepTerms false

noncomputable section

namespace Cert.KernelIdeal.KValue

open Idealize.ShloMosaic Idealize.ShloMosaic.TcCoe Idealize.ShloMosaic.ValueIdx Idealize.SL.Sem
open Cert.KernelIdeal Cert.KernelIdeal.Gen Cert.Resample

variable (m : (ℓ : Loc nD τ sig) → Buf (Elt Ideal) ℓ) (ρ : Dev nD → PrngReg)

/-- The result as a function of the image and the map. -/
def result (c : Dev nD) : FVec Ideal Out5 .f32 :=
  blend5 (F := Ideal)
    (KTake.take (KHost.imageOf m c) fun s => flat (row0 (KHost.sy (KHost.mapOf m c) s)) (col0 (KHost.sx (KHost.mapOf m c) s)))
    (KTake.take (KHost.imageOf m c) fun s => flat (row0 (KHost.sy (KHost.mapOf m c) s)) (col1 (KHost.sx (KHost.mapOf m c) s)))
    (KTake.take (KHost.imageOf m c) fun s => flat (row1 (KHost.sy (KHost.mapOf m c) s)) (col0 (KHost.sx (KHost.mapOf m c) s)))
    (KTake.take (KHost.imageOf m c) fun s => flat (row1 (KHost.sy (KHost.mapOf m c) s)) (col1 (KHost.sx (KHost.mapOf m c) s)))
    (fun s => frac (KHost.sx (KHost.mapOf m c) s)) (fun s => frac (KHost.sy (KHost.mapOf m c) s))

/-- The reshaped output array is that function. -/
theorem out_eq_result (c : Dev nD) :
    shapeCast S2x3x80x256x256 ((dats (F := Ideal) m 0 c).arrAt 6 cfg0.N) shapeCasts_S6x80x256x256_S2x3x80x256x256 = result m c := by
  have h := KOut.out_eq m c
  rw [KHost.V_v35, KHost.V_v36, KHost.V_v37, KHost.V_v38, KHost.V_v6, KHost.V_v7] at h
  rw [show ((dats (F := Ideal) m 0 c).arrAt 6 cfg0.N) = _ from h]
  exact blend6_cast (F := Ideal) _ _ _ _ _ _ _ _

/-- Every weakly fair execution of the kernel program, at the extended reals, ends with the result buffer at `result` and
    the arguments as launched. -/
theorem run : θ_run (defs (F := Ideal)) (onTc (τ := τ) (main (F := Ideal))) ⟨m, fun _ => 0, ρ⟩ (fun r => ∀ c : Dev nD,
      r.2.mem ((c.tc : Thread nD τ).loc main_v40) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (out_eq_result m c), (h c).2⟩) (KTail.run (F := Ideal) m ρ)

end Cert.KernelIdeal.KValue

end
-- ==== Proof.RefRun.lean ====
/-
  The reference's run, as a straight line.

  The reference computes, for every sample of the flattened grid of 5242880 tangent-image positions: the fractional
  offsets wx, wy of the sample's coordinates; the floor column and the next one, each wrapped across the seam (modulo 4096),
  and the floor row and the next one, each clamped at the poles (to [0, 2047]); the four taps of every channel of the
  image, flattened to 8388608 pixels per channel, at row·4096 + column; and the bilinear blend of the four taps by
  (1 − wx, wx) along the row and (1 − wy, wy) down the column.  Its program calls small functions for the wrapped
  remainder, the clamp and the gather (which themselves call an elementwise select); a call runs the callee's
  operations on the caller's operands and on buffers of the call's own, so the whole program is ONE list of
  operations, each writing a buffer no other operation writes.  That list is given here in three consecutive pieces —
  the index arithmetic, the four gathers, the blend — and the program is shown to be exactly their concatenation run
  in order; every fair execution then ends with each buffer holding the fold of the list over the launch contents.
-/
import proofs.«127784_j58463094833211_2_alg».proof.Proof.Gen.ReferenceIdeal
import Idealize.ShloMosaic.Lib.StableHlo.Run

noncomputable section

namespace Cert.ReferenceIdeal.RefRun

open Idealize.ShloMosaic Idealize.ShloMosaic.StableHlo Idealize.SL.Sem Cert.ReferenceIdeal Cert.ReferenceIdeal.Gen

variable {F : FTy → Type} [FloatOps F]

/-- The index arithmetic, in program order (79 operations): the two coordinate planes of the sample map sliced out and
    flattened; their floors, the fractional offsets wx = sx − ⌊sx⌋ and wy = sy − ⌊sy⌋; the floors as integers; the wrapped
    columns x0, x1 (each remainder call is its callee's twenty-one operations, the scalar select of the divisor — 1 where
    the divisor is 0 — among them); the clamped rows y0, y1 (six operations each); and the image flattened to
    [2, 3, 8388608]. -/
abbrev opsA : List (HloOp τ sig (Elt F)) :=
  [ StableHlo.unary main_arg1 main_v0 ((extractStridedSlice S80x256x256x1 ![0, 0, 0, 0] · slices_S80x256x256x2_S80x256x256x1_0_0_0_0) : (⟨S80x256x256x2, .f32⟩ : BufTy).Contents (Elt F) → (⟨S80x256x256x1, .f32⟩ : BufTy).Contents (Elt F)),
    StableHlo.reshape main_v0 main_v1 rfl shapeCasts_S80x256x256x1_S80x256x256,
    StableHlo.reshape main_v1 main_v2 rfl shapeCasts_S80x256x256_S5242880,
    StableHlo.unary main_arg1 main_v3 ((extractStridedSlice S80x256x256x1 ![0, 0, 0, 1] · slices_S80x256x256x2_S80x256x256x1_0_0_0_1) : (⟨S80x256x256x2, .f32⟩ : BufTy).Contents (Elt F) → (⟨S80x256x256x1, .f32⟩ : BufTy).Contents (Elt F)),
    StableHlo.reshape main_v3 main_v4 rfl shapeCasts_S80x256x256x1_S80x256x256,
    StableHlo.reshape main_v4 main_v5 rfl shapeCasts_S80x256x256_S5242880,
    StableHlo.unary main_v2 main_v6 (Host.floor : (⟨S5242880, .f32⟩ : BufTy).Contents (Elt F) → (⟨S5242880, .f32⟩ : BufTy).Contents (Elt F)),
    StableHlo.unary main_v5 main_v7 (Host.floor : (⟨S5242880, .f32⟩ : BufTy).Contents (Elt F) → (⟨S5242880, .f32⟩ : BufTy).Contents (Elt F)),
    StableHlo.binary main_v2 main_v6 main_v8 (subf : (⟨S5242880, .f32⟩ : BufTy).Contents (Elt F) → (⟨S5242880, .f32⟩ : BufTy).Contents (Elt F) → (⟨S5242880, .f32⟩ : BufTy).Contents (Elt F)),
    StableHlo.binary main_v5 main_v7 main_v9 (subf : (⟨S5242880, .f32⟩ : BufTy).Contents (Elt F) → (⟨S5242880, .f32⟩ : BufTy).Contents (Elt F) → (⟨S5242880, .f32⟩ : BufTy).Contents (Elt F)),
    StableHlo.unary main_v6 main_v10 (fptosi 32 : (⟨S5242880, .f32⟩ : BufTy).Contents (Elt F) → (⟨S5242880, .i32⟩ : BufTy).Contents (Elt F)),
    StableHlo.nullary main_c (constantI S_ 32 4096#32),
    -- the floor column as an integer, reduced modulo 4096 with the sign of the divisor: x0 = r + 4096 where r = rem(·, 4096) is nonzero and negative, else r
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S5242880 ![] bcast_S_S5242880),
    StableHlo.TRef.binary (.of main_v10 : StableHlo.TRef sig ⟨S5242880, .i32⟩) main_call0.v3 main_call0.v4 Host.remsi,
    StableHlo.TRef.nullary main_call0.c_1 (constantI S_ 32 0#32),
    StableHlo.TRef.unary main_call0.c_1 main_call0.v5 (broadcastInDim S5242880 ![] bcast_S_S5242880),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S5242880 ![] bcast_S_S5242880),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S5242880 ![] bcast_S_S5242880),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S5242880 ![] bcast_S_S5242880),
    StableHlo.TRef.binary main_call0.v4 main_call0.v13 main_call0.v14 addi,
    StableHlo.TRef.ternary main_call0.v12 main_call0.v14 main_call0.v4 main_call0.v15 select,
    StableHlo.nullary main_c_0 (constantI S_ 32 1#32),
    StableHlo.unary main_c_0 main_v12 (broadcastInDim S5242880 ![] bcast_S_S5242880 : (⟨S_, .i32⟩ : BufTy).Contents (Elt F) → (⟨S5242880, .i32⟩ : BufTy).Contents (Elt F)),
    StableHlo.binary main_v11 main_v12 main_v13 (addi : (⟨S5242880, .i32⟩ : BufTy).Contents (Elt F) → (⟨S5242880, .i32⟩ : BufTy).Contents (Elt F) → (⟨S5242880, .i32⟩ : BufTy).Contents (Elt F)),
    StableHlo.nullary main_c_1 (constantI S_ 32 4096#32),
    -- the next column, wrapped the same way: x1 = (x0 + 1) mod 4096
    StableHlo.TRef.unary (.of main_c_1 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S5242880 ![] bcast_S_S5242880),
    StableHlo.TRef.binary (.of main_v13 : StableHlo.TRef sig ⟨S5242880, .i32⟩) main_call1.v3 main_call1.v4 Host.remsi,
    StableHlo.TRef.nullary main_call1.c_1 (constantI S_ 32 0#32),
    StableHlo.TRef.unary main_call1.c_1 main_call1.v5 (broadcastInDim S5242880 ![] bcast_S_S5242880),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S5242880 ![] bcast_S_S5242880),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S5242880 ![] bcast_S_S5242880),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S5242880 ![] bcast_S_S5242880),
    StableHlo.TRef.binary main_call1.v4 main_call1.v13 main_call1.v14 addi,
    StableHlo.TRef.ternary main_call1.v12 main_call1.v14 main_call1.v4 main_call1.v15 select,
    StableHlo.unary main_v7 main_v15 (fptosi 32 : (⟨S5242880, .f32⟩ : BufTy).Contents (Elt F) → (⟨S5242880, .i32⟩ : BufTy).Contents (Elt F)),
    StableHlo.nullary main_c_2 (constantI S_ 32 0#32),
    StableHlo.nullary main_c_3 (constantI S_ 32 2047#32),
    -- the floor row clipped to the image: y0 = min(2047, max(0, ·))
    StableHlo.TRef.unary (.of main_c_2 : StableHlo.TRef sig ⟨S_, .i32⟩) main_call2.v0 id,
    StableHlo.TRef.unary main_call2.v0 main_call2.v1 (broadcastInDim S5242880 ![] bcast_S_S5242880),
    StableHlo.TRef.binary main_call2.v1 (.of main_v15 : StableHlo.TRef sig ⟨S5242880, .i32⟩) main_call2.v2 maxsi,
    StableHlo.TRef.unary (.of main_c_3 : StableHlo.TRef sig ⟨S_, .i32⟩) main_call2.v3 id,
    StableHlo.TRef.unary main_call2.v3 main_call2.v4 (broadcastInDim S5242880 ![] bcast_S_S5242880),
    StableHlo.TRef.binary main_call2.v4 main_call2.v2 main_call2.v5 minsi,
    StableHlo.nullary main_c_4 (constantI S_ 32 1#32),
    StableHlo.unary main_c_4 main_v17 (broadcastInDim S5242880 ![] bcast_S_S5242880 : (⟨S_, .i32⟩ : BufTy).Contents (Elt F) → (⟨S5242880, .i32⟩ : BufTy).Contents (Elt F)),
    StableHlo.binary main_v16 main_v17 main_v18 (addi : (⟨S5242880, .i32⟩ : BufTy).Contents (Elt F) → (⟨S5242880, .i32⟩ : BufTy).Contents (Elt F) → (⟨S5242880, .i32⟩ : BufTy).Contents (Elt F)),
    StableHlo.nullary main_c_5 (constantI S_ 32 0#32),
    StableHlo.nullary main_c_6 (constantI S_ 32 2047#32),
    -- the next row, clipped: y1 = min(2047, max(0, y0 + 1))
    StableHlo.TRef.unary (.of main_c_5 : StableHlo.TRef sig ⟨S_, .i32⟩) main_call3.v0 id,
    StableHlo.TRef.unary main_call3.v0 main_call3.v1 (broadcastInDim S5242880 ![] bcast_S_S5242880),
    StableHlo.TRef.binary main_call3.v1 (.of main_v18 : StableHlo.TRef sig ⟨S5242880, .i32⟩) main_call3.v2 maxsi,
    StableHlo.TRef.unary (.of main_c_6 : StableHlo.TRef sig ⟨S_, .i32⟩) main_call3.v3 id,
    StableHlo.TRef.unary main_call3.v3 main_call3.v4 (broadcastInDim S5242880 ![] bcast_S_S5242880),
    StableHlo.TRef.binary main_call3.v4 main_call3.v2 main_call3.v5 minsi,
    StableHlo.reshape main_arg0 main_v20 rfl shapeCasts_S2x3x2048x4096_S2x3x8388608 ]

/-- The four gathers, in program order (108 operations): for each of (y0, x0), (y0, x1), (y1, x0), (y1, x1) the flat
    position row·4096 + column, then the gather call's twenty-three operations — the position raised by 8388608 where it
    is negative (an elementwise select), the bounds test 0 ≤ position ≤ 8388607, the gather along the pixel axis, and
    NaN selected where the test fails. -/
abbrev opsB : List (HloOp τ sig (Elt F)) :=
  [ StableHlo.nullary main_c_7 (constantI S_ 32 4096#32),
    StableHlo.unary main_c_7 main_v21 (broadcastInDim S5242880 ![] bcast_S_S5242880 : (⟨S_, .i32⟩ : BufTy).Contents (Elt F) → (⟨S5242880, .i32⟩ : BufTy).Contents (Elt F)),
    StableHlo.binary main_v16 main_v21 main_v22 (muli : (⟨S5242880, .i32⟩ : BufTy).Contents (Elt F) → (⟨S5242880, .i32⟩ : BufTy).Contents (Elt F) → (⟨S5242880, .i32⟩ : BufTy).Contents (Elt F)),
    StableHlo.binary main_v22 main_v11 main_v23 (addi : (⟨S5242880, .i32⟩ : BufTy).Contents (Elt F) → (⟨S5242880, .i32⟩ : BufTy).Contents (Elt F) → (⟨S5242880, .i32⟩ : BufTy).Contents (Elt F)),
    -- tap v00 = the flattened image at y0·4096 + x0 (an index below 0 is first raised by 8388608; a position outside [0, 8388607] would read NaN)
    StableHlo.TRef.nullary main_call4.c (constantI S_ 32 0#32),
    StableHlo.TRef.unary main_call4.c main_call4.v0 (broadcastInDim S5242880 ![] bcast_S_S5242880),
    StableHlo.TRef.binary (.of main_v23 : StableHlo.TRef sig ⟨S5242880, .i32⟩) main_call4.v0 main_call4.v1 (cmpi .slt),
    StableHlo.TRef.nullary main_call4.c_0 (constantI S_ 32 8388608#32),
    StableHlo.TRef.unary main_call4.c_0 main_call4.v2 (broadcastInDim S5242880 ![] bcast_S_S5242880),
    StableHlo.TRef.binary (.of main_v23 : StableHlo.TRef sig ⟨S5242880, .i32⟩) main_call4.v2 main_call4.v3 addi,
    StableHlo.TRef.ternary main_call4.v1 main_call4.v3 (.of main_v23 : StableHlo.TRef sig ⟨S5242880, .i32⟩) main_call4.call0.v0 select,
    StableHlo.TRef.unary main_call4.call0.v0 main_call4.v5 (broadcastInDim S5242880x1 ![0] bcast_S5242880_S5242880x1_0),
    StableHlo.TRef.nullary main_call4.c_1 (constantI S1 32 8388607#32),
    StableHlo.TRef.nullary main_call4.c_2 (constantI S_ 32 0#32),
    StableHlo.TRef.unary main_call4.c_2 main_call4.v6 (broadcastInDim S5242880x1 ![] bcast_S_S5242880x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S5242880x1 ![0, 1] bcast_S1x1_S5242880x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S5242880x1_S5242880_d1 h_S_),
    StableHlo.TRef.binary (.of main_v20 : StableHlo.TRef sig ⟨S2x3x8388608, .f32⟩) main_call4.v5 main_call4.v13 (fun x i => Host.gather gather_S2x3x8388608_S5242880x1_S2x3x5242880_01_2_n_n_2_1_231 x i),
    StableHlo.TRef.unary main_call4.v12 main_call4.v14 (broadcastInDim S2x3x5242880 ![2] bcast_S5242880_S2x3x5242880_2),
    StableHlo.TRef.nullary main_call4.cst (constant S_ .f32 0x7FC00000#32),
    StableHlo.TRef.unary main_call4.cst main_call4.v15 (broadcastInDim S2x3x5242880 ![] bcast_S_S2x3x5242880),
    StableHlo.TRef.ternary main_call4.v14 main_call4.v13 main_call4.v15 main_call4.v16 select,
    StableHlo.nullary main_c_8 (constantI S_ 32 4096#32),
    StableHlo.unary main_c_8 main_v25 (broadcastInDim S5242880 ![] bcast_S_S5242880 : (⟨S_, .i32⟩ : BufTy).Contents (Elt F) → (⟨S5242880, .i32⟩ : BufTy).Contents (Elt F)),
    StableHlo.binary main_v16 main_v25 main_v26 (muli : (⟨S5242880, .i32⟩ : BufTy).Contents (Elt F) → (⟨S5242880, .i32⟩ : BufTy).Contents (Elt F) → (⟨S5242880, .i32⟩ : BufTy).Contents (Elt F)),
    StableHlo.binary main_v26 main_v14 main_v27 (addi : (⟨S5242880, .i32⟩ : BufTy).Contents (Elt F) → (⟨S5242880, .i32⟩ : BufTy).Contents (Elt F) → (⟨S5242880, .i32⟩ : BufTy).Contents (Elt F)),
    -- tap v01 = the flattened image at y0·4096 + x1
    StableHlo.TRef.nullary main_call5.c (constantI S_ 32 0#32),
    StableHlo.TRef.unary main_call5.c main_call5.v0 (broadcastInDim S5242880 ![] bcast_S_S5242880),
    StableHlo.TRef.binary (.of main_v27 : StableHlo.TRef sig ⟨S5242880, .i32⟩) main_call5.v0 main_call5.v1 (cmpi .slt),
    StableHlo.TRef.nullary main_call5.c_0 (constantI S_ 32 8388608#32),
    StableHlo.TRef.unary main_call5.c_0 main_call5.v2 (broadcastInDim S5242880 ![] bcast_S_S5242880),
    StableHlo.TRef.binary (.of main_v27 : StableHlo.TRef sig ⟨S5242880, .i32⟩) main_call5.v2 main_call5.v3 addi,
    StableHlo.TRef.ternary main_call5.v1 main_call5.v3 (.of main_v27 : StableHlo.TRef sig ⟨S5242880, .i32⟩) main_call5.call0.v0 select,
    StableHlo.TRef.unary main_call5.call0.v0 main_call5.v5 (broadcastInDim S5242880x1 ![0] bcast_S5242880_S5242880x1_0),
    StableHlo.TRef.nullary main_call5.c_1 (constantI S1 32 8388607#32),
    StableHlo.TRef.nullary main_call5.c_2 (constantI S_ 32 0#32),
    StableHlo.TRef.unary main_call5.c_2 main_call5.v6 (broadcastInDim S5242880x1 ![] bcast_S_S5242880x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S5242880x1 ![0, 1] bcast_S1x1_S5242880x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S5242880x1_S5242880_d1 h_S_),
    StableHlo.TRef.binary (.of main_v20 : StableHlo.TRef sig ⟨S2x3x8388608, .f32⟩) main_call5.v5 main_call5.v13 (fun x i => Host.gather gather_S2x3x8388608_S5242880x1_S2x3x5242880_01_2_n_n_2_1_231 x i),
    StableHlo.TRef.unary main_call5.v12 main_call5.v14 (broadcastInDim S2x3x5242880 ![2] bcast_S5242880_S2x3x5242880_2),
    StableHlo.TRef.nullary main_call5.cst (constant S_ .f32 0x7FC00000#32),
    StableHlo.TRef.unary main_call5.cst main_call5.v15 (broadcastInDim S2x3x5242880 ![] bcast_S_S2x3x5242880),
    StableHlo.TRef.ternary main_call5.v14 main_call5.v13 main_call5.v15 main_call5.v16 select,
    StableHlo.nullary main_c_9 (constantI S_ 32 4096#32),
    StableHlo.unary main_c_9 main_v29 (broadcastInDim S5242880 ![] bcast_S_S5242880 : (⟨S_, .i32⟩ : BufTy).Contents (Elt F) → (⟨S5242880, .i32⟩ : BufTy).Contents (Elt F)),
    StableHlo.binary main_v19 main_v29 main_v30 (muli : (⟨S5242880, .i32⟩ : BufTy).Contents (Elt F) → (⟨S5242880, .i32⟩ : BufTy).Contents (Elt F) → (⟨S5242880, .i32⟩ : BufTy).Contents (Elt F)),
    StableHlo.binary main_v30 main_v11 main_v31 (addi : (⟨S5242880, .i32⟩ : BufTy).Contents (Elt F) → (⟨S5242880, .i32⟩ : BufTy).Contents (Elt F) → (⟨S5242880, .i32⟩ : BufTy).Contents (Elt F)),
    -- tap v10 = the flattened image at y1·4096 + x0
    StableHlo.TRef.nullary main_call6.c (constantI S_ 32 0#32),
    StableHlo.TRef.unary main_call6.c main_call6.v0 (broadcastInDim S5242880 ![] bcast_S_S5242880),
    StableHlo.TRef.binary (.of main_v31 : StableHlo.TRef sig ⟨S5242880, .i32⟩) main_call6.v0 main_call6.v1 (cmpi .slt),
    StableHlo.TRef.nullary main_call6.c_0 (constantI S_ 32 8388608#32),
    StableHlo.TRef.unary main_call6.c_0 main_call6.v2 (broadcastInDim S5242880 ![] bcast_S_S5242880),
    StableHlo.TRef.binary (.of main_v31 : StableHlo.TRef sig ⟨S5242880, .i32⟩) main_call6.v2 main_call6.v3 addi,
    StableHlo.TRef.ternary main_call6.v1 main_call6.v3 (.of main_v31 : StableHlo.TRef sig ⟨S5242880, .i32⟩) main_call6.call0.v0 select,
    StableHlo.TRef.unary main_call6.call0.v0 main_call6.v5 (broadcastInDim S5242880x1 ![0] bcast_S5242880_S5242880x1_0),
    StableHlo.TRef.nullary main_call6.c_1 (constantI S1 32 8388607#32),
    StableHlo.TRef.nullary main_call6.c_2 (constantI S_ 32 0#32),
    StableHlo.TRef.unary main_call6.c_2 main_call6.v6 (broadcastInDim S5242880x1 ![] bcast_S_S5242880x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S5242880x1 ![0, 1] bcast_S1x1_S5242880x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S5242880x1_S5242880_d1 h_S_),
    StableHlo.TRef.binary (.of main_v20 : StableHlo.TRef sig ⟨S2x3x8388608, .f32⟩) main_call6.v5 main_call6.v13 (fun x i => Host.gather gather_S2x3x8388608_S5242880x1_S2x3x5242880_01_2_n_n_2_1_231 x i),
    StableHlo.TRef.unary main_call6.v12 main_call6.v14 (broadcastInDim S2x3x5242880 ![2] bcast_S5242880_S2x3x5242880_2),
    StableHlo.TRef.nullary main_call6.cst (constant S_ .f32 0x7FC00000#32),
    StableHlo.TRef.unary main_call6.cst main_call6.v15 (broadcastInDim S2x3x5242880 ![] bcast_S_S2x3x5242880),
    StableHlo.TRef.ternary main_call6.v14 main_call6.v13 main_call6.v15 main_call6.v16 select,
    StableHlo.nullary main_c_10 (constantI S_ 32 4096#32),
    StableHlo.unary main_c_10 main_v33 (broadcastInDim S5242880 ![] bcast_S_S5242880 : (⟨S_, .i32⟩ : BufTy).Contents (Elt F) → (⟨S5242880, .i32⟩ : BufTy).Contents (Elt F)),
    StableHlo.binary main_v19 main_v33 main_v34 (muli : (⟨S5242880, .i32⟩ : BufTy).Contents (Elt F) → (⟨S5242880, .i32⟩ : BufTy).Contents (Elt F) → (⟨S5242880, .i32⟩ : BufTy).Contents (Elt F)),
    StableHlo.binary main_v34 main_v14 main_v35 (addi : (⟨S5242880, .i32⟩ : BufTy).Contents (Elt F) → (⟨S5242880, .i32⟩ : BufTy).Contents (Elt F) → (⟨S5242880, .i32⟩ : BufTy).Contents (Elt F)),
    -- tap v11 = the flattened image at y1·4096 + x1
    StableHlo.TRef.nullary main_call7.c (constantI S_ 32 0#32),
    StableHlo.TRef.unary main_call7.c main_call7.v0 (broadcastInDim S5242880 ![] bcast_S_S5242880),
    StableHlo.TRef.binary (.of main_v35 : StableHlo.TRef sig ⟨S5242880, .i32⟩) main_call7.v0 main_call7.v1 (cmpi .slt),
    StableHlo.TRef.nullary main_call7.c_0 (constantI S_ 32 8388608#32),
    StableHlo.TRef.unary main_call7.c_0 main_call7.v2 (broadcastInDim S5242880 ![] bcast_S_S5242880),
    StableHlo.TRef.binary (.of main_v35 : StableHlo.TRef sig ⟨S5242880, .i32⟩) main_call7.v2 main_call7.v3 addi,
    StableHlo.TRef.ternary main_call7.v1 main_call7.v3 (.of main_v35 : StableHlo.TRef sig ⟨S5242880, .i32⟩) main_call7.call0.v0 select,
    StableHlo.TRef.unary main_call7.call0.v0 main_call7.v5 (broadcastInDim S5242880x1 ![0] bcast_S5242880_S5242880x1_0),
    StableHlo.TRef.nullary main_call7.c_1 (constantI S1 32 8388607#32),
    StableHlo.TRef.nullary main_call7.c_2 (constantI S_ 32 0#32),
    StableHlo.TRef.unary main_call7.c_2 main_call7.v6 (broadcastInDim S5242880x1 ![] bcast_S_S5242880x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S5242880x1 ![0, 1] bcast_S1x1_S5242880x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S5242880x1_S5242880_d1 h_S_),
    StableHlo.TRef.binary (.of main_v20 : StableHlo.TRef sig ⟨S2x3x8388608, .f32⟩) main_call7.v5 main_call7.v13 (fun x i => Host.gather gather_S2x3x8388608_S5242880x1_S2x3x5242880_01_2_n_n_2_1_231 x i),
    StableHlo.TRef.unary main_call7.v12 main_call7.v14 (broadcastInDim S2x3x5242880 ![2] bcast_S5242880_S2x3x5242880_2),
    StableHlo.TRef.nullary main_call7.cst (constant S_ .f32 0x7FC00000#32),
    StableHlo.TRef.unary main_call7.cst main_call7.v15 (broadcastInDim S2x3x5242880 ![] bcast_S_S2x3x5242880),
    StableHlo.TRef.ternary main_call7.v14 main_call7.v13 main_call7.v15 main_call7.v16 select ]

/-- The blend, in program order (31 operations): (v00·(1 − wx) + v01·wx)·(1 − wy) + (v10·(1 − wx) + v11·wx)·wy, the weights
    broadcast from the samples to [2, 3, 5242880], each 1 a constant of its own, and the result reshaped to
    [2, 3, 80, 256, 256]. -/
abbrev opsC : List (HloOp τ sig (Elt F)) :=
  [ StableHlo.nullary main_cst (constant S_ .f32 0x3F800000#32),
    StableHlo.unary main_cst main_v37 (broadcastInDim S5242880 ![] bcast_S_S5242880 : (⟨S_, .f32⟩ : BufTy).Contents (Elt F) → (⟨S5242880, .f32⟩ : BufTy).Contents (Elt F)),
    StableHlo.binary main_v37 main_v8 main_v38 (subf : (⟨S5242880, .f32⟩ : BufTy).Contents (Elt F) → (⟨S5242880, .f32⟩ : BufTy).Contents (Elt F) → (⟨S5242880, .f32⟩ : BufTy).Contents (Elt F)),
    StableHlo.unary main_v38 main_v39 (broadcastInDim S1x1x5242880 ![2] bcast_S5242880_S1x1x5242880_2 : (⟨S5242880, .f32⟩ : BufTy).Contents (Elt F) → (⟨S1x1x5242880, .f32⟩ : BufTy).Contents (Elt F)),
    StableHlo.unary main_v39 main_v40 (broadcastInDim S2x3x5242880 ![0, 1, 2] bcast_S1x1x5242880_S2x3x5242880_0_1_2 : (⟨S1x1x5242880, .f32⟩ : BufTy).Contents (Elt F) → (⟨S2x3x5242880, .f32⟩ : BufTy).Contents (Elt F)),
    StableHlo.binary main_v24 main_v40 main_v41 (mulf : (⟨S2x3x5242880, .f32⟩ : BufTy).Contents (Elt F) → (⟨S2x3x5242880, .f32⟩ : BufTy).Contents (Elt F) → (⟨S2x3x5242880, .f32⟩ : BufTy).Contents (Elt F)),
    StableHlo.unary main_v8 main_v42 (broadcastInDim S1x1x5242880 ![2] bcast_S5242880_S1x1x5242880_2 : (⟨S5242880, .f32⟩ : BufTy).Contents (Elt F) → (⟨S1x1x5242880, .f32⟩ : BufTy).Contents (Elt F)),
    StableHlo.unary main_v42 main_v43 (broadcastInDim S2x3x5242880 ![0, 1, 2] bcast_S1x1x5242880_S2x3x5242880_0_1_2 : (⟨S1x1x5242880, .f32⟩ : BufTy).Contents (Elt F) → (⟨S2x3x5242880, .f32⟩ : BufTy).Contents (Elt F)),
    StableHlo.binary main_v28 main_v43 main_v44 (mulf : (⟨S2x3x5242880, .f32⟩ : BufTy).Contents (Elt F) → (⟨S2x3x5242880, .f32⟩ : BufTy).Contents (Elt F) → (⟨S2x3x5242880, .f32⟩ : BufTy).Contents (Elt F)),
    StableHlo.binary main_v41 main_v44 main_v45 (addf : (⟨S2x3x5242880, .f32⟩ : BufTy).Contents (Elt F) → (⟨S2x3x5242880, .f32⟩ : BufTy).Contents (Elt F) → (⟨S2x3x5242880, .f32⟩ : BufTy).Contents (Elt F)),
    StableHlo.nullary main_cst_11 (constant S_ .f32 0x3F800000#32),
    StableHlo.unary main_cst_11 main_v46 (broadcastInDim S5242880 ![] bcast_S_S5242880 : (⟨S_, .f32⟩ : BufTy).Contents (Elt F) → (⟨S5242880, .f32⟩ : BufTy).Contents (Elt F)),
    StableHlo.binary main_v46 main_v8 main_v47 (subf : (⟨S5242880, .f32⟩ : BufTy).Contents (Elt F) → (⟨S5242880, .f32⟩ : BufTy).Contents (Elt F) → (⟨S5242880, .f32⟩ : BufTy).Contents (Elt F)),
    StableHlo.unary main_v47 main_v48 (broadcastInDim S1x1x5242880 ![2] bcast_S5242880_S1x1x5242880_2 : (⟨S5242880, .f32⟩ : BufTy).Contents (Elt F) → (⟨S1x1x5242880, .f32⟩ : BufTy).Contents (Elt F)),
    StableHlo.unary main_v48 main_v49 (broadcastInDim S2x3x5242880 ![0, 1, 2] bcast_S1x1x5242880_S2x3x5242880_0_1_2 : (⟨S1x1x5242880, .f32⟩ : BufTy).Contents (Elt F) → (⟨S2x3x5242880, .f32⟩ : BufTy).Contents (Elt F)),
    StableHlo.binary main_v32 main_v49 main_v50 (mulf : (⟨S2x3x5242880, .f32⟩ : BufTy).Contents (Elt F) → (⟨S2x3x5242880, .f32⟩ : BufTy).Contents (Elt F) → (⟨S2x3x5242880, .f32⟩ : BufTy).Contents (Elt F)),
    StableHlo.unary main_v8 main_v51 (broadcastInDim S1x1x5242880 ![2] bcast_S5242880_S1x1x5242880_2 : (⟨S5242880, .f32⟩ : BufTy).Contents (Elt F) → (⟨S1x1x5242880, .f32⟩ : BufTy).Contents (Elt F)),
    StableHlo.unary main_v51 main_v52 (broadcastInDim S2x3x5242880 ![0, 1, 2] bcast_S1x1x5242880_S2x3x5242880_0_1_2 : (⟨S1x1x5242880, .f32⟩ : BufTy).Contents (Elt F) → (⟨S2x3x5242880, .f32⟩ : BufTy).Contents (Elt F)),
    StableHlo.binary main_v36 main_v52 main_v53 (mulf : (⟨S2x3x5242880, .f32⟩ : BufTy).Contents (Elt F) → (⟨S2x3x5242880, .f32⟩ : BufTy).Contents (Elt F) → (⟨S2x3x5242880, .f32⟩ : BufTy).Contents (Elt F)),
    StableHlo.binary main_v50 main_v53 main_v54 (addf : (⟨S2x3x5242880, .f32⟩ : BufTy).Contents (Elt F) → (⟨S2x3x5242880, .f32⟩ : BufTy).Contents (Elt F) → (⟨S2x3x5242880, .f32⟩ : BufTy).Contents (Elt F)),
    StableHlo.nullary main_cst_12 (constant S_ .f32 0x3F800000#32),
    StableHlo.unary main_cst_12 main_v55 (broadcastInDim S5242880 ![] bcast_S_S5242880 : (⟨S_, .f32⟩ : BufTy).Contents (Elt F) → (⟨S5242880, .f32⟩ : BufTy).Contents (Elt F)),
    StableHlo.binary main_v55 main_v9 main_v56 (subf : (⟨S5242880, .f32⟩ : BufTy).Contents (Elt F) → (⟨S5242880, .f32⟩ : BufTy).Contents (Elt F) → (⟨S5242880, .f32⟩ : BufTy).Contents (Elt F)),
    StableHlo.unary main_v56 main_v57 (broadcastInDim S1x1x5242880 ![2] bcast_S5242880_S1x1x5242880_2 : (⟨S5242880, .f32⟩ : BufTy).Contents (Elt F) → (⟨S1x1x5242880, .f32⟩ : BufTy).Contents (Elt F)),
    StableHlo.unary main_v57 main_v58 (broadcastInDim S2x3x5242880 ![0, 1, 2] bcast_S1x1x5242880_S2x3x5242880_0_1_2 : (⟨S1x1x5242880, .f32⟩ : BufTy).Contents (Elt F) → (⟨S2x3x5242880, .f32⟩ : BufTy).Contents (Elt F)),
    StableHlo.binary main_v45 main_v58 main_v59 (mulf : (⟨S2x3x5242880, .f32⟩ : BufTy).Contents (Elt F) → (⟨S2x3x5242880, .f32⟩ : BufTy).Contents (Elt F) → (⟨S2x3x5242880, .f32⟩ : BufTy).Contents (Elt F)),
    StableHlo.unary main_v9 main_v60 (broadcastInDim S1x1x5242880 ![2] bcast_S5242880_S1x1x5242880_2 : (⟨S5242880, .f32⟩ : BufTy).Contents (Elt F) → (⟨S1x1x5242880, .f32⟩ : BufTy).Contents (Elt F)),
    StableHlo.unary main_v60 main_v61 (broadcastInDim S2x3x5242880 ![0, 1, 2] bcast_S1x1x5242880_S2x3x5242880_0_1_2 : (⟨S1x1x5242880, .f32⟩ : BufTy).Contents (Elt F) → (⟨S2x3x5242880, .f32⟩ : BufTy).Contents (Elt F)),
    StableHlo.binary main_v54 main_v61 main_v62 (mulf : (⟨S2x3x5242880, .f32⟩ : BufTy).Contents (Elt F) → (⟨S2x3x5242880, .f32⟩ : BufTy).Contents (Elt F) → (⟨S2x3x5242880, .f32⟩ : BufTy).Contents (Elt F)),
    StableHlo.binary main_v59 main_v62 main_v63 (addf : (⟨S2x3x5242880, .f32⟩ : BufTy).Contents (Elt F) → (⟨S2x3x5242880, .f32⟩ : BufTy).Contents (Elt F) → (⟨S2x3x5242880, .f32⟩ : BufTy).Contents (Elt F)),
    StableHlo.reshape main_v63 main_v64 rfl shapeCasts_S2x3x5242880_S2x3x80x256x256 ]

/-! ## The program is the list -/

-- 218 binds re-associated: the rewrite under the chain recurses once per statement
set_option maxRecDepth 100000 in
set_option maxHeartbeats 8000000 in
/-- @main is that straight line: its two windows run in order, each callee's definition unfolded at its call (the call's
    record at its fields) and the three lists concatenated, both sides are one chain of single steps once sequencing is
    re-associated (`bind_assoc`, `pure_bind`) — the same chain, step for step. -/
theorem main_eq (c : Dev nD) : main (F := F) c = seq (opsA ++ opsB ++ opsC) := by
  simp only [main, main_part0, main_part1, fn_remainder.body, fn_where.body, fn_clip.body, fn_take.body, fn_where_0.body,
    opsA, opsB, opsC, List.cons_append, List.nil_append, seq, bind_assoc, pure_bind]

/-! ## Its side conditions: nothing scoped, every buffer a TensorCore reference, every result determined -/

-- the enumeration of the 220 references recurses past the default depth
set_option maxRecDepth 100000 in
theorem scopedRefs_eq : (Finset.univ.filter fun b : Ref sig .tc => b.isScoped) = ∅ := by decide
set_option maxRecDepth 100000 in
theorem scopedSems_eq : (Finset.univ.filter fun sm : SemLoc sig => sm.isScoped .tc) = ∅ := by decide

-- a long literal list: its anonymous constructor nests once per operation
set_option maxRecDepth 8192 in
theorem opsA_sub : (opsA : List (HloOp τ sig (Elt F))).Forall fun op => op.bufs ⊆ tcRefs τ sig :=
  ⟨unary_bufs_sub .., reshape_bufs_sub .., reshape_bufs_sub .., unary_bufs_sub .., reshape_bufs_sub .., reshape_bufs_sub ..,
    unary_bufs_sub .., unary_bufs_sub .., binary_bufs_sub .., binary_bufs_sub .., unary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    reshape_bufs_sub ..⟩
-- a long literal list: its anonymous constructor nests once per operation
set_option maxRecDepth 8192 in
theorem opsB_sub : (opsB : List (HloOp τ sig (Elt F))).Forall fun op => op.bufs ⊆ tcRefs τ sig :=
  ⟨nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩
-- a long literal list: its anonymous constructor nests once per operation
set_option maxRecDepth 8192 in
theorem opsC_sub : (opsC : List (HloOp τ sig (Elt F))).Forall fun op => op.bufs ⊆ tcRefs τ sig :=
  ⟨nullary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    unary_bufs_sub .., binary_bufs_sub .., unary_bufs_sub .., unary_bufs_sub .., binary_bufs_sub .., binary_bufs_sub ..,
    reshape_bufs_sub ..⟩

/-- Membership in the concatenation is membership in one of the three. -/
theorem ops_sub : (opsA ++ opsB ++ opsC : List (HloOp τ sig (Elt F))).Forall fun op => op.bufs ⊆ tcRefs τ sig :=
  List.forall_iff_forall_mem.mpr fun op h => by
    simp only [List.mem_append] at h
    rcases h with (h | h) | h
    exacts [List.forall_iff_forall_mem.mp opsA_sub op h, List.forall_iff_forall_mem.mp opsB_sub op h,
      List.forall_iff_forall_mem.mp opsC_sub op h]

-- a long literal list: its anonymous constructor nests once per operation
set_option maxRecDepth 8192 in
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩
-- a long literal list: its anonymous constructor nests once per operation
set_option maxRecDepth 8192 in
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩
-- a long literal list: its anonymous constructor nests once per operation
set_option maxRecDepth 8192 in
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- No operation leaves a buffer undetermined (none allocates): each builder's set of such buffers is empty. -/
theorem ops_fresh : ∀ op ∈ (opsA ++ opsB ++ opsC : List (HloOp τ sig (Elt F))), op.fresh = ∅ := fun op h => by
  simp only [List.mem_append] at h
  rcases h with (h | h) | h
  exacts [List.forall_iff_forall_mem.mp opsA_fresh op h, List.forall_iff_forall_mem.mp opsB_fresh op h,
    List.forall_iff_forall_mem.mp opsC_fresh op h]

/-! ## The run -/

/-- At the compiled mesh, for any float values, from any memory with zero counters: every weakly fair execution of @main on
    the TensorCores terminates, and every final state has each TensorCore buffer at the operations' fold over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (opsA ++ opsB ++ opsC) (launchContents m c) (Proc.devRef .tc b) :=
  run_seq scopedRefs_eq scopedSems_eq defs main (fun _ => opsA ++ opsB ++ opsC) main_eq (fun _ => ops_sub) m ρ (fun _ => ops_fresh)

end Cert.ReferenceIdeal.RefRun

end
-- ==== Proof.RTake.lean ====
/-
  The reference's array operations after the index arithmetic, composed: `jnp.take` along the flattened image over
  the 5242880 samples in one row (`startsP`, `insideP`, `takeP`: as on the kernel program's host side, at this
  layout), and the blend over [2, 3, 5242880] (`blend3`), in which a per-sample array is first given two leading axes of
  extent one and then broadcast over batch and colour (`up`), and `1` is the float literal `0x3F800000` broadcast
  over the samples (`oneP`).
-/
import proofs.«127784_j58463094833211_2_alg».proof.ReferenceIdeal
import proofs.«127784_j58463094833211_2_alg».proof.Proof.Gen.ReferenceIdeal

noncomputable section

namespace Cert.ReferenceIdeal.RTake

open Idealize.ShloMosaic Cert.ReferenceIdeal Cert.ReferenceIdeal.Gen

variable {F : FTy → Type} [FloatOps F]

/-- The start indices of a gather: a negative position is first moved up by the image's length, then each position is
    given a trailing axis of extent one. -/
def startsP (idx : IVec S5242880 32) : IVec S5242880x1 32 :=
  broadcastInDim S5242880x1 ![0] bcast_S5242880_S5242880x1_0
    (select (cmpi .slt idx (broadcastInDim S5242880 ![] bcast_S_S5242880 (constantI S_ 32 0#32)))
      (addi idx (broadcastInDim S5242880 ![] bcast_S_S5242880 (constantI S_ 32 8388608#32))) idx)

/-- Which samples' start indices lie inside the image: `0 ≤ start ≤ 8388607`, and-ed over the trailing axis. -/
def insideP (st : IVec S5242880x1 32) : IVec S5242880 1 :=
  Host.reduce IntOp.andi
    (andi (cmpi .sge st (broadcastInDim S5242880x1 ![] bcast_S_S5242880x1 (constantI S_ 32 0#32)))
      (cmpi .sle st (broadcastInDim S5242880x1 ![0, 1] bcast_S1x1_S5242880x1_0_1
        (broadcastInDim S1x1 ![1] bcast_S1_S1x1_1 (constantI S1 32 8388607#32)))))
    (constantI S_ 1 1#1) reducesTo_S5242880x1_S5242880_d1 h_S_

/-- Every channel's pixel at each sample's position, and the literal `0x7FC00000` where the position lies outside. -/
def takeP (xf : Vec F S2x3x8388608 .f32) (idx : IVec S5242880 32) : Vec F S2x3x5242880 .f32 :=
  select (broadcastInDim S2x3x5242880 ![2] bcast_S5242880_S2x3x5242880_2 (insideP (startsP idx)))
    (Host.gather gather_S2x3x8388608_S5242880x1_S2x3x5242880_01_2_n_n_2_1_231 xf (startsP idx))
    (broadcastInDim S2x3x5242880 ![] bcast_S_S2x3x5242880 (constant S_ .f32 0x7FC00000#32))

/-- A per-sample array broadcast over batch and colour. -/
def up (w : Vec F S5242880 .f32) : Vec F S2x3x5242880 .f32 :=
  broadcastInDim S2x3x5242880 ![0, 1, 2] bcast_S1x1x5242880_S2x3x5242880_0_1_2
    (broadcastInDim S1x1x5242880 ![2] bcast_S5242880_S1x1x5242880_2 w)

/-- The literal one at every sample. -/
def oneP : Vec F S5242880 .f32 := broadcastInDim S5242880 ![] bcast_S_S5242880 (constant S_ .f32 0x3F800000#32)

/-- The bilinear blend over [2, 3, 5242880], the operations in the reference's order. -/
def blend3 (v00 v01 v10 v11 : Vec F S2x3x5242880 .f32) (wx wy : Vec F S5242880 .f32) : Vec F S2x3x5242880 .f32 :=
  addf
    (mulf (addf (mulf v00 (up (subf oneP wx))) (mulf v01 (up wx))) (up (subf oneP wy)))
    (mulf (addf (mulf v10 (up (subf oneP wx))) (mulf v11 (up wx))) (up wy))

end Cert.ReferenceIdeal.RTake

end
-- ==== Proof.RHost.lean ====
/-
  The reference's result, read off its operations.

  The straight line of the reference's 218 operations is cut into twenty consecutive stretches — the two coordinate
  planes; their floors, fractional parts and cells; each wrapped remainder and each clamp with the few lines before it;
  the flattened image; for each of the four taps its flat position, its gather up to the bounds test, and the gather's
  last four lines; the blend — and for each stretch, from ANY contents `W` of the buffers, the buffers it produces
  are computed as functions of the buffers it reads: a column or a row sample by sample (`pyRem`, `clamp`, `flat` of
  the values at that sample), a gather as `takeP`'s pieces, the blend as `blend3`.  A stretch leaves every buffer it
  does not write as it was.  Chaining the stretches from the launch contents `M` gives each live buffer in closed form,
  and at the end the result buffer: the blend of the four taps of the flattened image at
  row·4096 + column for (row0, col0), (row0, col1), (row1, col0), (row1, col1) of each sample, weighted by the fractional
  parts of the sample's coordinates, reshaped to [2, 3, 80, 256, 256]; the two arguments are unchanged.
-/
import proofs.«127784_j58463094833211_2_alg».proof.Proof.RefRun
import proofs.«127784_j58463094833211_2_alg».proof.Proof.Sample
import proofs.«127784_j58463094833211_2_alg».proof.Proof.RTake
import Idealize.ShloMosaic.Lib.Pipeline.Frame

noncomputable section

namespace Cert.ReferenceIdeal.RHost

open Idealize.ShloMosaic Idealize.ShloMosaic.StableHlo Idealize.SL.Sem Cert.ReferenceIdeal Cert.ReferenceIdeal.Gen Cert.Resample

variable {F : FTy → Type} [FloatOps F]

/-! ## The inputs as the programs read them -/

/-- The samples' first coordinates, on the grid. -/
def sx (a1 : Vec F S80x256x256x2 .f32) : Vec F S80x256x256 .f32 :=
  shapeCast S80x256x256 (extractStridedSlice S80x256x256x1 ![0, 0, 0, 0] a1 slices_S80x256x256x2_S80x256x256x1_0_0_0_0) shapeCasts_S80x256x256x1_S80x256x256
/-- The samples' second coordinates, on the grid. -/
def sy (a1 : Vec F S80x256x256x2 .f32) : Vec F S80x256x256 .f32 :=
  shapeCast S80x256x256 (extractStridedSlice S80x256x256x1 ![0, 0, 0, 1] a1 slices_S80x256x256x2_S80x256x256x1_0_0_0_1) shapeCasts_S80x256x256x1_S80x256x256
/-- The first coordinates with the samples in one row. -/
def sxP (a1 : Vec F S80x256x256x2 .f32) : Vec F S5242880 .f32 := shapeCast S5242880 (sx a1) shapeCasts_S80x256x256_S5242880
/-- The second coordinates with the samples in one row. -/
def syP (a1 : Vec F S80x256x256x2 .f32) : Vec F S5242880 .f32 := shapeCast S5242880 (sy a1) shapeCasts_S80x256x256_S5242880
/-- The image with each channel's pixels in one row. -/
abbrev imageOf (a0 : Vec F S2x3x2048x4096 .f32) : Vec F S2x3x8388608 .f32 := shapeCast S2x3x8388608 a0 shapeCasts_S2x3x2048x4096_S2x3x8388608

/-! ## The stretches -/

/-- The two coordinate planes of the sample map, sliced out and flattened. -/
abbrev a1a : List (HloOp τ sig (Elt F)) :=
  [ StableHlo.unary main_arg1 main_v0 ((extractStridedSlice S80x256x256x1 ![0, 0, 0, 0] · slices_S80x256x256x2_S80x256x256x1_0_0_0_0) : (⟨S80x256x256x2, .f32⟩ : BufTy).Contents (Elt F) → (⟨S80x256x256x1, .f32⟩ : BufTy).Contents (Elt F)),
    StableHlo.reshape main_v0 main_v1 rfl shapeCasts_S80x256x256x1_S80x256x256,
    StableHlo.reshape main_v1 main_v2 rfl shapeCasts_S80x256x256_S5242880,
    StableHlo.unary main_arg1 main_v3 ((extractStridedSlice S80x256x256x1 ![0, 0, 0, 1] · slices_S80x256x256x2_S80x256x256x1_0_0_0_1) : (⟨S80x256x256x2, .f32⟩ : BufTy).Contents (Elt F) → (⟨S80x256x256x1, .f32⟩ : BufTy).Contents (Elt F)),
    StableHlo.reshape main_v3 main_v4 rfl shapeCasts_S80x256x256x1_S80x256x256,
    StableHlo.reshape main_v4 main_v5 rfl shapeCasts_S80x256x256_S5242880 ]
/-- The buffers this stretch writes. -/
abbrev a1a_W : List (Ref sig .tc) := [main_v0, main_v1, main_v2, main_v3, main_v4, main_v5]
theorem a1a_writes : (a1a : List (HloOp τ sig (Elt F))).Forall fun op => op.writes ⊆ (a1a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxHeartbeats 400000 in
theorem a1a_main_v2 (W : Valuation τ sig (Elt F)) :
    after a1a W (Proc.devRef .tc main_v2) = sxP (W (Proc.devRef .tc main_arg1)) := by
  after_results_simp
  rfl
set_option maxHeartbeats 400000 in
theorem a1a_main_v5 (W : Valuation τ sig (Elt F)) :
    after a1a W (Proc.devRef .tc main_v5) = syP (W (Proc.devRef .tc main_arg1)) := by
  after_results_simp
  rfl
/-- The buffers' contents after the first 1 stretch. -/
def V1 (M : Valuation τ sig (Elt F)) : Valuation τ sig (Elt F) := after a1a M
theorem V1_keep (M : Valuation τ sig (Elt F)) (r : Ref sig .tc) (h : r ∉ a1a_W) :
    V1 M (Proc.devRef .tc r) = M (Proc.devRef .tc r) :=
  after_of_writes_sub a1a _ a1a_writes h
theorem V1_main_arg0 (M : Valuation τ sig (Elt F)) : V1 M (Proc.devRef .tc main_arg0) = M (Proc.devRef .tc main_arg0) :=
  V1_keep M main_arg0 (by decide)
theorem V1_main_arg1 (M : Valuation τ sig (Elt F)) : V1 M (Proc.devRef .tc main_arg1) = M (Proc.devRef .tc main_arg1) :=
  V1_keep M main_arg1 (by decide)
theorem V1_main_v2 (M : Valuation τ sig (Elt F)) : V1 M (Proc.devRef .tc main_v2) = sxP (M (Proc.devRef .tc main_arg1)) := by
  show after a1a M (Proc.devRef .tc main_v2) = _
  rw [a1a_main_v2] <;> rfl
theorem V1_main_v5 (M : Valuation τ sig (Elt F)) : V1 M (Proc.devRef .tc main_v5) = syP (M (Proc.devRef .tc main_arg1)) := by
  show after a1a M (Proc.devRef .tc main_v5) = _
  rw [a1a_main_v5] <;> rfl

/-- The floors, the fractional offsets and the column's cell, sample by sample. -/
abbrev a1b : List (HloOp τ sig (Elt F)) :=
  [ StableHlo.unary main_v2 main_v6 (Host.floor : (⟨S5242880, .f32⟩ : BufTy).Contents (Elt F) → (⟨S5242880, .f32⟩ : BufTy).Contents (Elt F)),
    StableHlo.unary main_v5 main_v7 (Host.floor : (⟨S5242880, .f32⟩ : BufTy).Contents (Elt F) → (⟨S5242880, .f32⟩ : BufTy).Contents (Elt F)),
    StableHlo.binary main_v2 main_v6 main_v8 (subf : (⟨S5242880, .f32⟩ : BufTy).Contents (Elt F) → (⟨S5242880, .f32⟩ : BufTy).Contents (Elt F) → (⟨S5242880, .f32⟩ : BufTy).Contents (Elt F)),
    StableHlo.binary main_v5 main_v7 main_v9 (subf : (⟨S5242880, .f32⟩ : BufTy).Contents (Elt F) → (⟨S5242880, .f32⟩ : BufTy).Contents (Elt F) → (⟨S5242880, .f32⟩ : BufTy).Contents (Elt F)),
    StableHlo.unary main_v6 main_v10 (fptosi 32 : (⟨S5242880, .f32⟩ : BufTy).Contents (Elt F) → (⟨S5242880, .i32⟩ : BufTy).Contents (Elt F)) ]
/-- The buffers this stretch writes. -/
abbrev a1b_W : List (Ref sig .tc) := [main_v6, main_v7, main_v8, main_v9, main_v10]
theorem a1b_writes : (a1b : List (HloOp τ sig (Elt F))).Forall fun op => op.writes ⊆ (a1b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxHeartbeats 400000 in
theorem a1b_main_v7 (W : Valuation τ sig (Elt F)) :
    after a1b W (Proc.devRef .tc main_v7) = fun k => FloatOps.hostUnary .floor ((W (Proc.devRef .tc main_v5)) k) := by
  after_results_simp
  rfl
set_option maxHeartbeats 400000 in
theorem a1b_main_v8 (W : Valuation τ sig (Elt F)) :
    after a1b W (Proc.devRef .tc main_v8) = fun k => frac ((W (Proc.devRef .tc main_v2)) k) := by
  after_results_simp
  rfl
set_option maxHeartbeats 400000 in
theorem a1b_main_v9 (W : Valuation τ sig (Elt F)) :
    after a1b W (Proc.devRef .tc main_v9) = fun k => frac ((W (Proc.devRef .tc main_v5)) k) := by
  after_results_simp
  rfl
set_option maxHeartbeats 400000 in
theorem a1b_main_v10 (W : Valuation τ sig (Elt F)) :
    after a1b W (Proc.devRef .tc main_v10) = fun k => cell ((W (Proc.devRef .tc main_v2)) k) := by
  after_results_simp
  rfl
/-- The buffers' contents after the first 2 stretches. -/
def V2 (M : Valuation τ sig (Elt F)) : Valuation τ sig (Elt F) := after a1b (V1 M)
theorem V2_keep (M : Valuation τ sig (Elt F)) (r : Ref sig .tc) (h : r ∉ a1b_W) :
    V2 M (Proc.devRef .tc r) = (V1 M) (Proc.devRef .tc r) :=
  after_of_writes_sub a1b _ a1b_writes h
theorem V2_main_arg0 (M : Valuation τ sig (Elt F)) : V2 M (Proc.devRef .tc main_arg0) = M (Proc.devRef .tc main_arg0) :=
  (V2_keep M main_arg0 (by decide)).trans (V1_main_arg0 M)
theorem V2_main_arg1 (M : Valuation τ sig (Elt F)) : V2 M (Proc.devRef .tc main_arg1) = M (Proc.devRef .tc main_arg1) :=
  (V2_keep M main_arg1 (by decide)).trans (V1_main_arg1 M)
theorem V2_main_v7 (M : Valuation τ sig (Elt F)) : V2 M (Proc.devRef .tc main_v7) = fun k => FloatOps.hostUnary .floor (syP (M (Proc.devRef .tc main_arg1)) k) := by
  show after a1b (V1 M) (Proc.devRef .tc main_v7) = _
  rw [a1b_main_v7, V1_main_v5] <;> rfl
theorem V2_main_v8 (M : Valuation τ sig (Elt F)) : V2 M (Proc.devRef .tc main_v8) = fun k => frac (sxP (M (Proc.devRef .tc main_arg1)) k) := by
  show after a1b (V1 M) (Proc.devRef .tc main_v8) = _
  rw [a1b_main_v8, V1_main_v2] <;> rfl
theorem V2_main_v9 (M : Valuation τ sig (Elt F)) : V2 M (Proc.devRef .tc main_v9) = fun k => frac (syP (M (Proc.devRef .tc main_arg1)) k) := by
  show after a1b (V1 M) (Proc.devRef .tc main_v9) = _
  rw [a1b_main_v9, V1_main_v5] <;> rfl
theorem V2_main_v10 (M : Valuation τ sig (Elt F)) : V2 M (Proc.devRef .tc main_v10) = fun k => cell (sxP (M (Proc.devRef .tc main_arg1)) k) := by
  show after a1b (V1 M) (Proc.devRef .tc main_v10) = _
  rw [a1b_main_v10, V1_main_v2] <;> rfl

/-- The divisor 4096 and the first wrapped remainder: the left column. -/
abbrev a2 : List (HloOp τ sig (Elt F)) :=
  [ StableHlo.nullary main_c (constantI S_ 32 4096#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S5242880 ![] bcast_S_S5242880),
    StableHlo.TRef.binary (.of main_v10 : StableHlo.TRef sig ⟨S5242880, .i32⟩) main_call0.v3 main_call0.v4 Host.remsi,
    StableHlo.TRef.nullary main_call0.c_1 (constantI S_ 32 0#32),
    StableHlo.TRef.unary main_call0.c_1 main_call0.v5 (broadcastInDim S5242880 ![] bcast_S_S5242880),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S5242880 ![] bcast_S_S5242880),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S5242880 ![] bcast_S_S5242880),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S5242880 ![] bcast_S_S5242880),
    StableHlo.TRef.binary main_call0.v4 main_call0.v13 main_call0.v14 addi,
    StableHlo.TRef.ternary main_call0.v12 main_call0.v14 main_call0.v4 main_call0.v15 select ]
/-- The buffers this stretch writes. -/
abbrev a2_W : List (Ref sig .tc) := [main_c, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v11]
theorem a2_writes : (a2 : List (HloOp τ sig (Elt F))).Forall fun op => op.writes ⊆ (a2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxHeartbeats 400000 in
theorem a2_main_v11 (W : Valuation τ sig (Elt F)) :
    after a2 W (Proc.devRef .tc main_v11) = fun k => pyRem ((W (Proc.devRef .tc main_v10)) k) 4096#32 := by
  after_results_simp
  rfl
/-- The buffers' contents after the first 3 stretches. -/
def V3 (M : Valuation τ sig (Elt F)) : Valuation τ sig (Elt F) := after a2 (V2 M)
theorem V3_keep (M : Valuation τ sig (Elt F)) (r : Ref sig .tc) (h : r ∉ a2_W) :
    V3 M (Proc.devRef .tc r) = (V2 M) (Proc.devRef .tc r) :=
  after_of_writes_sub a2 _ a2_writes h
theorem V3_main_arg0 (M : Valuation τ sig (Elt F)) : V3 M (Proc.devRef .tc main_arg0) = M (Proc.devRef .tc main_arg0) :=
  (V3_keep M main_arg0 (by decide)).trans (V2_main_arg0 M)
theorem V3_main_arg1 (M : Valuation τ sig (Elt F)) : V3 M (Proc.devRef .tc main_arg1) = M (Proc.devRef .tc main_arg1) :=
  (V3_keep M main_arg1 (by decide)).trans (V2_main_arg1 M)
theorem V3_main_v7 (M : Valuation τ sig (Elt F)) : V3 M (Proc.devRef .tc main_v7) = fun k => FloatOps.hostUnary .floor (syP (M (Proc.devRef .tc main_arg1)) k) :=
  (V3_keep M main_v7 (by decide)).trans (V2_main_v7 M)
theorem V3_main_v8 (M : Valuation τ sig (Elt F)) : V3 M (Proc.devRef .tc main_v8) = fun k => frac (sxP (M (Proc.devRef .tc main_arg1)) k) :=
  (V3_keep M main_v8 (by decide)).trans (V2_main_v8 M)
theorem V3_main_v9 (M : Valuation τ sig (Elt F)) : V3 M (Proc.devRef .tc main_v9) = fun k => frac (syP (M (Proc.devRef .tc main_arg1)) k) :=
  (V3_keep M main_v9 (by decide)).trans (V2_main_v9 M)
theorem V3_main_v11 (M : Valuation τ sig (Elt F)) : V3 M (Proc.devRef .tc main_v11) = fun k => col0 (sxP (M (Proc.devRef .tc main_arg1)) k) := by
  show after a2 (V2 M) (Proc.devRef .tc main_v11) = _
  rw [a2_main_v11, V2_main_v10] <;> rfl

/-- One more, the divisor again, and the second wrapped remainder: the right column. -/
abbrev a3 : List (HloOp τ sig (Elt F)) :=
  [ StableHlo.nullary main_c_0 (constantI S_ 32 1#32),
    StableHlo.unary main_c_0 main_v12 (broadcastInDim S5242880 ![] bcast_S_S5242880 : (⟨S_, .i32⟩ : BufTy).Contents (Elt F) → (⟨S5242880, .i32⟩ : BufTy).Contents (Elt F)),
    StableHlo.binary main_v11 main_v12 main_v13 (addi : (⟨S5242880, .i32⟩ : BufTy).Contents (Elt F) → (⟨S5242880, .i32⟩ : BufTy).Contents (Elt F) → (⟨S5242880, .i32⟩ : BufTy).Contents (Elt F)),
    StableHlo.nullary main_c_1 (constantI S_ 32 4096#32),
    StableHlo.TRef.unary (.of main_c_1 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S5242880 ![] bcast_S_S5242880),
    StableHlo.TRef.binary (.of main_v13 : StableHlo.TRef sig ⟨S5242880, .i32⟩) main_call1.v3 main_call1.v4 Host.remsi,
    StableHlo.TRef.nullary main_call1.c_1 (constantI S_ 32 0#32),
    StableHlo.TRef.unary main_call1.c_1 main_call1.v5 (broadcastInDim S5242880 ![] bcast_S_S5242880),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S5242880 ![] bcast_S_S5242880),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S5242880 ![] bcast_S_S5242880),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S5242880 ![] bcast_S_S5242880),
    StableHlo.TRef.binary main_call1.v4 main_call1.v13 main_call1.v14 addi,
    StableHlo.TRef.ternary main_call1.v12 main_call1.v14 main_call1.v4 main_call1.v15 select ]
/-- The buffers this stretch writes. -/
abbrev a3_W : List (Ref sig .tc) := [main_c_0, main_v12, main_v13, main_c_1, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v14]
theorem a3_writes : (a3 : List (HloOp τ sig (Elt F))).Forall fun op => op.writes ⊆ (a3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxHeartbeats 400000 in
theorem a3_main_v14 (W : Valuation τ sig (Elt F)) :
    after a3 W (Proc.devRef .tc main_v14) = fun k => pyRem (IntOp.addi ((W (Proc.devRef .tc main_v11)) k) 1#32) 4096#32 := by
  after_results_simp
  rfl
/-- The buffers' contents after the first 4 stretches. -/
def V4 (M : Valuation τ sig (Elt F)) : Valuation τ sig (Elt F) := after a3 (V3 M)
theorem V4_keep (M : Valuation τ sig (Elt F)) (r : Ref sig .tc) (h : r ∉ a3_W) :
    V4 M (Proc.devRef .tc r) = (V3 M) (Proc.devRef .tc r) :=
  after_of_writes_sub a3 _ a3_writes h
theorem V4_main_arg0 (M : Valuation τ sig (Elt F)) : V4 M (Proc.devRef .tc main_arg0) = M (Proc.devRef .tc main_arg0) :=
  (V4_keep M main_arg0 (by decide)).trans (V3_main_arg0 M)
theorem V4_main_arg1 (M : Valuation τ sig (Elt F)) : V4 M (Proc.devRef .tc main_arg1) = M (Proc.devRef .tc main_arg1) :=
  (V4_keep M main_arg1 (by decide)).trans (V3_main_arg1 M)
theorem V4_main_v7 (M : Valuation τ sig (Elt F)) : V4 M (Proc.devRef .tc main_v7) = fun k => FloatOps.hostUnary .floor (syP (M (Proc.devRef .tc main_arg1)) k) :=
  (V4_keep M main_v7 (by decide)).trans (V3_main_v7 M)
theorem V4_main_v8 (M : Valuation τ sig (Elt F)) : V4 M (Proc.devRef .tc main_v8) = fun k => frac (sxP (M (Proc.devRef .tc main_arg1)) k) :=
  (V4_keep M main_v8 (by decide)).trans (V3_main_v8 M)
theorem V4_main_v9 (M : Valuation τ sig (Elt F)) : V4 M (Proc.devRef .tc main_v9) = fun k => frac (syP (M (Proc.devRef .tc main_arg1)) k) :=
  (V4_keep M main_v9 (by decide)).trans (V3_main_v9 M)
theorem V4_main_v11 (M : Valuation τ sig (Elt F)) : V4 M (Proc.devRef .tc main_v11) = fun k => col0 (sxP (M (Proc.devRef .tc main_arg1)) k) :=
  (V4_keep M main_v11 (by decide)).trans (V3_main_v11 M)
theorem V4_main_v14 (M : Valuation τ sig (Elt F)) : V4 M (Proc.devRef .tc main_v14) = fun k => col1 (sxP (M (Proc.devRef .tc main_arg1)) k) := by
  show after a3 (V3 M) (Proc.devRef .tc main_v14) = _
  rw [a3_main_v14, V3_main_v11] <;> rfl

/-- The row's cell and the first clamp: the upper row. -/
abbrev a4 : List (HloOp τ sig (Elt F)) :=
  [ StableHlo.unary main_v7 main_v15 (fptosi 32 : (⟨S5242880, .f32⟩ : BufTy).Contents (Elt F) → (⟨S5242880, .i32⟩ : BufTy).Contents (Elt F)),
    StableHlo.nullary main_c_2 (constantI S_ 32 0#32),
    StableHlo.nullary main_c_3 (constantI S_ 32 2047#32),
    StableHlo.TRef.unary (.of main_c_2 : StableHlo.TRef sig ⟨S_, .i32⟩) main_call2.v0 id,
    StableHlo.TRef.unary main_call2.v0 main_call2.v1 (broadcastInDim S5242880 ![] bcast_S_S5242880),
    StableHlo.TRef.binary main_call2.v1 (.of main_v15 : StableHlo.TRef sig ⟨S5242880, .i32⟩) main_call2.v2 maxsi,
    StableHlo.TRef.unary (.of main_c_3 : StableHlo.TRef sig ⟨S_, .i32⟩) main_call2.v3 id,
    StableHlo.TRef.unary main_call2.v3 main_call2.v4 (broadcastInDim S5242880 ![] bcast_S_S5242880),
    StableHlo.TRef.binary main_call2.v4 main_call2.v2 main_call2.v5 minsi ]
/-- The buffers this stretch writes. -/
abbrev a4_W : List (Ref sig .tc) := [main_v15, main_c_2, main_c_3, main_call2_v0, main_call2_v1, main_call2_v2, main_call2_v3, main_call2_v4, main_v16]
theorem a4_writes : (a4 : List (HloOp τ sig (Elt F))).Forall fun op => op.writes ⊆ (a4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxHeartbeats 400000 in
theorem a4_main_v16 (W : Valuation τ sig (Elt F)) :
    after a4 W (Proc.devRef .tc main_v16) = fun k => clamp (FloatOps.fptosi 32 ((W (Proc.devRef .tc main_v7)) k)) 0#32 2047#32 := by
  after_results_simp
  rfl
/-- The buffers' contents after the first 5 stretches. -/
def V5 (M : Valuation τ sig (Elt F)) : Valuation τ sig (Elt F) := after a4 (V4 M)
theorem V5_keep (M : Valuation τ sig (Elt F)) (r : Ref sig .tc) (h : r ∉ a4_W) :
    V5 M (Proc.devRef .tc r) = (V4 M) (Proc.devRef .tc r) :=
  after_of_writes_sub a4 _ a4_writes h
theorem V5_main_arg0 (M : Valuation τ sig (Elt F)) : V5 M (Proc.devRef .tc main_arg0) = M (Proc.devRef .tc main_arg0) :=
  (V5_keep M main_arg0 (by decide)).trans (V4_main_arg0 M)
theorem V5_main_arg1 (M : Valuation τ sig (Elt F)) : V5 M (Proc.devRef .tc main_arg1) = M (Proc.devRef .tc main_arg1) :=
  (V5_keep M main_arg1 (by decide)).trans (V4_main_arg1 M)
theorem V5_main_v8 (M : Valuation τ sig (Elt F)) : V5 M (Proc.devRef .tc main_v8) = fun k => frac (sxP (M (Proc.devRef .tc main_arg1)) k) :=
  (V5_keep M main_v8 (by decide)).trans (V4_main_v8 M)
theorem V5_main_v9 (M : Valuation τ sig (Elt F)) : V5 M (Proc.devRef .tc main_v9) = fun k => frac (syP (M (Proc.devRef .tc main_arg1)) k) :=
  (V5_keep M main_v9 (by decide)).trans (V4_main_v9 M)
theorem V5_main_v11 (M : Valuation τ sig (Elt F)) : V5 M (Proc.devRef .tc main_v11) = fun k => col0 (sxP (M (Proc.devRef .tc main_arg1)) k) :=
  (V5_keep M main_v11 (by decide)).trans (V4_main_v11 M)
theorem V5_main_v14 (M : Valuation τ sig (Elt F)) : V5 M (Proc.devRef .tc main_v14) = fun k => col1 (sxP (M (Proc.devRef .tc main_arg1)) k) :=
  (V5_keep M main_v14 (by decide)).trans (V4_main_v14 M)
theorem V5_main_v16 (M : Valuation τ sig (Elt F)) : V5 M (Proc.devRef .tc main_v16) = fun k => row0 (syP (M (Proc.devRef .tc main_arg1)) k) := by
  show after a4 (V4 M) (Proc.devRef .tc main_v16) = _
  rw [a4_main_v16, V4_main_v7] <;> rfl

/-- One more and the second clamp: the lower row. -/
abbrev a5 : List (HloOp τ sig (Elt F)) :=
  [ StableHlo.nullary main_c_4 (constantI S_ 32 1#32),
    StableHlo.unary main_c_4 main_v17 (broadcastInDim S5242880 ![] bcast_S_S5242880 : (⟨S_, .i32⟩ : BufTy).Contents (Elt F) → (⟨S5242880, .i32⟩ : BufTy).Contents (Elt F)),
    StableHlo.binary main_v16 main_v17 main_v18 (addi : (⟨S5242880, .i32⟩ : BufTy).Contents (Elt F) → (⟨S5242880, .i32⟩ : BufTy).Contents (Elt F) → (⟨S5242880, .i32⟩ : BufTy).Contents (Elt F)),
    StableHlo.nullary main_c_5 (constantI S_ 32 0#32),
    StableHlo.nullary main_c_6 (constantI S_ 32 2047#32),
    StableHlo.TRef.unary (.of main_c_5 : StableHlo.TRef sig ⟨S_, .i32⟩) main_call3.v0 id,
    StableHlo.TRef.unary main_call3.v0 main_call3.v1 (broadcastInDim S5242880 ![] bcast_S_S5242880),
    StableHlo.TRef.binary main_call3.v1 (.of main_v18 : StableHlo.TRef sig ⟨S5242880, .i32⟩) main_call3.v2 maxsi,
    StableHlo.TRef.unary (.of main_c_6 : StableHlo.TRef sig ⟨S_, .i32⟩) main_call3.v3 id,
    StableHlo.TRef.unary main_call3.v3 main_call3.v4 (broadcastInDim S5242880 ![] bcast_S_S5242880),
    StableHlo.TRef.binary main_call3.v4 main_call3.v2 main_call3.v5 minsi ]
/-- The buffers this stretch writes. -/
abbrev a5_W : List (Ref sig .tc) := [main_c_4, main_v17, main_v18, main_c_5, main_c_6, main_call3_v0, main_call3_v1, main_call3_v2, main_call3_v3, main_call3_v4, main_v19]
theorem a5_writes : (a5 : List (HloOp τ sig (Elt F))).Forall fun op => op.writes ⊆ (a5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxHeartbeats 400000 in
theorem a5_main_v19 (W : Valuation τ sig (Elt F)) :
    after a5 W (Proc.devRef .tc main_v19) = fun k => clamp (IntOp.addi ((W (Proc.devRef .tc main_v16)) k) 1#32) 0#32 2047#32 := by
  after_results_simp
  rfl
/-- The buffers' contents after the first 6 stretches. -/
def V6 (M : Valuation τ sig (Elt F)) : Valuation τ sig (Elt F) := after a5 (V5 M)
theorem V6_keep (M : Valuation τ sig (Elt F)) (r : Ref sig .tc) (h : r ∉ a5_W) :
    V6 M (Proc.devRef .tc r) = (V5 M) (Proc.devRef .tc r) :=
  after_of_writes_sub a5 _ a5_writes h
theorem V6_main_arg0 (M : Valuation τ sig (Elt F)) : V6 M (Proc.devRef .tc main_arg0) = M (Proc.devRef .tc main_arg0) :=
  (V6_keep M main_arg0 (by decide)).trans (V5_main_arg0 M)
theorem V6_main_arg1 (M : Valuation τ sig (Elt F)) : V6 M (Proc.devRef .tc main_arg1) = M (Proc.devRef .tc main_arg1) :=
  (V6_keep M main_arg1 (by decide)).trans (V5_main_arg1 M)
theorem V6_main_v8 (M : Valuation τ sig (Elt F)) : V6 M (Proc.devRef .tc main_v8) = fun k => frac (sxP (M (Proc.devRef .tc main_arg1)) k) :=
  (V6_keep M main_v8 (by decide)).trans (V5_main_v8 M)
theorem V6_main_v9 (M : Valuation τ sig (Elt F)) : V6 M (Proc.devRef .tc main_v9) = fun k => frac (syP (M (Proc.devRef .tc main_arg1)) k) :=
  (V6_keep M main_v9 (by decide)).trans (V5_main_v9 M)
theorem V6_main_v11 (M : Valuation τ sig (Elt F)) : V6 M (Proc.devRef .tc main_v11) = fun k => col0 (sxP (M (Proc.devRef .tc main_arg1)) k) :=
  (V6_keep M main_v11 (by decide)).trans (V5_main_v11 M)
theorem V6_main_v14 (M : Valuation τ sig (Elt F)) : V6 M (Proc.devRef .tc main_v14) = fun k => col1 (sxP (M (Proc.devRef .tc main_arg1)) k) :=
  (V6_keep M main_v14 (by decide)).trans (V5_main_v14 M)
theorem V6_main_v16 (M : Valuation τ sig (Elt F)) : V6 M (Proc.devRef .tc main_v16) = fun k => row0 (syP (M (Proc.devRef .tc main_arg1)) k) :=
  (V6_keep M main_v16 (by decide)).trans (V5_main_v16 M)
theorem V6_main_v19 (M : Valuation τ sig (Elt F)) : V6 M (Proc.devRef .tc main_v19) = fun k => row1 (syP (M (Proc.devRef .tc main_arg1)) k) := by
  show after a5 (V5 M) (Proc.devRef .tc main_v19) = _
  rw [a5_main_v19, V5_main_v16] <;> rfl

/-- The image flattened. -/
abbrev a6 : List (HloOp τ sig (Elt F)) :=
  [ StableHlo.reshape main_arg0 main_v20 rfl shapeCasts_S2x3x2048x4096_S2x3x8388608 ]
/-- The buffers this stretch writes. -/
abbrev a6_W : List (Ref sig .tc) := [main_v20]
theorem a6_writes : (a6 : List (HloOp τ sig (Elt F))).Forall fun op => op.writes ⊆ (a6_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
set_option maxHeartbeats 400000 in
theorem a6_main_v20 (W : Valuation τ sig (Elt F)) :
    after a6 W (Proc.devRef .tc main_v20) = imageOf (W (Proc.devRef .tc main_arg0)) := by
  after_results_simp
  rfl
/-- The buffers' contents after the first 7 stretches. -/
def V7 (M : Valuation τ sig (Elt F)) : Valuation τ sig (Elt F) := after a6 (V6 M)
theorem V7_keep (M : Valuation τ sig (Elt F)) (r : Ref sig .tc) (h : r ∉ a6_W) :
    V7 M (Proc.devRef .tc r) = (V6 M) (Proc.devRef .tc r) :=
  after_of_writes_sub a6 _ a6_writes h
theorem V7_main_arg0 (M : Valuation τ sig (Elt F)) : V7 M (Proc.devRef .tc main_arg0) = M (Proc.devRef .tc main_arg0) :=
  (V7_keep M main_arg0 (by decide)).trans (V6_main_arg0 M)
theorem V7_main_arg1 (M : Valuation τ sig (Elt F)) : V7 M (Proc.devRef .tc main_arg1) = M (Proc.devRef .tc main_arg1) :=
  (V7_keep M main_arg1 (by decide)).trans (V6_main_arg1 M)
theorem V7_main_v8 (M : Valuation τ sig (Elt F)) : V7 M (Proc.devRef .tc main_v8) = fun k => frac (sxP (M (Proc.devRef .tc main_arg1)) k) :=
  (V7_keep M main_v8 (by decide)).trans (V6_main_v8 M)
theorem V7_main_v9 (M : Valuation τ sig (Elt F)) : V7 M (Proc.devRef .tc main_v9) = fun k => frac (syP (M (Proc.devRef .tc main_arg1)) k) :=
  (V7_keep M main_v9 (by decide)).trans (V6_main_v9 M)
theorem V7_main_v11 (M : Valuation τ sig (Elt F)) : V7 M (Proc.devRef .tc main_v11) = fun k => col0 (sxP (M (Proc.devRef .tc main_arg1)) k) :=
  (V7_keep M main_v11 (by decide)).trans (V6_main_v11 M)
theorem V7_main_v14 (M : Valuation τ sig (Elt F)) : V7 M (Proc.devRef .tc main_v14) = fun k => col1 (sxP (M (Proc.devRef .tc main_arg1)) k) :=
  (V7_keep M main_v14 (by decide)).trans (V6_main_v14 M)
theorem V7_main_v16 (M : Valuation τ sig (Elt F)) : V7 M (Proc.devRef .tc main_v16) = fun k => row0 (syP (M (Proc.devRef .tc main_arg1)) k) :=
  (V7_keep M main_v16 (by decide)).trans (V6_main_v16 M)
theorem V7_main_v19 (M : Valuation τ sig (Elt F)) : V7 M (Proc.devRef .tc main_v19) = fun k => row1 (syP (M (Proc.devRef .tc main_arg1)) k) :=
  (V7_keep M main_v19 (by decide)).trans (V6_main_v19 M)
theorem V7_main_v20 (M : Valuation τ sig (Elt F)) : V7 M (Proc.devRef .tc main_v20) = imageOf (M (Proc.devRef .tc main_arg0)) := by
  show after a6 (V6 M) (Proc.devRef .tc main_v20) = _
  rw [a6_main_v20, V6_main_arg0] <;> rfl

/-- The flat position of tap v00: row · 4096 + column. -/
abbrev b1a : List (HloOp τ sig (Elt F)) :=
  [ StableHlo.nullary main_c_7 (constantI S_ 32 4096#32),
    StableHlo.unary main_c_7 main_v21 (broadcastInDim S5242880 ![] bcast_S_S5242880 : (⟨S_, .i32⟩ : BufTy).Contents (Elt F) → (⟨S5242880, .i32⟩ : BufTy).Contents (Elt F)),
    StableHlo.binary main_v16 main_v21 main_v22 (muli : (⟨S5242880, .i32⟩ : BufTy).Contents (Elt F) → (⟨S5242880, .i32⟩ : BufTy).Contents (Elt F) → (⟨S5242880, .i32⟩ : BufTy).Contents (Elt F)),
    StableHlo.binary main_v22 main_v11 main_v23 (addi : (⟨S5242880, .i32⟩ : BufTy).Contents (Elt F) → (⟨S5242880, .i32⟩ : BufTy).Contents (Elt F) → (⟨S5242880, .i32⟩ : BufTy).Contents (Elt F)) ]
/-- The buffers this stretch writes. -/
abbrev b1a_W : List (Ref sig .tc) := [main_c_7, main_v21, main_v22, main_v23]
theorem b1a_writes : (b1a : List (HloOp τ sig (Elt F))).Forall fun op => op.writes ⊆ (b1a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxHeartbeats 400000 in
theorem b1a_main_v23 (W : Valuation τ sig (Elt F)) :
    after b1a W (Proc.devRef .tc main_v23) = fun k => flat ((W (Proc.devRef .tc main_v16)) k) ((W (Proc.devRef .tc main_v11)) k) := by
  after_results_simp
  rfl
/-- The buffers' contents after the first 8 stretches. -/
def V8 (M : Valuation τ sig (Elt F)) : Valuation τ sig (Elt F) := after b1a (V7 M)
theorem V8_keep (M : Valuation τ sig (Elt F)) (r : Ref sig .tc) (h : r ∉ b1a_W) :
    V8 M (Proc.devRef .tc r) = (V7 M) (Proc.devRef .tc r) :=
  after_of_writes_sub b1a _ b1a_writes h
theorem V8_main_arg0 (M : Valuation τ sig (Elt F)) : V8 M (Proc.devRef .tc main_arg0) = M (Proc.devRef .tc main_arg0) :=
  (V8_keep M main_arg0 (by decide)).trans (V7_main_arg0 M)
theorem V8_main_arg1 (M : Valuation τ sig (Elt F)) : V8 M (Proc.devRef .tc main_arg1) = M (Proc.devRef .tc main_arg1) :=
  (V8_keep M main_arg1 (by decide)).trans (V7_main_arg1 M)
theorem V8_main_v8 (M : Valuation τ sig (Elt F)) : V8 M (Proc.devRef .tc main_v8) = fun k => frac (sxP (M (Proc.devRef .tc main_arg1)) k) :=
  (V8_keep M main_v8 (by decide)).trans (V7_main_v8 M)
theorem V8_main_v9 (M : Valuation τ sig (Elt F)) : V8 M (Proc.devRef .tc main_v9) = fun k => frac (syP (M (Proc.devRef .tc main_arg1)) k) :=
  (V8_keep M main_v9 (by decide)).trans (V7_main_v9 M)
theorem V8_main_v11 (M : Valuation τ sig (Elt F)) : V8 M (Proc.devRef .tc main_v11) = fun k => col0 (sxP (M (Proc.devRef .tc main_arg1)) k) :=
  (V8_keep M main_v11 (by decide)).trans (V7_main_v11 M)
theorem V8_main_v14 (M : Valuation τ sig (Elt F)) : V8 M (Proc.devRef .tc main_v14) = fun k => col1 (sxP (M (Proc.devRef .tc main_arg1)) k) :=
  (V8_keep M main_v14 (by decide)).trans (V7_main_v14 M)
theorem V8_main_v16 (M : Valuation τ sig (Elt F)) : V8 M (Proc.devRef .tc main_v16) = fun k => row0 (syP (M (Proc.devRef .tc main_arg1)) k) :=
  (V8_keep M main_v16 (by decide)).trans (V7_main_v16 M)
theorem V8_main_v19 (M : Valuation τ sig (Elt F)) : V8 M (Proc.devRef .tc main_v19) = fun k => row1 (syP (M (Proc.devRef .tc main_arg1)) k) :=
  (V8_keep M main_v19 (by decide)).trans (V7_main_v19 M)
theorem V8_main_v20 (M : Valuation τ sig (Elt F)) : V8 M (Proc.devRef .tc main_v20) = imageOf (M (Proc.devRef .tc main_arg0)) :=
  (V8_keep M main_v20 (by decide)).trans (V7_main_v20 M)
theorem V8_main_v23 (M : Valuation τ sig (Elt F)) : V8 M (Proc.devRef .tc main_v23) = fun k => flat (row0 (syP (M (Proc.devRef .tc main_arg1)) k)) (col0 (sxP (M (Proc.devRef .tc main_arg1)) k)) := by
  show after b1a (V7 M) (Proc.devRef .tc main_v23) = _
  rw [b1a_main_v23, V7_main_v16, V7_main_v11] <;> rfl

/-- Tap v00's gather up to the bounds test and the gathered values. -/
abbrev b1b : List (HloOp τ sig (Elt F)) :=
  [ StableHlo.TRef.nullary main_call4.c (constantI S_ 32 0#32),
    StableHlo.TRef.unary main_call4.c main_call4.v0 (broadcastInDim S5242880 ![] bcast_S_S5242880),
    StableHlo.TRef.binary (.of main_v23 : StableHlo.TRef sig ⟨S5242880, .i32⟩) main_call4.v0 main_call4.v1 (cmpi .slt),
    StableHlo.TRef.nullary main_call4.c_0 (constantI S_ 32 8388608#32),
    StableHlo.TRef.unary main_call4.c_0 main_call4.v2 (broadcastInDim S5242880 ![] bcast_S_S5242880),
    StableHlo.TRef.binary (.of main_v23 : StableHlo.TRef sig ⟨S5242880, .i32⟩) main_call4.v2 main_call4.v3 addi,
    StableHlo.TRef.ternary main_call4.v1 main_call4.v3 (.of main_v23 : StableHlo.TRef sig ⟨S5242880, .i32⟩) main_call4.call0.v0 select,
    StableHlo.TRef.unary main_call4.call0.v0 main_call4.v5 (broadcastInDim S5242880x1 ![0] bcast_S5242880_S5242880x1_0),
    StableHlo.TRef.nullary main_call4.c_1 (constantI S1 32 8388607#32),
    StableHlo.TRef.nullary main_call4.c_2 (constantI S_ 32 0#32),
    StableHlo.TRef.unary main_call4.c_2 main_call4.v6 (broadcastInDim S5242880x1 ![] bcast_S_S5242880x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S5242880x1 ![0, 1] bcast_S1x1_S5242880x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S5242880x1_S5242880_d1 h_S_),
    StableHlo.TRef.binary (.of main_v20 : StableHlo.TRef sig ⟨S2x3x8388608, .f32⟩) main_call4.v5 main_call4.v13 (fun x i => Host.gather gather_S2x3x8388608_S5242880x1_S2x3x5242880_01_2_n_n_2_1_231 x i) ]
/-- The buffers this stretch writes. -/
abbrev b1b_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13]
theorem b1b_writes : (b1b : List (HloOp τ sig (Elt F))).Forall fun op => op.writes ⊆ (b1b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
attribute [local irreducible] Host.reduce Host.gather in
set_option maxHeartbeats 400000 in
theorem b1b_main_call4_v12 (W : Valuation τ sig (Elt F)) :
    after b1b W (Proc.devRef .tc main_call4_v12) = RTake.insideP (RTake.startsP (W (Proc.devRef .tc main_v23))) := by
  after_results_simp
  rfl
attribute [local irreducible] Host.reduce Host.gather in
set_option maxHeartbeats 400000 in
theorem b1b_main_call4_v13 (W : Valuation τ sig (Elt F)) :
    after b1b W (Proc.devRef .tc main_call4_v13) = Host.gather gather_S2x3x8388608_S5242880x1_S2x3x5242880_01_2_n_n_2_1_231 (W (Proc.devRef .tc main_v20)) (RTake.startsP (W (Proc.devRef .tc main_v23))) := by
  after_results_simp
  rfl
/-- The buffers' contents after the first 9 stretches. -/
def V9 (M : Valuation τ sig (Elt F)) : Valuation τ sig (Elt F) := after b1b (V8 M)
theorem V9_keep (M : Valuation τ sig (Elt F)) (r : Ref sig .tc) (h : r ∉ b1b_W) :
    V9 M (Proc.devRef .tc r) = (V8 M) (Proc.devRef .tc r) :=
  after_of_writes_sub b1b _ b1b_writes h
theorem V9_main_arg0 (M : Valuation τ sig (Elt F)) : V9 M (Proc.devRef .tc main_arg0) = M (Proc.devRef .tc main_arg0) :=
  (V9_keep M main_arg0 (by decide)).trans (V8_main_arg0 M)
theorem V9_main_arg1 (M : Valuation τ sig (Elt F)) : V9 M (Proc.devRef .tc main_arg1) = M (Proc.devRef .tc main_arg1) :=
  (V9_keep M main_arg1 (by decide)).trans (V8_main_arg1 M)
theorem V9_main_v8 (M : Valuation τ sig (Elt F)) : V9 M (Proc.devRef .tc main_v8) = fun k => frac (sxP (M (Proc.devRef .tc main_arg1)) k) :=
  (V9_keep M main_v8 (by decide)).trans (V8_main_v8 M)
theorem V9_main_v9 (M : Valuation τ sig (Elt F)) : V9 M (Proc.devRef .tc main_v9) = fun k => frac (syP (M (Proc.devRef .tc main_arg1)) k) :=
  (V9_keep M main_v9 (by decide)).trans (V8_main_v9 M)
theorem V9_main_v11 (M : Valuation τ sig (Elt F)) : V9 M (Proc.devRef .tc main_v11) = fun k => col0 (sxP (M (Proc.devRef .tc main_arg1)) k) :=
  (V9_keep M main_v11 (by decide)).trans (V8_main_v11 M)
theorem V9_main_v14 (M : Valuation τ sig (Elt F)) : V9 M (Proc.devRef .tc main_v14) = fun k => col1 (sxP (M (Proc.devRef .tc main_arg1)) k) :=
  (V9_keep M main_v14 (by decide)).trans (V8_main_v14 M)
theorem V9_main_v16 (M : Valuation τ sig (Elt F)) : V9 M (Proc.devRef .tc main_v16) = fun k => row0 (syP (M (Proc.devRef .tc main_arg1)) k) :=
  (V9_keep M main_v16 (by decide)).trans (V8_main_v16 M)
theorem V9_main_v19 (M : Valuation τ sig (Elt F)) : V9 M (Proc.devRef .tc main_v19) = fun k => row1 (syP (M (Proc.devRef .tc main_arg1)) k) :=
  (V9_keep M main_v19 (by decide)).trans (V8_main_v19 M)
theorem V9_main_v20 (M : Valuation τ sig (Elt F)) : V9 M (Proc.devRef .tc main_v20) = imageOf (M (Proc.devRef .tc main_arg0)) :=
  (V9_keep M main_v20 (by decide)).trans (V8_main_v20 M)
attribute [local irreducible] Host.reduce Host.gather in
theorem V9_main_call4_v12 (M : Valuation τ sig (Elt F)) : V9 M (Proc.devRef .tc main_call4_v12) = RTake.insideP (RTake.startsP (fun k => flat (row0 (syP (M (Proc.devRef .tc main_arg1)) k)) (col0 (sxP (M (Proc.devRef .tc main_arg1)) k)))) := by
  show after b1b (V8 M) (Proc.devRef .tc main_call4_v12) = _
  rw [b1b_main_call4_v12, V8_main_v23] <;> rfl
attribute [local irreducible] Host.reduce Host.gather in
theorem V9_main_call4_v13 (M : Valuation τ sig (Elt F)) : V9 M (Proc.devRef .tc main_call4_v13) = Host.gather gather_S2x3x8388608_S5242880x1_S2x3x5242880_01_2_n_n_2_1_231 (imageOf (M (Proc.devRef .tc main_arg0))) (RTake.startsP (fun k => flat (row0 (syP (M (Proc.devRef .tc main_arg1)) k)) (col0 (sxP (M (Proc.devRef .tc main_arg1)) k)))) := by
  show after b1b (V8 M) (Proc.devRef .tc main_call4_v13) = _
  rw [b1b_main_call4_v13, V8_main_v20, V8_main_v23] <;> rfl

/-- Tap v00's last four lines: the values where the position lies inside, the literal elsewhere. -/
abbrev b1c : List (HloOp τ sig (Elt F)) :=
  [ StableHlo.TRef.unary main_call4.v12 main_call4.v14 (broadcastInDim S2x3x5242880 ![2] bcast_S5242880_S2x3x5242880_2),
    StableHlo.TRef.nullary main_call4.cst (constant S_ .f32 0x7FC00000#32),
    StableHlo.TRef.unary main_call4.cst main_call4.v15 (broadcastInDim S2x3x5242880 ![] bcast_S_S2x3x5242880),
    StableHlo.TRef.ternary main_call4.v14 main_call4.v13 main_call4.v15 main_call4.v16 select ]
/-- The buffers this stretch writes. -/
abbrev b1c_W : List (Ref sig .tc) := [main_call4_v14, main_call4_cst, main_call4_v15, main_v24]
theorem b1c_writes : (b1c : List (HloOp τ sig (Elt F))).Forall fun op => op.writes ⊆ (b1c_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
attribute [local irreducible] Host.reduce Host.gather in
set_option maxHeartbeats 400000 in
theorem b1c_main_v24 (W : Valuation τ sig (Elt F)) :
    after b1c W (Proc.devRef .tc main_v24) = select (broadcastInDim S2x3x5242880 ![2] bcast_S5242880_S2x3x5242880_2 (W (Proc.devRef .tc main_call4_v12) : IVec S5242880 1)) (W (Proc.devRef .tc main_call4_v13) : Vec F S2x3x5242880 .f32) (broadcastInDim S2x3x5242880 ![] bcast_S_S2x3x5242880 (constant S_ .f32 0x7FC00000#32)) := by
  after_results_simp
  rfl
/-- The buffers' contents after the first 10 stretches. -/
def V10 (M : Valuation τ sig (Elt F)) : Valuation τ sig (Elt F) := after b1c (V9 M)
theorem V10_keep (M : Valuation τ sig (Elt F)) (r : Ref sig .tc) (h : r ∉ b1c_W) :
    V10 M (Proc.devRef .tc r) = (V9 M) (Proc.devRef .tc r) :=
  after_of_writes_sub b1c _ b1c_writes h
theorem V10_main_arg0 (M : Valuation τ sig (Elt F)) : V10 M (Proc.devRef .tc main_arg0) = M (Proc.devRef .tc main_arg0) :=
  (V10_keep M main_arg0 (by decide)).trans (V9_main_arg0 M)
theorem V10_main_arg1 (M : Valuation τ sig (Elt F)) : V10 M (Proc.devRef .tc main_arg1) = M (Proc.devRef .tc main_arg1) :=
  (V10_keep M main_arg1 (by decide)).trans (V9_main_arg1 M)
theorem V10_main_v8 (M : Valuation τ sig (Elt F)) : V10 M (Proc.devRef .tc main_v8) = fun k => frac (sxP (M (Proc.devRef .tc main_arg1)) k) :=
  (V10_keep M main_v8 (by decide)).trans (V9_main_v8 M)
theorem V10_main_v9 (M : Valuation τ sig (Elt F)) : V10 M (Proc.devRef .tc main_v9) = fun k => frac (syP (M (Proc.devRef .tc main_arg1)) k) :=
  (V10_keep M main_v9 (by decide)).trans (V9_main_v9 M)
theorem V10_main_v11 (M : Valuation τ sig (Elt F)) : V10 M (Proc.devRef .tc main_v11) = fun k => col0 (sxP (M (Proc.devRef .tc main_arg1)) k) :=
  (V10_keep M main_v11 (by decide)).trans (V9_main_v11 M)
theorem V10_main_v14 (M : Valuation τ sig (Elt F)) : V10 M (Proc.devRef .tc main_v14) = fun k => col1 (sxP (M (Proc.devRef .tc main_arg1)) k) :=
  (V10_keep M main_v14 (by decide)).trans (V9_main_v14 M)
theorem V10_main_v16 (M : Valuation τ sig (Elt F)) : V10 M (Proc.devRef .tc main_v16) = fun k => row0 (syP (M (Proc.devRef .tc main_arg1)) k) :=
  (V10_keep M main_v16 (by decide)).trans (V9_main_v16 M)
theorem V10_main_v19 (M : Valuation τ sig (Elt F)) : V10 M (Proc.devRef .tc main_v19) = fun k => row1 (syP (M (Proc.devRef .tc main_arg1)) k) :=
  (V10_keep M main_v19 (by decide)).trans (V9_main_v19 M)
theorem V10_main_v20 (M : Valuation τ sig (Elt F)) : V10 M (Proc.devRef .tc main_v20) = imageOf (M (Proc.devRef .tc main_arg0)) :=
  (V10_keep M main_v20 (by decide)).trans (V9_main_v20 M)
attribute [local irreducible] Host.reduce Host.gather in
theorem V10_main_v24 (M : Valuation τ sig (Elt F)) : V10 M (Proc.devRef .tc main_v24) = RTake.takeP (imageOf (M (Proc.devRef .tc main_arg0))) (fun k => flat (row0 (syP (M (Proc.devRef .tc main_arg1)) k)) (col0 (sxP (M (Proc.devRef .tc main_arg1)) k))) := by
  show after b1c (V9 M) (Proc.devRef .tc main_v24) = _
  rw [b1c_main_v24, V9_main_call4_v12, V9_main_call4_v13] <;> rfl

/-- The flat position of tap v01: row · 4096 + column. -/
abbrev b2a : List (HloOp τ sig (Elt F)) :=
  [ StableHlo.nullary main_c_8 (constantI S_ 32 4096#32),
    StableHlo.unary main_c_8 main_v25 (broadcastInDim S5242880 ![] bcast_S_S5242880 : (⟨S_, .i32⟩ : BufTy).Contents (Elt F) → (⟨S5242880, .i32⟩ : BufTy).Contents (Elt F)),
    StableHlo.binary main_v16 main_v25 main_v26 (muli : (⟨S5242880, .i32⟩ : BufTy).Contents (Elt F) → (⟨S5242880, .i32⟩ : BufTy).Contents (Elt F) → (⟨S5242880, .i32⟩ : BufTy).Contents (Elt F)),
    StableHlo.binary main_v26 main_v14 main_v27 (addi : (⟨S5242880, .i32⟩ : BufTy).Contents (Elt F) → (⟨S5242880, .i32⟩ : BufTy).Contents (Elt F) → (⟨S5242880, .i32⟩ : BufTy).Contents (Elt F)) ]
/-- The buffers this stretch writes. -/
abbrev b2a_W : List (Ref sig .tc) := [main_c_8, main_v25, main_v26, main_v27]
theorem b2a_writes : (b2a : List (HloOp τ sig (Elt F))).Forall fun op => op.writes ⊆ (b2a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxHeartbeats 400000 in
theorem b2a_main_v27 (W : Valuation τ sig (Elt F)) :
    after b2a W (Proc.devRef .tc main_v27) = fun k => flat ((W (Proc.devRef .tc main_v16)) k) ((W (Proc.devRef .tc main_v14)) k) := by
  after_results_simp
  rfl
/-- The buffers' contents after the first 11 stretches. -/
def V11 (M : Valuation τ sig (Elt F)) : Valuation τ sig (Elt F) := after b2a (V10 M)
theorem V11_keep (M : Valuation τ sig (Elt F)) (r : Ref sig .tc) (h : r ∉ b2a_W) :
    V11 M (Proc.devRef .tc r) = (V10 M) (Proc.devRef .tc r) :=
  after_of_writes_sub b2a _ b2a_writes h
theorem V11_main_arg0 (M : Valuation τ sig (Elt F)) : V11 M (Proc.devRef .tc main_arg0) = M (Proc.devRef .tc main_arg0) :=
  (V11_keep M main_arg0 (by decide)).trans (V10_main_arg0 M)
theorem V11_main_arg1 (M : Valuation τ sig (Elt F)) : V11 M (Proc.devRef .tc main_arg1) = M (Proc.devRef .tc main_arg1) :=
  (V11_keep M main_arg1 (by decide)).trans (V10_main_arg1 M)
theorem V11_main_v8 (M : Valuation τ sig (Elt F)) : V11 M (Proc.devRef .tc main_v8) = fun k => frac (sxP (M (Proc.devRef .tc main_arg1)) k) :=
  (V11_keep M main_v8 (by decide)).trans (V10_main_v8 M)
theorem V11_main_v9 (M : Valuation τ sig (Elt F)) : V11 M (Proc.devRef .tc main_v9) = fun k => frac (syP (M (Proc.devRef .tc main_arg1)) k) :=
  (V11_keep M main_v9 (by decide)).trans (V10_main_v9 M)
theorem V11_main_v11 (M : Valuation τ sig (Elt F)) : V11 M (Proc.devRef .tc main_v11) = fun k => col0 (sxP (M (Proc.devRef .tc main_arg1)) k) :=
  (V11_keep M main_v11 (by decide)).trans (V10_main_v11 M)
theorem V11_main_v14 (M : Valuation τ sig (Elt F)) : V11 M (Proc.devRef .tc main_v14) = fun k => col1 (sxP (M (Proc.devRef .tc main_arg1)) k) :=
  (V11_keep M main_v14 (by decide)).trans (V10_main_v14 M)
theorem V11_main_v19 (M : Valuation τ sig (Elt F)) : V11 M (Proc.devRef .tc main_v19) = fun k => row1 (syP (M (Proc.devRef .tc main_arg1)) k) :=
  (V11_keep M main_v19 (by decide)).trans (V10_main_v19 M)
theorem V11_main_v20 (M : Valuation τ sig (Elt F)) : V11 M (Proc.devRef .tc main_v20) = imageOf (M (Proc.devRef .tc main_arg0)) :=
  (V11_keep M main_v20 (by decide)).trans (V10_main_v20 M)
theorem V11_main_v24 (M : Valuation τ sig (Elt F)) : V11 M (Proc.devRef .tc main_v24) = RTake.takeP (imageOf (M (Proc.devRef .tc main_arg0))) (fun k => flat (row0 (syP (M (Proc.devRef .tc main_arg1)) k)) (col0 (sxP (M (Proc.devRef .tc main_arg1)) k))) :=
  (V11_keep M main_v24 (by decide)).trans (V10_main_v24 M)
theorem V11_main_v27 (M : Valuation τ sig (Elt F)) : V11 M (Proc.devRef .tc main_v27) = fun k => flat (row0 (syP (M (Proc.devRef .tc main_arg1)) k)) (col1 (sxP (M (Proc.devRef .tc main_arg1)) k)) := by
  show after b2a (V10 M) (Proc.devRef .tc main_v27) = _
  rw [b2a_main_v27, V10_main_v16, V10_main_v14] <;> rfl

/-- Tap v01's gather up to the bounds test and the gathered values. -/
abbrev b2b : List (HloOp τ sig (Elt F)) :=
  [ StableHlo.TRef.nullary main_call5.c (constantI S_ 32 0#32),
    StableHlo.TRef.unary main_call5.c main_call5.v0 (broadcastInDim S5242880 ![] bcast_S_S5242880),
    StableHlo.TRef.binary (.of main_v27 : StableHlo.TRef sig ⟨S5242880, .i32⟩) main_call5.v0 main_call5.v1 (cmpi .slt),
    StableHlo.TRef.nullary main_call5.c_0 (constantI S_ 32 8388608#32),
    StableHlo.TRef.unary main_call5.c_0 main_call5.v2 (broadcastInDim S5242880 ![] bcast_S_S5242880),
    StableHlo.TRef.binary (.of main_v27 : StableHlo.TRef sig ⟨S5242880, .i32⟩) main_call5.v2 main_call5.v3 addi,
    StableHlo.TRef.ternary main_call5.v1 main_call5.v3 (.of main_v27 : StableHlo.TRef sig ⟨S5242880, .i32⟩) main_call5.call0.v0 select,
    StableHlo.TRef.unary main_call5.call0.v0 main_call5.v5 (broadcastInDim S5242880x1 ![0] bcast_S5242880_S5242880x1_0),
    StableHlo.TRef.nullary main_call5.c_1 (constantI S1 32 8388607#32),
    StableHlo.TRef.nullary main_call5.c_2 (constantI S_ 32 0#32),
    StableHlo.TRef.unary main_call5.c_2 main_call5.v6 (broadcastInDim S5242880x1 ![] bcast_S_S5242880x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S5242880x1 ![0, 1] bcast_S1x1_S5242880x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S5242880x1_S5242880_d1 h_S_),
    StableHlo.TRef.binary (.of main_v20 : StableHlo.TRef sig ⟨S2x3x8388608, .f32⟩) main_call5.v5 main_call5.v13 (fun x i => Host.gather gather_S2x3x8388608_S5242880x1_S2x3x5242880_01_2_n_n_2_1_231 x i) ]
/-- The buffers this stretch writes. -/
abbrev b2b_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13]
theorem b2b_writes : (b2b : List (HloOp τ sig (Elt F))).Forall fun op => op.writes ⊆ (b2b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
attribute [local irreducible] Host.reduce Host.gather in
set_option maxHeartbeats 400000 in
theorem b2b_main_call5_v12 (W : Valuation τ sig (Elt F)) :
    after b2b W (Proc.devRef .tc main_call5_v12) = RTake.insideP (RTake.startsP (W (Proc.devRef .tc main_v27))) := by
  after_results_simp
  rfl
attribute [local irreducible] Host.reduce Host.gather in
set_option maxHeartbeats 400000 in
theorem b2b_main_call5_v13 (W : Valuation τ sig (Elt F)) :
    after b2b W (Proc.devRef .tc main_call5_v13) = Host.gather gather_S2x3x8388608_S5242880x1_S2x3x5242880_01_2_n_n_2_1_231 (W (Proc.devRef .tc main_v20)) (RTake.startsP (W (Proc.devRef .tc main_v27))) := by
  after_results_simp
  rfl
/-- The buffers' contents after the first 12 stretches. -/
def V12 (M : Valuation τ sig (Elt F)) : Valuation τ sig (Elt F) := after b2b (V11 M)
theorem V12_keep (M : Valuation τ sig (Elt F)) (r : Ref sig .tc) (h : r ∉ b2b_W) :
    V12 M (Proc.devRef .tc r) = (V11 M) (Proc.devRef .tc r) :=
  after_of_writes_sub b2b _ b2b_writes h
theorem V12_main_arg0 (M : Valuation τ sig (Elt F)) : V12 M (Proc.devRef .tc main_arg0) = M (Proc.devRef .tc main_arg0) :=
  (V12_keep M main_arg0 (by decide)).trans (V11_main_arg0 M)
theorem V12_main_arg1 (M : Valuation τ sig (Elt F)) : V12 M (Proc.devRef .tc main_arg1) = M (Proc.devRef .tc main_arg1) :=
  (V12_keep M main_arg1 (by decide)).trans (V11_main_arg1 M)
theorem V12_main_v8 (M : Valuation τ sig (Elt F)) : V12 M (Proc.devRef .tc main_v8) = fun k => frac (sxP (M (Proc.devRef .tc main_arg1)) k) :=
  (V12_keep M main_v8 (by decide)).trans (V11_main_v8 M)
theorem V12_main_v9 (M : Valuation τ sig (Elt F)) : V12 M (Proc.devRef .tc main_v9) = fun k => frac (syP (M (Proc.devRef .tc main_arg1)) k) :=
  (V12_keep M main_v9 (by decide)).trans (V11_main_v9 M)
theorem V12_main_v11 (M : Valuation τ sig (Elt F)) : V12 M (Proc.devRef .tc main_v11) = fun k => col0 (sxP (M (Proc.devRef .tc main_arg1)) k) :=
  (V12_keep M main_v11 (by decide)).trans (V11_main_v11 M)
theorem V12_main_v14 (M : Valuation τ sig (Elt F)) : V12 M (Proc.devRef .tc main_v14) = fun k => col1 (sxP (M (Proc.devRef .tc main_arg1)) k) :=
  (V12_keep M main_v14 (by decide)).trans (V11_main_v14 M)
theorem V12_main_v19 (M : Valuation τ sig (Elt F)) : V12 M (Proc.devRef .tc main_v19) = fun k => row1 (syP (M (Proc.devRef .tc main_arg1)) k) :=
  (V12_keep M main_v19 (by decide)).trans (V11_main_v19 M)
theorem V12_main_v20 (M : Valuation τ sig (Elt F)) : V12 M (Proc.devRef .tc main_v20) = imageOf (M (Proc.devRef .tc main_arg0)) :=
  (V12_keep M main_v20 (by decide)).trans (V11_main_v20 M)
theorem V12_main_v24 (M : Valuation τ sig (Elt F)) : V12 M (Proc.devRef .tc main_v24) = RTake.takeP (imageOf (M (Proc.devRef .tc main_arg0))) (fun k => flat (row0 (syP (M (Proc.devRef .tc main_arg1)) k)) (col0 (sxP (M (Proc.devRef .tc main_arg1)) k))) :=
  (V12_keep M main_v24 (by decide)).trans (V11_main_v24 M)
attribute [local irreducible] Host.reduce Host.gather in
theorem V12_main_call5_v12 (M : Valuation τ sig (Elt F)) : V12 M (Proc.devRef .tc main_call5_v12) = RTake.insideP (RTake.startsP (fun k => flat (row0 (syP (M (Proc.devRef .tc main_arg1)) k)) (col1 (sxP (M (Proc.devRef .tc main_arg1)) k)))) := by
  show after b2b (V11 M) (Proc.devRef .tc main_call5_v12) = _
  rw [b2b_main_call5_v12, V11_main_v27] <;> rfl
attribute [local irreducible] Host.reduce Host.gather in
theorem V12_main_call5_v13 (M : Valuation τ sig (Elt F)) : V12 M (Proc.devRef .tc main_call5_v13) = Host.gather gather_S2x3x8388608_S5242880x1_S2x3x5242880_01_2_n_n_2_1_231 (imageOf (M (Proc.devRef .tc main_arg0))) (RTake.startsP (fun k => flat (row0 (syP (M (Proc.devRef .tc main_arg1)) k)) (col1 (sxP (M (Proc.devRef .tc main_arg1)) k)))) := by
  show after b2b (V11 M) (Proc.devRef .tc main_call5_v13) = _
  rw [b2b_main_call5_v13, V11_main_v20, V11_main_v27] <;> rfl

/-- Tap v01's last four lines: the values where the position lies inside, the literal elsewhere. -/
abbrev b2c : List (HloOp τ sig (Elt F)) :=
  [ StableHlo.TRef.unary main_call5.v12 main_call5.v14 (broadcastInDim S2x3x5242880 ![2] bcast_S5242880_S2x3x5242880_2),
    StableHlo.TRef.nullary main_call5.cst (constant S_ .f32 0x7FC00000#32),
    StableHlo.TRef.unary main_call5.cst main_call5.v15 (broadcastInDim S2x3x5242880 ![] bcast_S_S2x3x5242880),
    StableHlo.TRef.ternary main_call5.v14 main_call5.v13 main_call5.v15 main_call5.v16 select ]
/-- The buffers this stretch writes. -/
abbrev b2c_W : List (Ref sig .tc) := [main_call5_v14, main_call5_cst, main_call5_v15, main_v28]
theorem b2c_writes : (b2c : List (HloOp τ sig (Elt F))).Forall fun op => op.writes ⊆ (b2c_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
attribute [local irreducible] Host.reduce Host.gather in
set_option maxHeartbeats 400000 in
theorem b2c_main_v28 (W : Valuation τ sig (Elt F)) :
    after b2c W (Proc.devRef .tc main_v28) = select (broadcastInDim S2x3x5242880 ![2] bcast_S5242880_S2x3x5242880_2 (W (Proc.devRef .tc main_call5_v12) : IVec S5242880 1)) (W (Proc.devRef .tc main_call5_v13) : Vec F S2x3x5242880 .f32) (broadcastInDim S2x3x5242880 ![] bcast_S_S2x3x5242880 (constant S_ .f32 0x7FC00000#32)) := by
  after_results_simp
  rfl
/-- The buffers' contents after the first 13 stretches. -/
def V13 (M : Valuation τ sig (Elt F)) : Valuation τ sig (Elt F) := after b2c (V12 M)
theorem V13_keep (M : Valuation τ sig (Elt F)) (r : Ref sig .tc) (h : r ∉ b2c_W) :
    V13 M (Proc.devRef .tc r) = (V12 M) (Proc.devRef .tc r) :=
  after_of_writes_sub b2c _ b2c_writes h
theorem V13_main_arg0 (M : Valuation τ sig (Elt F)) : V13 M (Proc.devRef .tc main_arg0) = M (Proc.devRef .tc main_arg0) :=
  (V13_keep M main_arg0 (by decide)).trans (V12_main_arg0 M)
theorem V13_main_arg1 (M : Valuation τ sig (Elt F)) : V13 M (Proc.devRef .tc main_arg1) = M (Proc.devRef .tc main_arg1) :=
  (V13_keep M main_arg1 (by decide)).trans (V12_main_arg1 M)
theorem V13_main_v8 (M : Valuation τ sig (Elt F)) : V13 M (Proc.devRef .tc main_v8) = fun k => frac (sxP (M (Proc.devRef .tc main_arg1)) k) :=
  (V13_keep M main_v8 (by decide)).trans (V12_main_v8 M)
theorem V13_main_v9 (M : Valuation τ sig (Elt F)) : V13 M (Proc.devRef .tc main_v9) = fun k => frac (syP (M (Proc.devRef .tc main_arg1)) k) :=
  (V13_keep M main_v9 (by decide)).trans (V12_main_v9 M)
theorem V13_main_v11 (M : Valuation τ sig (Elt F)) : V13 M (Proc.devRef .tc main_v11) = fun k => col0 (sxP (M (Proc.devRef .tc main_arg1)) k) :=
  (V13_keep M main_v11 (by decide)).trans (V12_main_v11 M)
theorem V13_main_v14 (M : Valuation τ sig (Elt F)) : V13 M (Proc.devRef .tc main_v14) = fun k => col1 (sxP (M (Proc.devRef .tc main_arg1)) k) :=
  (V13_keep M main_v14 (by decide)).trans (V12_main_v14 M)
theorem V13_main_v19 (M : Valuation τ sig (Elt F)) : V13 M (Proc.devRef .tc main_v19) = fun k => row1 (syP (M (Proc.devRef .tc main_arg1)) k) :=
  (V13_keep M main_v19 (by decide)).trans (V12_main_v19 M)
theorem V13_main_v20 (M : Valuation τ sig (Elt F)) : V13 M (Proc.devRef .tc main_v20) = imageOf (M (Proc.devRef .tc main_arg0)) :=
  (V13_keep M main_v20 (by decide)).trans (V12_main_v20 M)
theorem V13_main_v24 (M : Valuation τ sig (Elt F)) : V13 M (Proc.devRef .tc main_v24) = RTake.takeP (imageOf (M (Proc.devRef .tc main_arg0))) (fun k => flat (row0 (syP (M (Proc.devRef .tc main_arg1)) k)) (col0 (sxP (M (Proc.devRef .tc main_arg1)) k))) :=
  (V13_keep M main_v24 (by decide)).trans (V12_main_v24 M)
attribute [local irreducible] Host.reduce Host.gather in
theorem V13_main_v28 (M : Valuation τ sig (Elt F)) : V13 M (Proc.devRef .tc main_v28) = RTake.takeP (imageOf (M (Proc.devRef .tc main_arg0))) (fun k => flat (row0 (syP (M (Proc.devRef .tc main_arg1)) k)) (col1 (sxP (M (Proc.devRef .tc main_arg1)) k))) := by
  show after b2c (V12 M) (Proc.devRef .tc main_v28) = _
  rw [b2c_main_v28, V12_main_call5_v12, V12_main_call5_v13] <;> rfl

/-- The flat position of tap v10: row · 4096 + column. -/
abbrev b3a : List (HloOp τ sig (Elt F)) :=
  [ StableHlo.nullary main_c_9 (constantI S_ 32 4096#32),
    StableHlo.unary main_c_9 main_v29 (broadcastInDim S5242880 ![] bcast_S_S5242880 : (⟨S_, .i32⟩ : BufTy).Contents (Elt F) → (⟨S5242880, .i32⟩ : BufTy).Contents (Elt F)),
    StableHlo.binary main_v19 main_v29 main_v30 (muli : (⟨S5242880, .i32⟩ : BufTy).Contents (Elt F) → (⟨S5242880, .i32⟩ : BufTy).Contents (Elt F) → (⟨S5242880, .i32⟩ : BufTy).Contents (Elt F)),
    StableHlo.binary main_v30 main_v11 main_v31 (addi : (⟨S5242880, .i32⟩ : BufTy).Contents (Elt F) → (⟨S5242880, .i32⟩ : BufTy).Contents (Elt F) → (⟨S5242880, .i32⟩ : BufTy).Contents (Elt F)) ]
/-- The buffers this stretch writes. -/
abbrev b3a_W : List (Ref sig .tc) := [main_c_9, main_v29, main_v30, main_v31]
theorem b3a_writes : (b3a : List (HloOp τ sig (Elt F))).Forall fun op => op.writes ⊆ (b3a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxHeartbeats 400000 in
theorem b3a_main_v31 (W : Valuation τ sig (Elt F)) :
    after b3a W (Proc.devRef .tc main_v31) = fun k => flat ((W (Proc.devRef .tc main_v19)) k) ((W (Proc.devRef .tc main_v11)) k) := by
  after_results_simp
  rfl
/-- The buffers' contents after the first 14 stretches. -/
def V14 (M : Valuation τ sig (Elt F)) : Valuation τ sig (Elt F) := after b3a (V13 M)
theorem V14_keep (M : Valuation τ sig (Elt F)) (r : Ref sig .tc) (h : r ∉ b3a_W) :
    V14 M (Proc.devRef .tc r) = (V13 M) (Proc.devRef .tc r) :=
  after_of_writes_sub b3a _ b3a_writes h
theorem V14_main_arg0 (M : Valuation τ sig (Elt F)) : V14 M (Proc.devRef .tc main_arg0) = M (Proc.devRef .tc main_arg0) :=
  (V14_keep M main_arg0 (by decide)).trans (V13_main_arg0 M)
theorem V14_main_arg1 (M : Valuation τ sig (Elt F)) : V14 M (Proc.devRef .tc main_arg1) = M (Proc.devRef .tc main_arg1) :=
  (V14_keep M main_arg1 (by decide)).trans (V13_main_arg1 M)
theorem V14_main_v8 (M : Valuation τ sig (Elt F)) : V14 M (Proc.devRef .tc main_v8) = fun k => frac (sxP (M (Proc.devRef .tc main_arg1)) k) :=
  (V14_keep M main_v8 (by decide)).trans (V13_main_v8 M)
theorem V14_main_v9 (M : Valuation τ sig (Elt F)) : V14 M (Proc.devRef .tc main_v9) = fun k => frac (syP (M (Proc.devRef .tc main_arg1)) k) :=
  (V14_keep M main_v9 (by decide)).trans (V13_main_v9 M)
theorem V14_main_v14 (M : Valuation τ sig (Elt F)) : V14 M (Proc.devRef .tc main_v14) = fun k => col1 (sxP (M (Proc.devRef .tc main_arg1)) k) :=
  (V14_keep M main_v14 (by decide)).trans (V13_main_v14 M)
theorem V14_main_v19 (M : Valuation τ sig (Elt F)) : V14 M (Proc.devRef .tc main_v19) = fun k => row1 (syP (M (Proc.devRef .tc main_arg1)) k) :=
  (V14_keep M main_v19 (by decide)).trans (V13_main_v19 M)
theorem V14_main_v20 (M : Valuation τ sig (Elt F)) : V14 M (Proc.devRef .tc main_v20) = imageOf (M (Proc.devRef .tc main_arg0)) :=
  (V14_keep M main_v20 (by decide)).trans (V13_main_v20 M)
theorem V14_main_v24 (M : Valuation τ sig (Elt F)) : V14 M (Proc.devRef .tc main_v24) = RTake.takeP (imageOf (M (Proc.devRef .tc main_arg0))) (fun k => flat (row0 (syP (M (Proc.devRef .tc main_arg1)) k)) (col0 (sxP (M (Proc.devRef .tc main_arg1)) k))) :=
  (V14_keep M main_v24 (by decide)).trans (V13_main_v24 M)
theorem V14_main_v28 (M : Valuation τ sig (Elt F)) : V14 M (Proc.devRef .tc main_v28) = RTake.takeP (imageOf (M (Proc.devRef .tc main_arg0))) (fun k => flat (row0 (syP (M (Proc.devRef .tc main_arg1)) k)) (col1 (sxP (M (Proc.devRef .tc main_arg1)) k))) :=
  (V14_keep M main_v28 (by decide)).trans (V13_main_v28 M)
theorem V14_main_v31 (M : Valuation τ sig (Elt F)) : V14 M (Proc.devRef .tc main_v31) = fun k => flat (row1 (syP (M (Proc.devRef .tc main_arg1)) k)) (col0 (sxP (M (Proc.devRef .tc main_arg1)) k)) := by
  show after b3a (V13 M) (Proc.devRef .tc main_v31) = _
  rw [b3a_main_v31, V13_main_v19, V13_main_v11] <;> rfl

/-- Tap v10's gather up to the bounds test and the gathered values. -/
abbrev b3b : List (HloOp τ sig (Elt F)) :=
  [ StableHlo.TRef.nullary main_call6.c (constantI S_ 32 0#32),
    StableHlo.TRef.unary main_call6.c main_call6.v0 (broadcastInDim S5242880 ![] bcast_S_S5242880),
    StableHlo.TRef.binary (.of main_v31 : StableHlo.TRef sig ⟨S5242880, .i32⟩) main_call6.v0 main_call6.v1 (cmpi .slt),
    StableHlo.TRef.nullary main_call6.c_0 (constantI S_ 32 8388608#32),
    StableHlo.TRef.unary main_call6.c_0 main_call6.v2 (broadcastInDim S5242880 ![] bcast_S_S5242880),
    StableHlo.TRef.binary (.of main_v31 : StableHlo.TRef sig ⟨S5242880, .i32⟩) main_call6.v2 main_call6.v3 addi,
    StableHlo.TRef.ternary main_call6.v1 main_call6.v3 (.of main_v31 : StableHlo.TRef sig ⟨S5242880, .i32⟩) main_call6.call0.v0 select,
    StableHlo.TRef.unary main_call6.call0.v0 main_call6.v5 (broadcastInDim S5242880x1 ![0] bcast_S5242880_S5242880x1_0),
    StableHlo.TRef.nullary main_call6.c_1 (constantI S1 32 8388607#32),
    StableHlo.TRef.nullary main_call6.c_2 (constantI S_ 32 0#32),
    StableHlo.TRef.unary main_call6.c_2 main_call6.v6 (broadcastInDim S5242880x1 ![] bcast_S_S5242880x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S5242880x1 ![0, 1] bcast_S1x1_S5242880x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S5242880x1_S5242880_d1 h_S_),
    StableHlo.TRef.binary (.of main_v20 : StableHlo.TRef sig ⟨S2x3x8388608, .f32⟩) main_call6.v5 main_call6.v13 (fun x i => Host.gather gather_S2x3x8388608_S5242880x1_S2x3x5242880_01_2_n_n_2_1_231 x i) ]
/-- The buffers this stretch writes. -/
abbrev b3b_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13]
theorem b3b_writes : (b3b : List (HloOp τ sig (Elt F))).Forall fun op => op.writes ⊆ (b3b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
attribute [local irreducible] Host.reduce Host.gather in
set_option maxHeartbeats 400000 in
theorem b3b_main_call6_v12 (W : Valuation τ sig (Elt F)) :
    after b3b W (Proc.devRef .tc main_call6_v12) = RTake.insideP (RTake.startsP (W (Proc.devRef .tc main_v31))) := by
  after_results_simp
  rfl
attribute [local irreducible] Host.reduce Host.gather in
set_option maxHeartbeats 400000 in
theorem b3b_main_call6_v13 (W : Valuation τ sig (Elt F)) :
    after b3b W (Proc.devRef .tc main_call6_v13) = Host.gather gather_S2x3x8388608_S5242880x1_S2x3x5242880_01_2_n_n_2_1_231 (W (Proc.devRef .tc main_v20)) (RTake.startsP (W (Proc.devRef .tc main_v31))) := by
  after_results_simp
  rfl
/-- The buffers' contents after the first 15 stretches. -/
def V15 (M : Valuation τ sig (Elt F)) : Valuation τ sig (Elt F) := after b3b (V14 M)
theorem V15_keep (M : Valuation τ sig (Elt F)) (r : Ref sig .tc) (h : r ∉ b3b_W) :
    V15 M (Proc.devRef .tc r) = (V14 M) (Proc.devRef .tc r) :=
  after_of_writes_sub b3b _ b3b_writes h
theorem V15_main_arg0 (M : Valuation τ sig (Elt F)) : V15 M (Proc.devRef .tc main_arg0) = M (Proc.devRef .tc main_arg0) :=
  (V15_keep M main_arg0 (by decide)).trans (V14_main_arg0 M)
theorem V15_main_arg1 (M : Valuation τ sig (Elt F)) : V15 M (Proc.devRef .tc main_arg1) = M (Proc.devRef .tc main_arg1) :=
  (V15_keep M main_arg1 (by decide)).trans (V14_main_arg1 M)
theorem V15_main_v8 (M : Valuation τ sig (Elt F)) : V15 M (Proc.devRef .tc main_v8) = fun k => frac (sxP (M (Proc.devRef .tc main_arg1)) k) :=
  (V15_keep M main_v8 (by decide)).trans (V14_main_v8 M)
theorem V15_main_v9 (M : Valuation τ sig (Elt F)) : V15 M (Proc.devRef .tc main_v9) = fun k => frac (syP (M (Proc.devRef .tc main_arg1)) k) :=
  (V15_keep M main_v9 (by decide)).trans (V14_main_v9 M)
theorem V15_main_v14 (M : Valuation τ sig (Elt F)) : V15 M (Proc.devRef .tc main_v14) = fun k => col1 (sxP (M (Proc.devRef .tc main_arg1)) k) :=
  (V15_keep M main_v14 (by decide)).trans (V14_main_v14 M)
theorem V15_main_v19 (M : Valuation τ sig (Elt F)) : V15 M (Proc.devRef .tc main_v19) = fun k => row1 (syP (M (Proc.devRef .tc main_arg1)) k) :=
  (V15_keep M main_v19 (by decide)).trans (V14_main_v19 M)
theorem V15_main_v20 (M : Valuation τ sig (Elt F)) : V15 M (Proc.devRef .tc main_v20) = imageOf (M (Proc.devRef .tc main_arg0)) :=
  (V15_keep M main_v20 (by decide)).trans (V14_main_v20 M)
theorem V15_main_v24 (M : Valuation τ sig (Elt F)) : V15 M (Proc.devRef .tc main_v24) = RTake.takeP (imageOf (M (Proc.devRef .tc main_arg0))) (fun k => flat (row0 (syP (M (Proc.devRef .tc main_arg1)) k)) (col0 (sxP (M (Proc.devRef .tc main_arg1)) k))) :=
  (V15_keep M main_v24 (by decide)).trans (V14_main_v24 M)
theorem V15_main_v28 (M : Valuation τ sig (Elt F)) : V15 M (Proc.devRef .tc main_v28) = RTake.takeP (imageOf (M (Proc.devRef .tc main_arg0))) (fun k => flat (row0 (syP (M (Proc.devRef .tc main_arg1)) k)) (col1 (sxP (M (Proc.devRef .tc main_arg1)) k))) :=
  (V15_keep M main_v28 (by decide)).trans (V14_main_v28 M)
attribute [local irreducible] Host.reduce Host.gather in
theorem V15_main_call6_v12 (M : Valuation τ sig (Elt F)) : V15 M (Proc.devRef .tc main_call6_v12) = RTake.insideP (RTake.startsP (fun k => flat (row1 (syP (M (Proc.devRef .tc main_arg1)) k)) (col0 (sxP (M (Proc.devRef .tc main_arg1)) k)))) := by
  show after b3b (V14 M) (Proc.devRef .tc main_call6_v12) = _
  rw [b3b_main_call6_v12, V14_main_v31] <;> rfl
attribute [local irreducible] Host.reduce Host.gather in
theorem V15_main_call6_v13 (M : Valuation τ sig (Elt F)) : V15 M (Proc.devRef .tc main_call6_v13) = Host.gather gather_S2x3x8388608_S5242880x1_S2x3x5242880_01_2_n_n_2_1_231 (imageOf (M (Proc.devRef .tc main_arg0))) (RTake.startsP (fun k => flat (row1 (syP (M (Proc.devRef .tc main_arg1)) k)) (col0 (sxP (M (Proc.devRef .tc main_arg1)) k)))) := by
  show after b3b (V14 M) (Proc.devRef .tc main_call6_v13) = _
  rw [b3b_main_call6_v13, V14_main_v20, V14_main_v31] <;> rfl

/-- Tap v10's last four lines: the values where the position lies inside, the literal elsewhere. -/
abbrev b3c : List (HloOp τ sig (Elt F)) :=
  [ StableHlo.TRef.unary main_call6.v12 main_call6.v14 (broadcastInDim S2x3x5242880 ![2] bcast_S5242880_S2x3x5242880_2),
    StableHlo.TRef.nullary main_call6.cst (constant S_ .f32 0x7FC00000#32),
    StableHlo.TRef.unary main_call6.cst main_call6.v15 (broadcastInDim S2x3x5242880 ![] bcast_S_S2x3x5242880),
    StableHlo.TRef.ternary main_call6.v14 main_call6.v13 main_call6.v15 main_call6.v16 select ]
/-- The buffers this stretch writes. -/
abbrev b3c_W : List (Ref sig .tc) := [main_call6_v14, main_call6_cst, main_call6_v15, main_v32]
theorem b3c_writes : (b3c : List (HloOp τ sig (Elt F))).Forall fun op => op.writes ⊆ (b3c_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
attribute [local irreducible] Host.reduce Host.gather in
set_option maxHeartbeats 400000 in
theorem b3c_main_v32 (W : Valuation τ sig (Elt F)) :
    after b3c W (Proc.devRef .tc main_v32) = select (broadcastInDim S2x3x5242880 ![2] bcast_S5242880_S2x3x5242880_2 (W (Proc.devRef .tc main_call6_v12) : IVec S5242880 1)) (W (Proc.devRef .tc main_call6_v13) : Vec F S2x3x5242880 .f32) (broadcastInDim S2x3x5242880 ![] bcast_S_S2x3x5242880 (constant S_ .f32 0x7FC00000#32)) := by
  after_results_simp
  rfl
/-- The buffers' contents after the first 16 stretches. -/
def V16 (M : Valuation τ sig (Elt F)) : Valuation τ sig (Elt F) := after b3c (V15 M)
theorem V16_keep (M : Valuation τ sig (Elt F)) (r : Ref sig .tc) (h : r ∉ b3c_W) :
    V16 M (Proc.devRef .tc r) = (V15 M) (Proc.devRef .tc r) :=
  after_of_writes_sub b3c _ b3c_writes h
theorem V16_main_arg0 (M : Valuation τ sig (Elt F)) : V16 M (Proc.devRef .tc main_arg0) = M (Proc.devRef .tc main_arg0) :=
  (V16_keep M main_arg0 (by decide)).trans (V15_main_arg0 M)
theorem V16_main_arg1 (M : Valuation τ sig (Elt F)) : V16 M (Proc.devRef .tc main_arg1) = M (Proc.devRef .tc main_arg1) :=
  (V16_keep M main_arg1 (by decide)).trans (V15_main_arg1 M)
theorem V16_main_v8 (M : Valuation τ sig (Elt F)) : V16 M (Proc.devRef .tc main_v8) = fun k => frac (sxP (M (Proc.devRef .tc main_arg1)) k) :=
  (V16_keep M main_v8 (by decide)).trans (V15_main_v8 M)
theorem V16_main_v9 (M : Valuation τ sig (Elt F)) : V16 M (Proc.devRef .tc main_v9) = fun k => frac (syP (M (Proc.devRef .tc main_arg1)) k) :=
  (V16_keep M main_v9 (by decide)).trans (V15_main_v9 M)
theorem V16_main_v14 (M : Valuation τ sig (Elt F)) : V16 M (Proc.devRef .tc main_v14) = fun k => col1 (sxP (M (Proc.devRef .tc main_arg1)) k) :=
  (V16_keep M main_v14 (by decide)).trans (V15_main_v14 M)
theorem V16_main_v19 (M : Valuation τ sig (Elt F)) : V16 M (Proc.devRef .tc main_v19) = fun k => row1 (syP (M (Proc.devRef .tc main_arg1)) k) :=
  (V16_keep M main_v19 (by decide)).trans (V15_main_v19 M)
theorem V16_main_v20 (M : Valuation τ sig (Elt F)) : V16 M (Proc.devRef .tc main_v20) = imageOf (M (Proc.devRef .tc main_arg0)) :=
  (V16_keep M main_v20 (by decide)).trans (V15_main_v20 M)
theorem V16_main_v24 (M : Valuation τ sig (Elt F)) : V16 M (Proc.devRef .tc main_v24) = RTake.takeP (imageOf (M (Proc.devRef .tc main_arg0))) (fun k => flat (row0 (syP (M (Proc.devRef .tc main_arg1)) k)) (col0 (sxP (M (Proc.devRef .tc main_arg1)) k))) :=
  (V16_keep M main_v24 (by decide)).trans (V15_main_v24 M)
theorem V16_main_v28 (M : Valuation τ sig (Elt F)) : V16 M (Proc.devRef .tc main_v28) = RTake.takeP (imageOf (M (Proc.devRef .tc main_arg0))) (fun k => flat (row0 (syP (M (Proc.devRef .tc main_arg1)) k)) (col1 (sxP (M (Proc.devRef .tc main_arg1)) k))) :=
  (V16_keep M main_v28 (by decide)).trans (V15_main_v28 M)
attribute [local irreducible] Host.reduce Host.gather in
theorem V16_main_v32 (M : Valuation τ sig (Elt F)) : V16 M (Proc.devRef .tc main_v32) = RTake.takeP (imageOf (M (Proc.devRef .tc main_arg0))) (fun k => flat (row1 (syP (M (Proc.devRef .tc main_arg1)) k)) (col0 (sxP (M (Proc.devRef .tc main_arg1)) k))) := by
  show after b3c (V15 M) (Proc.devRef .tc main_v32) = _
  rw [b3c_main_v32, V15_main_call6_v12, V15_main_call6_v13] <;> rfl

/-- The flat position of tap v11: row · 4096 + column. -/
abbrev b4a : List (HloOp τ sig (Elt F)) :=
  [ StableHlo.nullary main_c_10 (constantI S_ 32 4096#32),
    StableHlo.unary main_c_10 main_v33 (broadcastInDim S5242880 ![] bcast_S_S5242880 : (⟨S_, .i32⟩ : BufTy).Contents (Elt F) → (⟨S5242880, .i32⟩ : BufTy).Contents (Elt F)),
    StableHlo.binary main_v19 main_v33 main_v34 (muli : (⟨S5242880, .i32⟩ : BufTy).Contents (Elt F) → (⟨S5242880, .i32⟩ : BufTy).Contents (Elt F) → (⟨S5242880, .i32⟩ : BufTy).Contents (Elt F)),
    StableHlo.binary main_v34 main_v14 main_v35 (addi : (⟨S5242880, .i32⟩ : BufTy).Contents (Elt F) → (⟨S5242880, .i32⟩ : BufTy).Contents (Elt F) → (⟨S5242880, .i32⟩ : BufTy).Contents (Elt F)) ]
/-- The buffers this stretch writes. -/
abbrev b4a_W : List (Ref sig .tc) := [main_c_10, main_v33, main_v34, main_v35]
theorem b4a_writes : (b4a : List (HloOp τ sig (Elt F))).Forall fun op => op.writes ⊆ (b4a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxHeartbeats 400000 in
theorem b4a_main_v35 (W : Valuation τ sig (Elt F)) :
    after b4a W (Proc.devRef .tc main_v35) = fun k => flat ((W (Proc.devRef .tc main_v19)) k) ((W (Proc.devRef .tc main_v14)) k) := by
  after_results_simp
  rfl
/-- The buffers' contents after the first 17 stretches. -/
def V17 (M : Valuation τ sig (Elt F)) : Valuation τ sig (Elt F) := after b4a (V16 M)
theorem V17_keep (M : Valuation τ sig (Elt F)) (r : Ref sig .tc) (h : r ∉ b4a_W) :
    V17 M (Proc.devRef .tc r) = (V16 M) (Proc.devRef .tc r) :=
  after_of_writes_sub b4a _ b4a_writes h
theorem V17_main_arg0 (M : Valuation τ sig (Elt F)) : V17 M (Proc.devRef .tc main_arg0) = M (Proc.devRef .tc main_arg0) :=
  (V17_keep M main_arg0 (by decide)).trans (V16_main_arg0 M)
theorem V17_main_arg1 (M : Valuation τ sig (Elt F)) : V17 M (Proc.devRef .tc main_arg1) = M (Proc.devRef .tc main_arg1) :=
  (V17_keep M main_arg1 (by decide)).trans (V16_main_arg1 M)
theorem V17_main_v8 (M : Valuation τ sig (Elt F)) : V17 M (Proc.devRef .tc main_v8) = fun k => frac (sxP (M (Proc.devRef .tc main_arg1)) k) :=
  (V17_keep M main_v8 (by decide)).trans (V16_main_v8 M)
theorem V17_main_v9 (M : Valuation τ sig (Elt F)) : V17 M (Proc.devRef .tc main_v9) = fun k => frac (syP (M (Proc.devRef .tc main_arg1)) k) :=
  (V17_keep M main_v9 (by decide)).trans (V16_main_v9 M)
theorem V17_main_v20 (M : Valuation τ sig (Elt F)) : V17 M (Proc.devRef .tc main_v20) = imageOf (M (Proc.devRef .tc main_arg0)) :=
  (V17_keep M main_v20 (by decide)).trans (V16_main_v20 M)
theorem V17_main_v24 (M : Valuation τ sig (Elt F)) : V17 M (Proc.devRef .tc main_v24) = RTake.takeP (imageOf (M (Proc.devRef .tc main_arg0))) (fun k => flat (row0 (syP (M (Proc.devRef .tc main_arg1)) k)) (col0 (sxP (M (Proc.devRef .tc main_arg1)) k))) :=
  (V17_keep M main_v24 (by decide)).trans (V16_main_v24 M)
theorem V17_main_v28 (M : Valuation τ sig (Elt F)) : V17 M (Proc.devRef .tc main_v28) = RTake.takeP (imageOf (M (Proc.devRef .tc main_arg0))) (fun k => flat (row0 (syP (M (Proc.devRef .tc main_arg1)) k)) (col1 (sxP (M (Proc.devRef .tc main_arg1)) k))) :=
  (V17_keep M main_v28 (by decide)).trans (V16_main_v28 M)
theorem V17_main_v32 (M : Valuation τ sig (Elt F)) : V17 M (Proc.devRef .tc main_v32) = RTake.takeP (imageOf (M (Proc.devRef .tc main_arg0))) (fun k => flat (row1 (syP (M (Proc.devRef .tc main_arg1)) k)) (col0 (sxP (M (Proc.devRef .tc main_arg1)) k))) :=
  (V17_keep M main_v32 (by decide)).trans (V16_main_v32 M)
theorem V17_main_v35 (M : Valuation τ sig (Elt F)) : V17 M (Proc.devRef .tc main_v35) = fun k => flat (row1 (syP (M (Proc.devRef .tc main_arg1)) k)) (col1 (sxP (M (Proc.devRef .tc main_arg1)) k)) := by
  show after b4a (V16 M) (Proc.devRef .tc main_v35) = _
  rw [b4a_main_v35, V16_main_v19, V16_main_v14] <;> rfl

/-- Tap v11's gather up to the bounds test and the gathered values. -/
abbrev b4b : List (HloOp τ sig (Elt F)) :=
  [ StableHlo.TRef.nullary main_call7.c (constantI S_ 32 0#32),
    StableHlo.TRef.unary main_call7.c main_call7.v0 (broadcastInDim S5242880 ![] bcast_S_S5242880),
    StableHlo.TRef.binary (.of main_v35 : StableHlo.TRef sig ⟨S5242880, .i32⟩) main_call7.v0 main_call7.v1 (cmpi .slt),
    StableHlo.TRef.nullary main_call7.c_0 (constantI S_ 32 8388608#32),
    StableHlo.TRef.unary main_call7.c_0 main_call7.v2 (broadcastInDim S5242880 ![] bcast_S_S5242880),
    StableHlo.TRef.binary (.of main_v35 : StableHlo.TRef sig ⟨S5242880, .i32⟩) main_call7.v2 main_call7.v3 addi,
    StableHlo.TRef.ternary main_call7.v1 main_call7.v3 (.of main_v35 : StableHlo.TRef sig ⟨S5242880, .i32⟩) main_call7.call0.v0 select,
    StableHlo.TRef.unary main_call7.call0.v0 main_call7.v5 (broadcastInDim S5242880x1 ![0] bcast_S5242880_S5242880x1_0),
    StableHlo.TRef.nullary main_call7.c_1 (constantI S1 32 8388607#32),
    StableHlo.TRef.nullary main_call7.c_2 (constantI S_ 32 0#32),
    StableHlo.TRef.unary main_call7.c_2 main_call7.v6 (broadcastInDim S5242880x1 ![] bcast_S_S5242880x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S5242880x1 ![0, 1] bcast_S1x1_S5242880x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S5242880x1_S5242880_d1 h_S_),
    StableHlo.TRef.binary (.of main_v20 : StableHlo.TRef sig ⟨S2x3x8388608, .f32⟩) main_call7.v5 main_call7.v13 (fun x i => Host.gather gather_S2x3x8388608_S5242880x1_S2x3x5242880_01_2_n_n_2_1_231 x i) ]
/-- The buffers this stretch writes. -/
abbrev b4b_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13]
theorem b4b_writes : (b4b : List (HloOp τ sig (Elt F))).Forall fun op => op.writes ⊆ (b4b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
attribute [local irreducible] Host.reduce Host.gather in
set_option maxHeartbeats 400000 in
theorem b4b_main_call7_v12 (W : Valuation τ sig (Elt F)) :
    after b4b W (Proc.devRef .tc main_call7_v12) = RTake.insideP (RTake.startsP (W (Proc.devRef .tc main_v35))) := by
  after_results_simp
  rfl
attribute [local irreducible] Host.reduce Host.gather in
set_option maxHeartbeats 400000 in
theorem b4b_main_call7_v13 (W : Valuation τ sig (Elt F)) :
    after b4b W (Proc.devRef .tc main_call7_v13) = Host.gather gather_S2x3x8388608_S5242880x1_S2x3x5242880_01_2_n_n_2_1_231 (W (Proc.devRef .tc main_v20)) (RTake.startsP (W (Proc.devRef .tc main_v35))) := by
  after_results_simp
  rfl
/-- The buffers' contents after the first 18 stretches. -/
def V18 (M : Valuation τ sig (Elt F)) : Valuation τ sig (Elt F) := after b4b (V17 M)
theorem V18_keep (M : Valuation τ sig (Elt F)) (r : Ref sig .tc) (h : r ∉ b4b_W) :
    V18 M (Proc.devRef .tc r) = (V17 M) (Proc.devRef .tc r) :=
  after_of_writes_sub b4b _ b4b_writes h
theorem V18_main_arg0 (M : Valuation τ sig (Elt F)) : V18 M (Proc.devRef .tc main_arg0) = M (Proc.devRef .tc main_arg0) :=
  (V18_keep M main_arg0 (by decide)).trans (V17_main_arg0 M)
theorem V18_main_arg1 (M : Valuation τ sig (Elt F)) : V18 M (Proc.devRef .tc main_arg1) = M (Proc.devRef .tc main_arg1) :=
  (V18_keep M main_arg1 (by decide)).trans (V17_main_arg1 M)
theorem V18_main_v8 (M : Valuation τ sig (Elt F)) : V18 M (Proc.devRef .tc main_v8) = fun k => frac (sxP (M (Proc.devRef .tc main_arg1)) k) :=
  (V18_keep M main_v8 (by decide)).trans (V17_main_v8 M)
theorem V18_main_v9 (M : Valuation τ sig (Elt F)) : V18 M (Proc.devRef .tc main_v9) = fun k => frac (syP (M (Proc.devRef .tc main_arg1)) k) :=
  (V18_keep M main_v9 (by decide)).trans (V17_main_v9 M)
theorem V18_main_v24 (M : Valuation τ sig (Elt F)) : V18 M (Proc.devRef .tc main_v24) = RTake.takeP (imageOf (M (Proc.devRef .tc main_arg0))) (fun k => flat (row0 (syP (M (Proc.devRef .tc main_arg1)) k)) (col0 (sxP (M (Proc.devRef .tc main_arg1)) k))) :=
  (V18_keep M main_v24 (by decide)).trans (V17_main_v24 M)
theorem V18_main_v28 (M : Valuation τ sig (Elt F)) : V18 M (Proc.devRef .tc main_v28) = RTake.takeP (imageOf (M (Proc.devRef .tc main_arg0))) (fun k => flat (row0 (syP (M (Proc.devRef .tc main_arg1)) k)) (col1 (sxP (M (Proc.devRef .tc main_arg1)) k))) :=
  (V18_keep M main_v28 (by decide)).trans (V17_main_v28 M)
theorem V18_main_v32 (M : Valuation τ sig (Elt F)) : V18 M (Proc.devRef .tc main_v32) = RTake.takeP (imageOf (M (Proc.devRef .tc main_arg0))) (fun k => flat (row1 (syP (M (Proc.devRef .tc main_arg1)) k)) (col0 (sxP (M (Proc.devRef .tc main_arg1)) k))) :=
  (V18_keep M main_v32 (by decide)).trans (V17_main_v32 M)
attribute [local irreducible] Host.reduce Host.gather in
theorem V18_main_call7_v12 (M : Valuation τ sig (Elt F)) : V18 M (Proc.devRef .tc main_call7_v12) = RTake.insideP (RTake.startsP (fun k => flat (row1 (syP (M (Proc.devRef .tc main_arg1)) k)) (col1 (sxP (M (Proc.devRef .tc main_arg1)) k)))) := by
  show after b4b (V17 M) (Proc.devRef .tc main_call7_v12) = _
  rw [b4b_main_call7_v12, V17_main_v35] <;> rfl
attribute [local irreducible] Host.reduce Host.gather in
theorem V18_main_call7_v13 (M : Valuation τ sig (Elt F)) : V18 M (Proc.devRef .tc main_call7_v13) = Host.gather gather_S2x3x8388608_S5242880x1_S2x3x5242880_01_2_n_n_2_1_231 (imageOf (M (Proc.devRef .tc main_arg0))) (RTake.startsP (fun k => flat (row1 (syP (M (Proc.devRef .tc main_arg1)) k)) (col1 (sxP (M (Proc.devRef .tc main_arg1)) k)))) := by
  show after b4b (V17 M) (Proc.devRef .tc main_call7_v13) = _
  rw [b4b_main_call7_v13, V17_main_v20, V17_main_v35] <;> rfl

/-- Tap v11's last four lines: the values where the position lies inside, the literal elsewhere. -/
abbrev b4c : List (HloOp τ sig (Elt F)) :=
  [ StableHlo.TRef.unary main_call7.v12 main_call7.v14 (broadcastInDim S2x3x5242880 ![2] bcast_S5242880_S2x3x5242880_2),
    StableHlo.TRef.nullary main_call7.cst (constant S_ .f32 0x7FC00000#32),
    StableHlo.TRef.unary main_call7.cst main_call7.v15 (broadcastInDim S2x3x5242880 ![] bcast_S_S2x3x5242880),
    StableHlo.TRef.ternary main_call7.v14 main_call7.v13 main_call7.v15 main_call7.v16 select ]
/-- The buffers this stretch writes. -/
abbrev b4c_W : List (Ref sig .tc) := [main_call7_v14, main_call7_cst, main_call7_v15, main_v36]
theorem b4c_writes : (b4c : List (HloOp τ sig (Elt F))).Forall fun op => op.writes ⊆ (b4c_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
attribute [local irreducible] Host.reduce Host.gather in
set_option maxHeartbeats 400000 in
theorem b4c_main_v36 (W : Valuation τ sig (Elt F)) :
    after b4c W (Proc.devRef .tc main_v36) = select (broadcastInDim S2x3x5242880 ![2] bcast_S5242880_S2x3x5242880_2 (W (Proc.devRef .tc main_call7_v12) : IVec S5242880 1)) (W (Proc.devRef .tc main_call7_v13) : Vec F S2x3x5242880 .f32) (broadcastInDim S2x3x5242880 ![] bcast_S_S2x3x5242880 (constant S_ .f32 0x7FC00000#32)) := by
  after_results_simp
  rfl
/-- The buffers' contents after the first 19 stretches. -/
def V19 (M : Valuation τ sig (Elt F)) : Valuation τ sig (Elt F) := after b4c (V18 M)
theorem V19_keep (M : Valuation τ sig (Elt F)) (r : Ref sig .tc) (h : r ∉ b4c_W) :
    V19 M (Proc.devRef .tc r) = (V18 M) (Proc.devRef .tc r) :=
  after_of_writes_sub b4c _ b4c_writes h
theorem V19_main_arg0 (M : Valuation τ sig (Elt F)) : V19 M (Proc.devRef .tc main_arg0) = M (Proc.devRef .tc main_arg0) :=
  (V19_keep M main_arg0 (by decide)).trans (V18_main_arg0 M)
theorem V19_main_arg1 (M : Valuation τ sig (Elt F)) : V19 M (Proc.devRef .tc main_arg1) = M (Proc.devRef .tc main_arg1) :=
  (V19_keep M main_arg1 (by decide)).trans (V18_main_arg1 M)
theorem V19_main_v8 (M : Valuation τ sig (Elt F)) : V19 M (Proc.devRef .tc main_v8) = fun k => frac (sxP (M (Proc.devRef .tc main_arg1)) k) :=
  (V19_keep M main_v8 (by decide)).trans (V18_main_v8 M)
theorem V19_main_v9 (M : Valuation τ sig (Elt F)) : V19 M (Proc.devRef .tc main_v9) = fun k => frac (syP (M (Proc.devRef .tc main_arg1)) k) :=
  (V19_keep M main_v9 (by decide)).trans (V18_main_v9 M)
theorem V19_main_v24 (M : Valuation τ sig (Elt F)) : V19 M (Proc.devRef .tc main_v24) = RTake.takeP (imageOf (M (Proc.devRef .tc main_arg0))) (fun k => flat (row0 (syP (M (Proc.devRef .tc main_arg1)) k)) (col0 (sxP (M (Proc.devRef .tc main_arg1)) k))) :=
  (V19_keep M main_v24 (by decide)).trans (V18_main_v24 M)
theorem V19_main_v28 (M : Valuation τ sig (Elt F)) : V19 M (Proc.devRef .tc main_v28) = RTake.takeP (imageOf (M (Proc.devRef .tc main_arg0))) (fun k => flat (row0 (syP (M (Proc.devRef .tc main_arg1)) k)) (col1 (sxP (M (Proc.devRef .tc main_arg1)) k))) :=
  (V19_keep M main_v28 (by decide)).trans (V18_main_v28 M)
theorem V19_main_v32 (M : Valuation τ sig (Elt F)) : V19 M (Proc.devRef .tc main_v32) = RTake.takeP (imageOf (M (Proc.devRef .tc main_arg0))) (fun k => flat (row1 (syP (M (Proc.devRef .tc main_arg1)) k)) (col0 (sxP (M (Proc.devRef .tc main_arg1)) k))) :=
  (V19_keep M main_v32 (by decide)).trans (V18_main_v32 M)
attribute [local irreducible] Host.reduce Host.gather in
theorem V19_main_v36 (M : Valuation τ sig (Elt F)) : V19 M (Proc.devRef .tc main_v36) = RTake.takeP (imageOf (M (Proc.devRef .tc main_arg0))) (fun k => flat (row1 (syP (M (Proc.devRef .tc main_arg1)) k)) (col1 (sxP (M (Proc.devRef .tc main_arg1)) k))) := by
  show after b4c (V18 M) (Proc.devRef .tc main_v36) = _
  rw [b4c_main_v36, V18_main_call7_v12, V18_main_call7_v13] <;> rfl

/-- The blend and the final reshape. -/
abbrev c1 : List (HloOp τ sig (Elt F)) :=
  [ StableHlo.nullary main_cst (constant S_ .f32 0x3F800000#32),
    StableHlo.unary main_cst main_v37 (broadcastInDim S5242880 ![] bcast_S_S5242880 : (⟨S_, .f32⟩ : BufTy).Contents (Elt F) → (⟨S5242880, .f32⟩ : BufTy).Contents (Elt F)),
    StableHlo.binary main_v37 main_v8 main_v38 (subf : (⟨S5242880, .f32⟩ : BufTy).Contents (Elt F) → (⟨S5242880, .f32⟩ : BufTy).Contents (Elt F) → (⟨S5242880, .f32⟩ : BufTy).Contents (Elt F)),
    StableHlo.unary main_v38 main_v39 (broadcastInDim S1x1x5242880 ![2] bcast_S5242880_S1x1x5242880_2 : (⟨S5242880, .f32⟩ : BufTy).Contents (Elt F) → (⟨S1x1x5242880, .f32⟩ : BufTy).Contents (Elt F)),
    StableHlo.unary main_v39 main_v40 (broadcastInDim S2x3x5242880 ![0, 1, 2] bcast_S1x1x5242880_S2x3x5242880_0_1_2 : (⟨S1x1x5242880, .f32⟩ : BufTy).Contents (Elt F) → (⟨S2x3x5242880, .f32⟩ : BufTy).Contents (Elt F)),
    StableHlo.binary main_v24 main_v40 main_v41 (mulf : (⟨S2x3x5242880, .f32⟩ : BufTy).Contents (Elt F) → (⟨S2x3x5242880, .f32⟩ : BufTy).Contents (Elt F) → (⟨S2x3x5242880, .f32⟩ : BufTy).Contents (Elt F)),
    StableHlo.unary main_v8 main_v42 (broadcastInDim S1x1x5242880 ![2] bcast_S5242880_S1x1x5242880_2 : (⟨S5242880, .f32⟩ : BufTy).Contents (Elt F) → (⟨S1x1x5242880, .f32⟩ : BufTy).Contents (Elt F)),
    StableHlo.unary main_v42 main_v43 (broadcastInDim S2x3x5242880 ![0, 1, 2] bcast_S1x1x5242880_S2x3x5242880_0_1_2 : (⟨S1x1x5242880, .f32⟩ : BufTy).Contents (Elt F) → (⟨S2x3x5242880, .f32⟩ : BufTy).Contents (Elt F)),
    StableHlo.binary main_v28 main_v43 main_v44 (mulf : (⟨S2x3x5242880, .f32⟩ : BufTy).Contents (Elt F) → (⟨S2x3x5242880, .f32⟩ : BufTy).Contents (Elt F) → (⟨S2x3x5242880, .f32⟩ : BufTy).Contents (Elt F)),
    StableHlo.binary main_v41 main_v44 main_v45 (addf : (⟨S2x3x5242880, .f32⟩ : BufTy).Contents (Elt F) → (⟨S2x3x5242880, .f32⟩ : BufTy).Contents (Elt F) → (⟨S2x3x5242880, .f32⟩ : BufTy).Contents (Elt F)),
    StableHlo.nullary main_cst_11 (constant S_ .f32 0x3F800000#32),
    StableHlo.unary main_cst_11 main_v46 (broadcastInDim S5242880 ![] bcast_S_S5242880 : (⟨S_, .f32⟩ : BufTy).Contents (Elt F) → (⟨S5242880, .f32⟩ : BufTy).Contents (Elt F)),
    StableHlo.binary main_v46 main_v8 main_v47 (subf : (⟨S5242880, .f32⟩ : BufTy).Contents (Elt F) → (⟨S5242880, .f32⟩ : BufTy).Contents (Elt F) → (⟨S5242880, .f32⟩ : BufTy).Contents (Elt F)),
    StableHlo.unary main_v47 main_v48 (broadcastInDim S1x1x5242880 ![2] bcast_S5242880_S1x1x5242880_2 : (⟨S5242880, .f32⟩ : BufTy).Contents (Elt F) → (⟨S1x1x5242880, .f32⟩ : BufTy).Contents (Elt F)),
    StableHlo.unary main_v48 main_v49 (broadcastInDim S2x3x5242880 ![0, 1, 2] bcast_S1x1x5242880_S2x3x5242880_0_1_2 : (⟨S1x1x5242880, .f32⟩ : BufTy).Contents (Elt F) → (⟨S2x3x5242880, .f32⟩ : BufTy).Contents (Elt F)),
    StableHlo.binary main_v32 main_v49 main_v50 (mulf : (⟨S2x3x5242880, .f32⟩ : BufTy).Contents (Elt F) → (⟨S2x3x5242880, .f32⟩ : BufTy).Contents (Elt F) → (⟨S2x3x5242880, .f32⟩ : BufTy).Contents (Elt F)),
    StableHlo.unary main_v8 main_v51 (broadcastInDim S1x1x5242880 ![2] bcast_S5242880_S1x1x5242880_2 : (⟨S5242880, .f32⟩ : BufTy).Contents (Elt F) → (⟨S1x1x5242880, .f32⟩ : BufTy).Contents (Elt F)),
    StableHlo.unary main_v51 main_v52 (broadcastInDim S2x3x5242880 ![0, 1, 2] bcast_S1x1x5242880_S2x3x5242880_0_1_2 : (⟨S1x1x5242880, .f32⟩ : BufTy).Contents (Elt F) → (⟨S2x3x5242880, .f32⟩ : BufTy).Contents (Elt F)),
    StableHlo.binary main_v36 main_v52 main_v53 (mulf : (⟨S2x3x5242880, .f32⟩ : BufTy).Contents (Elt F) → (⟨S2x3x5242880, .f32⟩ : BufTy).Contents (Elt F) → (⟨S2x3x5242880, .f32⟩ : BufTy).Contents (Elt F)),
    StableHlo.binary main_v50 main_v53 main_v54 (addf : (⟨S2x3x5242880, .f32⟩ : BufTy).Contents (Elt F) → (⟨S2x3x5242880, .f32⟩ : BufTy).Contents (Elt F) → (⟨S2x3x5242880, .f32⟩ : BufTy).Contents (Elt F)),
    StableHlo.nullary main_cst_12 (constant S_ .f32 0x3F800000#32),
    StableHlo.unary main_cst_12 main_v55 (broadcastInDim S5242880 ![] bcast_S_S5242880 : (⟨S_, .f32⟩ : BufTy).Contents (Elt F) → (⟨S5242880, .f32⟩ : BufTy).Contents (Elt F)),
    StableHlo.binary main_v55 main_v9 main_v56 (subf : (⟨S5242880, .f32⟩ : BufTy).Contents (Elt F) → (⟨S5242880, .f32⟩ : BufTy).Contents (Elt F) → (⟨S5242880, .f32⟩ : BufTy).Contents (Elt F)),
    StableHlo.unary main_v56 main_v57 (broadcastInDim S1x1x5242880 ![2] bcast_S5242880_S1x1x5242880_2 : (⟨S5242880, .f32⟩ : BufTy).Contents (Elt F) → (⟨S1x1x5242880, .f32⟩ : BufTy).Contents (Elt F)),
    StableHlo.unary main_v57 main_v58 (broadcastInDim S2x3x5242880 ![0, 1, 2] bcast_S1x1x5242880_S2x3x5242880_0_1_2 : (⟨S1x1x5242880, .f32⟩ : BufTy).Contents (Elt F) → (⟨S2x3x5242880, .f32⟩ : BufTy).Contents (Elt F)),
    StableHlo.binary main_v45 main_v58 main_v59 (mulf : (⟨S2x3x5242880, .f32⟩ : BufTy).Contents (Elt F) → (⟨S2x3x5242880, .f32⟩ : BufTy).Contents (Elt F) → (⟨S2x3x5242880, .f32⟩ : BufTy).Contents (Elt F)),
    StableHlo.unary main_v9 main_v60 (broadcastInDim S1x1x5242880 ![2] bcast_S5242880_S1x1x5242880_2 : (⟨S5242880, .f32⟩ : BufTy).Contents (Elt F) → (⟨S1x1x5242880, .f32⟩ : BufTy).Contents (Elt F)),
    StableHlo.unary main_v60 main_v61 (broadcastInDim S2x3x5242880 ![0, 1, 2] bcast_S1x1x5242880_S2x3x5242880_0_1_2 : (⟨S1x1x5242880, .f32⟩ : BufTy).Contents (Elt F) → (⟨S2x3x5242880, .f32⟩ : BufTy).Contents (Elt F)),
    StableHlo.binary main_v54 main_v61 main_v62 (mulf : (⟨S2x3x5242880, .f32⟩ : BufTy).Contents (Elt F) → (⟨S2x3x5242880, .f32⟩ : BufTy).Contents (Elt F) → (⟨S2x3x5242880, .f32⟩ : BufTy).Contents (Elt F)),
    StableHlo.binary main_v59 main_v62 main_v63 (addf : (⟨S2x3x5242880, .f32⟩ : BufTy).Contents (Elt F) → (⟨S2x3x5242880, .f32⟩ : BufTy).Contents (Elt F) → (⟨S2x3x5242880, .f32⟩ : BufTy).Contents (Elt F)),
    StableHlo.reshape main_v63 main_v64 rfl shapeCasts_S2x3x5242880_S2x3x80x256x256 ]
/-- The buffers this stretch writes. -/
abbrev c1_W : List (Ref sig .tc) := [main_cst, main_v37, main_v38, main_v39, main_v40, main_v41, main_v42, main_v43, main_v44, main_v45, main_cst_11, main_v46, main_v47, main_v48, main_v49, main_v50, main_v51, main_v52, main_v53, main_v54, main_cst_12, main_v55, main_v56, main_v57, main_v58, main_v59, main_v60, main_v61, main_v62, main_v63, main_v64]
theorem c1_writes : (c1 : List (HloOp τ sig (Elt F))).Forall fun op => op.writes ⊆ (c1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxHeartbeats 400000 in
theorem c1_main_v64 (W : Valuation τ sig (Elt F)) :
    after c1 W (Proc.devRef .tc main_v64) = shapeCast S2x3x80x256x256 (RTake.blend3 (W (Proc.devRef .tc main_v24)) (W (Proc.devRef .tc main_v28)) (W (Proc.devRef .tc main_v32)) (W (Proc.devRef .tc main_v36)) (W (Proc.devRef .tc main_v8)) (W (Proc.devRef .tc main_v9))) shapeCasts_S2x3x5242880_S2x3x80x256x256 := by
  after_results_simp
  simp only [RTake.blend3, RTake.up, RTake.oneP]
  rfl
/-- The buffers' contents after the first 20 stretches. -/
def V20 (M : Valuation τ sig (Elt F)) : Valuation τ sig (Elt F) := after c1 (V19 M)
theorem V20_keep (M : Valuation τ sig (Elt F)) (r : Ref sig .tc) (h : r ∉ c1_W) :
    V20 M (Proc.devRef .tc r) = (V19 M) (Proc.devRef .tc r) :=
  after_of_writes_sub c1 _ c1_writes h
theorem V20_main_arg0 (M : Valuation τ sig (Elt F)) : V20 M (Proc.devRef .tc main_arg0) = M (Proc.devRef .tc main_arg0) :=
  (V20_keep M main_arg0 (by decide)).trans (V19_main_arg0 M)
theorem V20_main_arg1 (M : Valuation τ sig (Elt F)) : V20 M (Proc.devRef .tc main_arg1) = M (Proc.devRef .tc main_arg1) :=
  (V20_keep M main_arg1 (by decide)).trans (V19_main_arg1 M)
theorem V20_main_v64 (M : Valuation τ sig (Elt F)) : V20 M (Proc.devRef .tc main_v64) = shapeCast S2x3x80x256x256
        (RTake.blend3
          (RTake.takeP (imageOf (M (Proc.devRef .tc main_arg0))) (fun k => flat (row0 (syP (M (Proc.devRef .tc main_arg1)) k)) (col0 (sxP (M (Proc.devRef .tc main_arg1)) k))))
          (RTake.takeP (imageOf (M (Proc.devRef .tc main_arg0))) (fun k => flat (row0 (syP (M (Proc.devRef .tc main_arg1)) k)) (col1 (sxP (M (Proc.devRef .tc main_arg1)) k))))
          (RTake.takeP (imageOf (M (Proc.devRef .tc main_arg0))) (fun k => flat (row1 (syP (M (Proc.devRef .tc main_arg1)) k)) (col0 (sxP (M (Proc.devRef .tc main_arg1)) k))))
          (RTake.takeP (imageOf (M (Proc.devRef .tc main_arg0))) (fun k => flat (row1 (syP (M (Proc.devRef .tc main_arg1)) k)) (col1 (sxP (M (Proc.devRef .tc main_arg1)) k))))
          (fun k => frac (sxP (M (Proc.devRef .tc main_arg1)) k)) (fun k => frac (syP (M (Proc.devRef .tc main_arg1)) k)))
        shapeCasts_S2x3x5242880_S2x3x80x256x256 := by
  show after c1 (V19 M) (Proc.devRef .tc main_v64) = _
  rw [c1_main_v64, V19_main_v24, V19_main_v28, V19_main_v32, V19_main_v36, V19_main_v8, V19_main_v9] <;> rfl

/-! ## The chain -/

/-- The three lists are the stretches, in order. -/
theorem opsA_eq : (RefRun.opsA : List (HloOp τ sig (Elt F))) = a1a ++ a1b ++ a2 ++ a3 ++ a4 ++ a5 ++ a6 := rfl
theorem opsB_eq : (RefRun.opsB : List (HloOp τ sig (Elt F))) = b1a ++ b1b ++ b1c ++ b2a ++ b2b ++ b2c ++ b3a ++ b3b ++ b3c ++ b4a ++ b4b ++ b4c := rfl
theorem opsC_eq : (RefRun.opsC : List (HloOp τ sig (Elt F))) = c1 := rfl

/-- The whole line's fold is the stretches' folds, one after the other. -/
theorem after_all (M : Valuation τ sig (Elt F)) : after (RefRun.opsA ++ RefRun.opsB ++ RefRun.opsC) M = V20 M := by
  rw [opsA_eq, opsB_eq, opsC_eq]
  simp only [StableHlo.after_append]
  rfl

/-- The result buffer after the whole line, from contents `M`: the blend of the four taps of the flattened image, each
    gathered at row · 4096 + column of its sample, weighted by the fractional parts of the sample's coordinates. -/
theorem result_eq (M : Valuation τ sig (Elt F)) :
    after (RefRun.opsA ++ RefRun.opsB ++ RefRun.opsC) M (Proc.devRef .tc main_v64)
      = shapeCast S2x3x80x256x256
        (RTake.blend3
          (RTake.takeP (imageOf (M (Proc.devRef .tc main_arg0))) (fun k => flat (row0 (syP (M (Proc.devRef .tc main_arg1)) k)) (col0 (sxP (M (Proc.devRef .tc main_arg1)) k))))
          (RTake.takeP (imageOf (M (Proc.devRef .tc main_arg0))) (fun k => flat (row0 (syP (M (Proc.devRef .tc main_arg1)) k)) (col1 (sxP (M (Proc.devRef .tc main_arg1)) k))))
          (RTake.takeP (imageOf (M (Proc.devRef .tc main_arg0))) (fun k => flat (row1 (syP (M (Proc.devRef .tc main_arg1)) k)) (col0 (sxP (M (Proc.devRef .tc main_arg1)) k))))
          (RTake.takeP (imageOf (M (Proc.devRef .tc main_arg0))) (fun k => flat (row1 (syP (M (Proc.devRef .tc main_arg1)) k)) (col1 (sxP (M (Proc.devRef .tc main_arg1)) k))))
          (fun k => frac (sxP (M (Proc.devRef .tc main_arg1)) k)) (fun k => frac (syP (M (Proc.devRef .tc main_arg1)) k)))
        shapeCasts_S2x3x5242880_S2x3x80x256x256 := by
  rw [after_all]; exact V20_main_v64 M

/-- The image is left as it was. -/
theorem arg0_eq (M : Valuation τ sig (Elt F)) :
    after (RefRun.opsA ++ RefRun.opsB ++ RefRun.opsC) M (Proc.devRef .tc main_arg0) = M (Proc.devRef .tc main_arg0) := by
  rw [after_all]; exact V20_main_arg0 M

/-- The sample map is left as it was. -/
theorem arg1_eq (M : Valuation τ sig (Elt F)) :
    after (RefRun.opsA ++ RefRun.opsB ++ RefRun.opsC) M (Proc.devRef .tc main_arg1) = M (Proc.devRef .tc main_arg1) := by
  rw [after_all]; exact V20_main_arg1 M

/-! ## The index arithmetic by itself -/

/-- The first list's fold is its seven stretches' folds, one after the other. -/
theorem after_opsA (M : Valuation τ sig (Elt F)) : after RefRun.opsA M = V7 M := by
  rw [opsA_eq]
  simp only [StableHlo.after_append]
  rfl

/-- The blend weight along a row after the index arithmetic: the fractional part of the first coordinate. -/
theorem opsA_v8 (M : Valuation τ sig (Elt F)) :
    after RefRun.opsA M (Proc.devRef .tc main_v8) = fun k => frac (sxP (M (Proc.devRef .tc main_arg1)) k) := by
  rw [after_opsA]; exact V7_main_v8 M

/-- The blend weight down a column: the fractional part of the second coordinate. -/
theorem opsA_v9 (M : Valuation τ sig (Elt F)) :
    after RefRun.opsA M (Proc.devRef .tc main_v9) = fun k => frac (syP (M (Proc.devRef .tc main_arg1)) k) := by
  rw [after_opsA]; exact V7_main_v9 M

/-- The left taps' column. -/
theorem opsA_v11 (M : Valuation τ sig (Elt F)) :
    after RefRun.opsA M (Proc.devRef .tc main_v11) = fun k => col0 (sxP (M (Proc.devRef .tc main_arg1)) k) := by
  rw [after_opsA]; exact V7_main_v11 M

/-- The right taps' column. -/
theorem opsA_v14 (M : Valuation τ sig (Elt F)) :
    after RefRun.opsA M (Proc.devRef .tc main_v14) = fun k => col1 (sxP (M (Proc.devRef .tc main_arg1)) k) := by
  rw [after_opsA]; exact V7_main_v14 M

/-- The upper taps' row. -/
theorem opsA_v16 (M : Valuation τ sig (Elt F)) :
    after RefRun.opsA M (Proc.devRef .tc main_v16) = fun k => row0 (syP (M (Proc.devRef .tc main_arg1)) k) := by
  rw [after_opsA]; exact V7_main_v16 M

/-- The lower taps' row. -/
theorem opsA_v19 (M : Valuation τ sig (Elt F)) :
    after RefRun.opsA M (Proc.devRef .tc main_v19) = fun k => row1 (syP (M (Proc.devRef .tc main_arg1)) k) := by
  rw [after_opsA]; exact V7_main_v19 M

/-- The image, flattened. -/
theorem opsA_v20 (M : Valuation τ sig (Elt F)) :
    after RefRun.opsA M (Proc.devRef .tc main_v20) = imageOf (M (Proc.devRef .tc main_arg0)) := by
  rw [after_opsA]; exact V7_main_v20 M

/-- The index arithmetic leaves the image as it was. -/
theorem opsA_arg0 (M : Valuation τ sig (Elt F)) :
    after RefRun.opsA M (Proc.devRef .tc main_arg0) = M (Proc.devRef .tc main_arg0) := by
  rw [after_opsA]; exact V7_main_arg0 M

/-- The index arithmetic leaves the sample map as it was. -/
theorem opsA_arg1 (M : Valuation τ sig (Elt F)) :
    after RefRun.opsA M (Proc.devRef .tc main_arg1) = M (Proc.devRef .tc main_arg1) := by
  rw [after_opsA]; exact V7_main_arg1 M

end Cert.ReferenceIdeal.RHost

end
-- ==== Proof.Tap.lean ====
/-
  One tap of the resampling: a channel's pixel at a position of the flattened image, as `jnp.take` reads it.

  A negative position is first counted from the end (`wrapPos`: the image's length 8388608 is added).  The pixel read is
  the channel's at that position, clamped into the image; and the tap is that pixel only if the position lies inside the
  image, `0 ≤ · ≤ 8388607` (`inImage`, and-ed with the reduction's initial `true`), and otherwise the float literal
  `0x7FC00000`.
-/
import Idealize.ShloMosaic.PureOps.Ideal
import Idealize.ShloMosaic.Lib.ValueIdx

noncomputable section

namespace Cert.Resample

open Idealize.ShloMosaic Idealize.ShloMosaic.ValueIdx

variable {F : FTy → Type} [FloatOps F]

/-- The image, its rows laid end to end: batch, colour, position. -/
abbrev Img : Shape := ⟨3, ![2, 3, 8388608]⟩

/-- A position counted from the end when negative. -/
def wrapPos (pos : BitVec 32) : BitVec 32 :=
  Scalar.select (IntOp.cmpi .slt pos 0#32) (IntOp.addi pos 8388608#32) pos

/-- Whether a position lies inside the image. -/
def inImage (w : BitVec 32) : BitVec 1 :=
  IntOp.andi (IntOp.andi (IntOp.cmpi .sge w 0#32) (IntOp.cmpi .sle w 8388607#32)) 1#1

/-- The tap of channel `(b, c)` at position `pos`. -/
def tap (xf : FVec F Img .f32) (b : Fin 2) (c : Fin 3) (pos : BitVec 32) : F .f32 :=
  Scalar.select (inImage (wrapPos pos))
    (xf (ix3 b c ⟨min (wrapPos pos).toInt.toNat 8388607, by omega⟩))
    (FloatOps.ofBits .f32 0x7FC00000#32)

end Cert.Resample

end
-- ==== Proof.KTakeAt.lean ====
/-
  The kernel program's `jnp.take` along the flattened image, read at one element: the start index of sample (n, p, q) is
  its position counted from the end when negative (`starts_apply`); the and over the trailing axis of extent one is the
  one test "inside the image" and-ed with the initial `true` (`inside_apply`); the gather reads channel (b, c) at the
  start index taken signed and clamped into the image (`gather_apply`); together, the tap of channel (b, c) at the
  sample's position (`take_apply`).
-/
import proofs.«127784_j58463094833211_2_alg».proof.Proof.KTake
import proofs.«127784_j58463094833211_2_alg».proof.Proof.Tap
import Idealize.ShloMosaic.Lib.Pipeline.Value
import Idealize.ShloMosaic.Lib.ValueIdx
import Idealize.ShloMosaic.PureOps.Reduce

noncomputable section

namespace Cert.KernelIdeal.KTakeAt

open Idealize.ShloMosaic Idealize.ShloMosaic.ValueIdx Cert.KernelIdeal Cert.KernelIdeal.Gen Cert.Resample

variable {F : FTy → Type} [FloatOps F]

/-- The start index of sample (n, p, q): its position, counted from the end when negative. -/
theorem starts_apply (idx : IVec S80x256x256 32) (n : Fin 80) (p q : Fin 256) (u : Fin 1) :
    KTake.starts idx (ix4 n p q u) = wrapPos (idx (ix3 n p q)) := by
  unfold KTake.starts
  refine (broadcastInDim_apply _ _ _ (ix4 n p q u) (ix3 n p q) (fun a => ?_)).trans ?_
  · match a with
    | ⟨0, _⟩ => rfl
    | ⟨1, _⟩ => rfl
    | ⟨2, _⟩ => rfl
  · rfl

/-- The samples' shape is the start indices' with the trailing axis dropped. -/
theorem reduces_last : S80x256x256x1.Reduces [3] S80x256x256 := by decide

/-- The start-indices index over sample (n, p, q) with its coordinate on the dropped axis of extent one. -/
theorem lift_last (n : Fin 80) (p q : Fin 256) (k : Fin (S80x256x256x1.size (3 : Fin 4))) :
    reduces_last.lift (ix3 n p q) k = ix4 n p q (0 : Fin 1) := by
  funext a; apply Fin.ext
  show reduces_last.liftVal (ix3 n p q) k.val a = _
  unfold Shape.Reduces.liftVal
  match a with
  | ⟨0, _⟩ => rfl
  | ⟨1, _⟩ => rfl
  | ⟨2, _⟩ => rfl
  | ⟨3, _⟩ => show k.val = 0; exact Nat.lt_one_iff.mp k.isLt

/-- A fold over the one coordinate of an axis of extent one is one application of the operation. -/
theorem fold_fin_one {α : Type} (f : α → α → α) [Std.Commutative f] [Std.Associative f] (init : α) (g : Fin 1 → α) :
    (Finset.univ : Finset (Fin 1)).fold f init g = f (g 0) init := by
  rw [Finset.univ_unique, Finset.fold_singleton]; rfl

/-- Whether sample (n, p, q)'s start index lies inside the image: the and over the one trailing coordinate, from the
    initial `true`. -/
theorem inside_apply (st : IVec S80x256x256x1 32) (n : Fin 80) (p q : Fin 256) :
    KTake.inside st (ix3 n p q) = inImage (st (ix4 n p q (0 : Fin 1))) := by
  unfold KTake.inside
  refine (Host.reduce_eq_fold_single IntOp.andi _ _ reducesTo_S80x256x256x1_S80x256x256_d3 reduces_last h_S_ (ix3 n p q)).trans ?_
  refine (fold_fin_one IntOp.andi _ _).trans ?_
  exact congrArg (fun i => inImage (st i)) (lift_last n p q _)

/-- The gather's dimension numbers: the result's axes 0 and 1 are the operand's batch and colour, the operand's position
    axis is collapsed and is the one the start index moves along. -/
abbrev gD : GatherDims S2x3x8388608 S80x256x256x1 S2x3x80x256x256 :=
  gather_S2x3x8388608_S80x256x256x1_S2x3x80x256x256_01_2_n_n_2_3_231

/-- The start-indices index a result element reads its start index at: its sample, coordinate 0 on the trailing axis. -/
theorem siIdx_eq (b : Fin 2) (c : Fin 3) (n : Fin 80) (p q : Fin 256) (k : Fin gD.startIndexMap.length) :
    gD.siIdx (ix5 b c n p q) k = ix4 n p q (0 : Fin 1) := by
  have hk : k.val = 0 := Nat.lt_one_iff.mp k.isLt
  funext a; refine Fin.ext ?_
  match a with
  | ⟨0, _⟩ => rfl
  | ⟨1, _⟩ => rfl
  | ⟨2, _⟩ => rfl
  | ⟨3, _⟩ => exact hk

/-- The gather read at (b, c, n, p, q): channel (b, c) of the operand at sample (n, p, q)'s start index, read signed and
    clamped into the image. -/
theorem gather_apply (xf : Vec F S2x3x8388608 .f32) (st : IVec S80x256x256x1 32) (b : Fin 2) (c : Fin 3) (n : Fin 80)
    (p q : Fin 256) :
    Host.gather gD xf st (ix5 b c n p q)
      = xf (ix3 b c ⟨min (st (ix4 n p q (0 : Fin 1))).toInt.toNat 8388607, by omega⟩) := by
  unfold Host.gather
  refine congrArg xf (funext fun a => Fin.ext ?_)
  match a with
  | ⟨0, _⟩ =>
    show gD.start (ix5 b c n p q) st (0 : Fin 3) + gD.batchCoord (ix5 b c n p q) (0 : Fin 3)
      + gD.offCoord (ix5 b c n p q) (0 : Fin 3) = b.val
    have h1 : gD.start (ix5 b c n p q) st (0 : Fin 3) = 0 := by
      unfold GatherDims.start; exact dif_neg (by decide)
    have h2 : gD.batchCoord (ix5 b c n p q) (0 : Fin 3) = 0 := gD.batchCoord_eq_zero _ _ (by decide)
    have h3 : gD.offCoord (ix5 b c n p q) (0 : Fin 3) = b.val := by
      unfold GatherDims.offCoord; rw [dif_pos (by decide)]; rfl
    omega
  | ⟨1, _⟩ =>
    show gD.start (ix5 b c n p q) st (1 : Fin 3) + gD.batchCoord (ix5 b c n p q) (1 : Fin 3)
      + gD.offCoord (ix5 b c n p q) (1 : Fin 3) = c.val
    have h1 : gD.start (ix5 b c n p q) st (1 : Fin 3) = 0 := by
      unfold GatherDims.start; exact dif_neg (by decide)
    have h2 : gD.batchCoord (ix5 b c n p q) (1 : Fin 3) = 0 := gD.batchCoord_eq_zero _ _ (by decide)
    have h3 : gD.offCoord (ix5 b c n p q) (1 : Fin 3) = c.val := by
      unfold GatherDims.offCoord; rw [dif_pos (by decide)]; rfl
    omega
  | ⟨2, _⟩ =>
    show gD.start (ix5 b c n p q) st (2 : Fin 3) + gD.batchCoord (ix5 b c n p q) (2 : Fin 3)
      + gD.offCoord (ix5 b c n p q) (2 : Fin 3) = min (st (ix4 n p q (0 : Fin 1))).toInt.toNat 8388607
    have h1 : gD.start (ix5 b c n p q) st (2 : Fin 3) = min (st (ix4 n p q (0 : Fin 1))).toInt.toNat 8388607 := by
      unfold GatherDims.start; rw [dif_pos (by decide), siIdx_eq]; rfl
    have h2 : gD.batchCoord (ix5 b c n p q) (2 : Fin 3) = 0 := gD.batchCoord_eq_zero _ _ (by decide)
    have h3 : gD.offCoord (ix5 b c n p q) (2 : Fin 3) = 0 := gD.offCoord_eq_zero _ _ (by decide)
    omega

/-- The same with the start index named. -/
theorem gather_apply_of (xf : Vec F S2x3x8388608 .f32) (st : IVec S80x256x256x1 32) (b : Fin 2) (c : Fin 3) (n : Fin 80)
    (p q : Fin 256) (w : BitVec 32) (hw : st (ix4 n p q (0 : Fin 1)) = w) :
    Host.gather gD xf st (ix5 b c n p q) = xf (ix3 b c ⟨min w.toInt.toNat 8388607, by omega⟩) := by
  subst hw; exact gather_apply xf st b c n p q

/-- THE TAKE READ AT (b, c, n, p, q): the tap of channel (b, c) at sample (n, p, q)'s position. -/
theorem take_apply (xf : Vec F S2x3x8388608 .f32) (idx : IVec S80x256x256 32) (b : Fin 2) (c : Fin 3) (n : Fin 80)
    (p q : Fin 256) :
    KTake.take xf idx (ix5 b c n p q) = Cert.Resample.tap xf b c (idx (ix3 n p q)) := by
  unfold KTake.take
  rw [select_apply,
    broadcastInDim_apply _ _ (KTake.inside (KTake.starts idx)) (ix5 b c n p q) (ix3 n p q) (fun a => by
      match a with
      | ⟨0, _⟩ => rfl
      | ⟨1, _⟩ => rfl
      | ⟨2, _⟩ => rfl),
    inside_apply, starts_apply,
    gather_apply_of xf (KTake.starts idx) b c n p q _ (starts_apply idx n p q 0)]
  rfl

end Cert.KernelIdeal.KTakeAt

end
-- ==== Proof.RTakeAt.lean ====
/-
  The reference's `jnp.take` along the flattened image and its blend, read at one element, over the 5242880 samples
  in one row: the start index of sample k is its position counted from the end when negative (`startsP_apply`); the and
  over the trailing axis of extent one is the one test "inside the image" and-ed with the initial `true`
  (`insideP_apply`); the gather reads channel (b, c) at the start index taken signed and clamped into the image
  (`gatherP_apply`); together, the tap of channel (b, c) at the sample's position (`takeP_apply`).  A per-sample array
  broadcast over batch and colour reads the sample's value (`up_apply`), so the blend over [2, 3, 5242880] is, element by
  element, the blend of six numbers (`blend3_apply`).
-/
import proofs.«127784_j58463094833211_2_alg».proof.Proof.RTake
import proofs.«127784_j58463094833211_2_alg».proof.Proof.Tap
import proofs.«127784_j58463094833211_2_alg».proof.Proof.Spec
import Idealize.ShloMosaic.Lib.Pipeline.Value
import Idealize.ShloMosaic.Lib.ValueIdx
import Idealize.ShloMosaic.PureOps.Reduce

noncomputable section

namespace Cert.ReferenceIdeal.RTakeAt

open Idealize.ShloMosaic Idealize.ShloMosaic.ValueIdx Cert.ReferenceIdeal Cert.ReferenceIdeal.Gen Cert.Resample

variable {F : FTy → Type} [FloatOps F]

/-- The start index of sample k: its position, counted from the end when negative. -/
theorem startsP_apply (idx : IVec S5242880 32) (k : Fin 5242880) (u : Fin 1) :
    RTake.startsP idx (ix2 k u) = wrapPos (idx (ix1 k)) := by
  unfold RTake.startsP
  refine (broadcastInDim_apply _ _ _ (ix2 k u) (ix1 k) (fun a => ?_)).trans ?_
  · match a with
    | ⟨0, _⟩ => rfl
  · rfl

/-- The samples' shape is the start indices' with the trailing axis dropped. -/
theorem reduces_last : S5242880x1.Reduces [1] S5242880 := by decide

/-- The start-indices index over sample k with its coordinate on the dropped axis of extent one. -/
theorem lift_last (k : Fin 5242880) (v : Fin (S5242880x1.size (1 : Fin 2))) :
    reduces_last.lift (ix1 k) v = ix2 k (0 : Fin 1) := by
  funext a; apply Fin.ext
  show reduces_last.liftVal (ix1 k) v.val a = _
  unfold Shape.Reduces.liftVal
  match a with
  | ⟨0, _⟩ => rfl
  | ⟨1, _⟩ => show v.val = 0; exact Nat.lt_one_iff.mp v.isLt

/-- A fold over the one coordinate of an axis of extent one is one application of the operation. -/
theorem fold_fin_one {α : Type} (f : α → α → α) [Std.Commutative f] [Std.Associative f] (init : α) (g : Fin 1 → α) :
    (Finset.univ : Finset (Fin 1)).fold f init g = f (g 0) init := by
  rw [Finset.univ_unique, Finset.fold_singleton]; rfl

/-- Whether sample k's start index lies inside the image: the and over the one trailing coordinate, from the initial
    `true`. -/
theorem insideP_apply (st : IVec S5242880x1 32) (k : Fin 5242880) :
    RTake.insideP st (ix1 k) = inImage (st (ix2 k (0 : Fin 1))) := by
  unfold RTake.insideP
  refine (Host.reduce_eq_fold_single IntOp.andi _ _ reducesTo_S5242880x1_S5242880_d1 reduces_last h_S_ (ix1 k)).trans ?_
  refine (fold_fin_one IntOp.andi _ _).trans ?_
  exact congrArg (fun i => inImage (st i)) (lift_last k _)

/-- The gather's dimension numbers: the result's axes 0 and 1 are the operand's batch and colour, the operand's position
    axis is collapsed and is the one the start index moves along. -/
abbrev gP : GatherDims S2x3x8388608 S5242880x1 S2x3x5242880 :=
  gather_S2x3x8388608_S5242880x1_S2x3x5242880_01_2_n_n_2_1_231

/-- The start-indices index a result element reads its start index at: its sample, coordinate 0 on the trailing axis. -/
theorem siIdx_eq (b : Fin 2) (c : Fin 3) (k : Fin 5242880) (v : Fin gP.startIndexMap.length) :
    gP.siIdx (ix3 b c k) v = ix2 k (0 : Fin 1) := by
  have hv : v.val = 0 := Nat.lt_one_iff.mp v.isLt
  funext a; refine Fin.ext ?_
  match a with
  | ⟨0, _⟩ => rfl
  | ⟨1, _⟩ => exact hv

/-- The gather read at (b, c, k): channel (b, c) of the operand at sample k's start index, read signed and clamped into
    the image. -/
theorem gatherP_apply (xf : Vec F S2x3x8388608 .f32) (st : IVec S5242880x1 32) (b : Fin 2) (c : Fin 3) (k : Fin 5242880) :
    Host.gather gP xf st (ix3 b c k)
      = xf (ix3 b c ⟨min (st (ix2 k (0 : Fin 1))).toInt.toNat 8388607, by omega⟩) := by
  unfold Host.gather
  refine congrArg xf (funext fun a => Fin.ext ?_)
  match a with
  | ⟨0, _⟩ =>
    show gP.start (ix3 b c k) st (0 : Fin 3) + gP.batchCoord (ix3 b c k) (0 : Fin 3)
      + gP.offCoord (ix3 b c k) (0 : Fin 3) = b.val
    have h1 : gP.start (ix3 b c k) st (0 : Fin 3) = 0 := by
      unfold GatherDims.start; exact dif_neg (by decide)
    have h2 : gP.batchCoord (ix3 b c k) (0 : Fin 3) = 0 := gP.batchCoord_eq_zero _ _ (by decide)
    have h3 : gP.offCoord (ix3 b c k) (0 : Fin 3) = b.val := by
      unfold GatherDims.offCoord; rw [dif_pos (by decide)]; rfl
    omega
  | ⟨1, _⟩ =>
    show gP.start (ix3 b c k) st (1 : Fin 3) + gP.batchCoord (ix3 b c k) (1 : Fin 3)
      + gP.offCoord (ix3 b c k) (1 : Fin 3) = c.val
    have h1 : gP.start (ix3 b c k) st (1 : Fin 3) = 0 := by
      unfold GatherDims.start; exact dif_neg (by decide)
    have h2 : gP.batchCoord (ix3 b c k) (1 : Fin 3) = 0 := gP.batchCoord_eq_zero _ _ (by decide)
    have h3 : gP.offCoord (ix3 b c k) (1 : Fin 3) = c.val := by
      unfold GatherDims.offCoord; rw [dif_pos (by decide)]; rfl
    omega
  | ⟨2, _⟩ =>
    show gP.start (ix3 b c k) st (2 : Fin 3) + gP.batchCoord (ix3 b c k) (2 : Fin 3)
      + gP.offCoord (ix3 b c k) (2 : Fin 3) = min (st (ix2 k (0 : Fin 1))).toInt.toNat 8388607
    have h1 : gP.start (ix3 b c k) st (2 : Fin 3) = min (st (ix2 k (0 : Fin 1))).toInt.toNat 8388607 := by
      unfold GatherDims.start; rw [dif_pos (by decide), siIdx_eq]; rfl
    have h2 : gP.batchCoord (ix3 b c k) (2 : Fin 3) = 0 := gP.batchCoord_eq_zero _ _ (by decide)
    have h3 : gP.offCoord (ix3 b c k) (2 : Fin 3) = 0 := gP.offCoord_eq_zero _ _ (by decide)
    omega

/-- The same with the start index named. -/
theorem gatherP_apply_of (xf : Vec F S2x3x8388608 .f32) (st : IVec S5242880x1 32) (b : Fin 2) (c : Fin 3) (k : Fin 5242880)
    (w : BitVec 32) (hw : st (ix2 k (0 : Fin 1)) = w) :
    Host.gather gP xf st (ix3 b c k) = xf (ix3 b c ⟨min w.toInt.toNat 8388607, by omega⟩) := by
  subst hw; exact gatherP_apply xf st b c k

/-- THE TAKE READ AT (b, c, k): the tap of channel (b, c) at sample k's position. -/
theorem takeP_apply (xf : Vec F S2x3x8388608 .f32) (idx : IVec S5242880 32) (b : Fin 2) (c : Fin 3) (k : Fin 5242880) :
    RTake.takeP xf idx (ix3 b c k) = Cert.Resample.tap xf b c (idx (ix1 k)) := by
  unfold RTake.takeP
  rw [select_apply,
    broadcastInDim_apply _ _ (RTake.insideP (RTake.startsP idx)) (ix3 b c k) (ix1 k) (fun a => by
      match a with
      | ⟨0, _⟩ => rfl),
    insideP_apply, startsP_apply,
    gatherP_apply_of xf (RTake.startsP idx) b c k _ (startsP_apply idx k 0)]
  rfl

/-- A per-sample array broadcast over batch and colour reads, at (b, c, k), sample k's value. -/
theorem up_apply (w : Vec F S5242880 .f32) (b : Fin 2) (c : Fin 3) (k : Fin 5242880) :
    RTake.up w (ix3 b c k) = w (ix1 k) := by
  unfold RTake.up
  refine (broadcastInDim_apply _ _ _ (ix3 b c k) (ix3 (0 : Fin 1) (0 : Fin 1) k) (fun a => ?_)).trans ?_
  · match a with
    | ⟨0, _⟩ => rfl
    | ⟨1, _⟩ => rfl
    | ⟨2, _⟩ => rfl
  · refine broadcastInDim_apply _ _ _ (ix3 (0 : Fin 1) (0 : Fin 1) k) (ix1 k) (fun a => ?_)
    match a with
    | ⟨0, _⟩ => rfl

/-- THE BLEND READ AT (b, c, k): the blend of the four taps' elements there by sample k's two weights. -/
theorem blend3_apply (v00 v01 v10 v11 : Vec F S2x3x5242880 .f32) (wx wy : Vec F S5242880 .f32) (b : Fin 2) (c : Fin 3)
    (k : Fin 5242880) :
    RTake.blend3 v00 v01 v10 v11 wx wy (ix3 b c k)
      = Cert.Resample.blend (v00 (ix3 b c k)) (v01 (ix3 b c k)) (v10 (ix3 b c k)) (v11 (ix3 b c k)) (wx (ix1 k)) (wy (ix1 k)) := by
  unfold RTake.blend3
  show FloatOps.addf
      (FloatOps.mulf
        (FloatOps.addf (FloatOps.mulf (v00 (ix3 b c k)) (RTake.up (subf RTake.oneP wx) (ix3 b c k)))
          (FloatOps.mulf (v01 (ix3 b c k)) (RTake.up wx (ix3 b c k))))
        (RTake.up (subf RTake.oneP wy) (ix3 b c k)))
      (FloatOps.mulf
        (FloatOps.addf (FloatOps.mulf (v10 (ix3 b c k)) (RTake.up (subf RTake.oneP wx) (ix3 b c k)))
          (FloatOps.mulf (v11 (ix3 b c k)) (RTake.up wx (ix3 b c k))))
        (RTake.up wy (ix3 b c k))) = _
  rw [up_apply (subf RTake.oneP wx), up_apply wx, up_apply (subf RTake.oneP wy), up_apply wy]
  rfl

end Cert.ReferenceIdeal.RTakeAt

end
-- ==== Proof.Bridge.lean ====
/-
  The two programs' results are one function of the argument arrays.

  Element (b, c, n, p, q) of the reference's result is, through its reshape, element (b, c, k) of its blend over the
  samples in one row, k the place of sample (n, p, q) in the row; there the blend is `blend` of the four taps and the two
  weights at k, each tap `tap image b c (flat (row· sy) (col· sx))` at the row's k-th coordinates, and the row's k-th
  coordinates are sample (n, p, q)'s.  Element (b, c, n, p, q) of the kernel program's result is `blend` of the same four
  taps and two weights at sample (n, p, q).  The argument arrays agree, so the two are equal.
-/
import proofs.«127784_j58463094833211_2_alg».proof.Proof.KValue
import proofs.«127784_j58463094833211_2_alg».proof.Proof.KTakeAt
import proofs.«127784_j58463094833211_2_alg».proof.Proof.RHost
import proofs.«127784_j58463094833211_2_alg».proof.Proof.RTakeAt
import proofs.«127784_j58463094833211_2_alg».proof.Proof.Layout

set_option pp.maxSteps 5000
set_option pp.deepTerms false

noncomputable section

namespace Cert.Bridge

open Idealize.ShloMosaic Idealize.ShloMosaic.TcCoe Idealize.ShloMosaic.ValueIdx Cert.Resample

/-- The reference's result term, at arrays equal to the kernel program's arguments, is the kernel program's result. -/
theorem result_eq (m : (ℓ : Loc Cert.KernelIdeal.nD Cert.KernelIdeal.τ Cert.KernelIdeal.sig) → Buf (Elt Ideal) ℓ) (c : Dev Cert.KernelIdeal.nD)
    (a0 : Vec Ideal Cert.ReferenceIdeal.S2x3x2048x4096 .f32) (a1 : Vec Ideal Cert.ReferenceIdeal.S80x256x256x2 .f32)
    (h0 : a0 = m ((c : Thread Cert.KernelIdeal.nD Cert.KernelIdeal.τ).loc Cert.KernelIdeal.main_arg0))
    (h1 : a1 = m ((c : Thread Cert.KernelIdeal.nD Cert.KernelIdeal.τ).loc Cert.KernelIdeal.main_arg1)) :
    shapeCast Cert.ReferenceIdeal.S2x3x80x256x256
        (Cert.ReferenceIdeal.RTake.blend3 (F := Ideal)
          (Cert.ReferenceIdeal.RTake.takeP (Cert.ReferenceIdeal.RHost.imageOf a0) fun k => flat (row0 (Cert.ReferenceIdeal.RHost.syP a1 k)) (col0 (Cert.ReferenceIdeal.RHost.sxP a1 k)))
          (Cert.ReferenceIdeal.RTake.takeP (Cert.ReferenceIdeal.RHost.imageOf a0) fun k => flat (row0 (Cert.ReferenceIdeal.RHost.syP a1 k)) (col1 (Cert.ReferenceIdeal.RHost.sxP a1 k)))
          (Cert.ReferenceIdeal.RTake.takeP (Cert.ReferenceIdeal.RHost.imageOf a0) fun k => flat (row1 (Cert.ReferenceIdeal.RHost.syP a1 k)) (col0 (Cert.ReferenceIdeal.RHost.sxP a1 k)))
          (Cert.ReferenceIdeal.RTake.takeP (Cert.ReferenceIdeal.RHost.imageOf a0) fun k => flat (row1 (Cert.ReferenceIdeal.RHost.syP a1 k)) (col1 (Cert.ReferenceIdeal.RHost.sxP a1 k)))
          (fun k => frac (Cert.ReferenceIdeal.RHost.sxP a1 k)) (fun k => frac (Cert.ReferenceIdeal.RHost.syP a1 k)))
        Cert.ReferenceIdeal.Facts₀.shapeCasts_S2x3x5242880_S2x3x80x256x256
      = Cert.KernelIdeal.KValue.result m c := by
  subst h0 h1
  funext j
  obtain ⟨b, c', n, p, q, rfl⟩ : ∃ (b : Fin 2) (c' : Fin 3) (n : Fin 80) (p q : Fin 256), j = ix5 b c' n p q :=
    ⟨j 0, j 1, j 2, j 3, j 4, eq_ix5 j⟩
  -- the samples' coordinates in the row are the samples' coordinates
  have hx : Cert.ReferenceIdeal.RHost.sxP (F := Ideal) (m ((c : Thread Cert.KernelIdeal.nD Cert.KernelIdeal.τ).loc Cert.KernelIdeal.main_arg1)) (ix1 (flatOf n p q))
      = Cert.KernelIdeal.KHost.sx (Cert.KernelIdeal.KHost.mapOf m c) (ix3 n p q) := cast_flat _ _ n p q
  have hy : Cert.ReferenceIdeal.RHost.syP (F := Ideal) (m ((c : Thread Cert.KernelIdeal.nD Cert.KernelIdeal.τ).loc Cert.KernelIdeal.main_arg1)) (ix1 (flatOf n p q))
      = Cert.KernelIdeal.KHost.sy (Cert.KernelIdeal.KHost.mapOf m c) (ix3 n p q) := cast_flat _ _ n p q
  refine (cast_out _ _ b c' n p q).trans ?_
  rw [Cert.ReferenceIdeal.RTakeAt.blend3_apply, Cert.ReferenceIdeal.RTakeAt.takeP_apply, Cert.ReferenceIdeal.RTakeAt.takeP_apply,
    Cert.ReferenceIdeal.RTakeAt.takeP_apply, Cert.ReferenceIdeal.RTakeAt.takeP_apply]
  show blend (tap _ b c' (flat (row0 (Cert.ReferenceIdeal.RHost.syP _ (ix1 (flatOf n p q)))) (col0 (Cert.ReferenceIdeal.RHost.sxP _ (ix1 (flatOf n p q))))))
      (tap _ b c' (flat (row0 (Cert.ReferenceIdeal.RHost.syP _ (ix1 (flatOf n p q)))) (col1 (Cert.ReferenceIdeal.RHost.sxP _ (ix1 (flatOf n p q))))))
      (tap _ b c' (flat (row1 (Cert.ReferenceIdeal.RHost.syP _ (ix1 (flatOf n p q)))) (col0 (Cert.ReferenceIdeal.RHost.sxP _ (ix1 (flatOf n p q))))))
      (tap _ b c' (flat (row1 (Cert.ReferenceIdeal.RHost.syP _ (ix1 (flatOf n p q)))) (col1 (Cert.ReferenceIdeal.RHost.sxP _ (ix1 (flatOf n p q))))))
      (frac (Cert.ReferenceIdeal.RHost.sxP _ (ix1 (flatOf n p q)))) (frac (Cert.ReferenceIdeal.RHost.syP _ (ix1 (flatOf n p q)))) = _
  rw [hx, hy]
  unfold Cert.KernelIdeal.KValue.result blend5
  show _ = blend (Cert.KernelIdeal.KTake.take _ _ (ix5 b c' n p q)) (Cert.KernelIdeal.KTake.take _ _ (ix5 b c' n p q))
      (Cert.KernelIdeal.KTake.take _ _ (ix5 b c' n p q)) (Cert.KernelIdeal.KTake.take _ _ (ix5 b c' n p q)) _ _
  rw [Cert.KernelIdeal.KTakeAt.take_apply, Cert.KernelIdeal.KTakeAt.take_apply, Cert.KernelIdeal.KTakeAt.take_apply,
    Cert.KernelIdeal.KTakeAt.take_apply]

end Cert.Bridge

end
-- ==== Proof.lean ====
/-
  The certificate of the tangent-image resampling kernel against its reference.

  Both programs compute, for every batch, colour and sample, the bilinear blend of four gathered pixels of the image by the
  fractional parts of the sample's coordinates; they differ in layout only.  The kernel program gathers on the host over the
  80 × 256 × 256 samples, blends in a pipelined region over blocks of a six-channel layout and reshapes; the reference does
  everything on the host with the samples in one row of 5242880.

  Frames: the two kernel programs' are the generated frame certificates; the reference is a straight line of host operations
  (`RefRun`), whose run leaves the arguments as launched.  The idealization rewrote nothing, so `preserves` is trivial.  The
  value claim: the kernel program's result is `KValue.result` — the region's output assembled from its blocks
  (`KernelOut`), over the arrays the host operations leave (`KHost`), through the final reshape (`KTail`) — the
  reference's result is the fold of its operations (`RHost`), and the two are one function of the arguments, index by
  index (`Bridge`).  No law of the extended reals is used beyond the equality of the operations applied: the
  precondition is never opened.
-/
import proofs.«127784_j58463094833211_2_alg».proof.Defs
import proofs.«127784_j58463094833211_2_alg».proof.Proof.Gen.Kernel.Frame
import proofs.«127784_j58463094833211_2_alg».proof.Proof.Gen.KernelIdeal.Frame
import proofs.«127784_j58463094833211_2_alg».proof.Proof.Gen.ReferenceIdeal
import proofs.«127784_j58463094833211_2_alg».proof.Proof.Gen.Pre_finite_inputs
import proofs.«127784_j58463094833211_2_alg».proof.Proof.KValue
import proofs.«127784_j58463094833211_2_alg».proof.Proof.RefRun
import proofs.«127784_j58463094833211_2_alg».proof.Proof.RHost
import proofs.«127784_j58463094833211_2_alg».proof.Proof.Bridge

noncomputable section

namespace Cert.Proof

open Idealize.ShloMosaic Idealize.ShloMosaic.StableHlo Idealize.SL.Sem

/-- The kernel program as printed runs and leaves its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations, none of which writes an argument. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.RHost.arg0_eq _),
      (h c Cert.ReferenceIdeal.main_arg1).trans (Cert.ReferenceIdeal.RHost.arg1_eq _)⟩)
    (Cert.ReferenceIdeal.RefRun.run (F := Ideal) m ρ)

/-- At the extended reals both programs end with the blend of the four taps, element by element. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun r h c => ⟨?_, ?_, ?_⟩) (Cert.ReferenceIdeal.RefRun.run (F := Ideal) m' ρ')
  · refine (h c Cert.ReferenceIdeal.main_v64).trans ?_
    rw [Cert.ReferenceIdeal.RHost.result_eq]
    exact Cert.Bridge.result_eq m c _ _ (hagree c).1 (hagree c).2
  · exact (h c Cert.ReferenceIdeal.main_arg0).trans (Cert.ReferenceIdeal.RHost.arg0_eq _)
  · exact (h c Cert.ReferenceIdeal.main_arg1).trans (Cert.ReferenceIdeal.RHost.arg1_eq _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
